-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100 : Shape := ⟨2, ![8, 100]⟩
abbrev S4000x100 : Shape := ⟨2, ![4000, 100]⟩
abbrev S_ : Shape := ⟨0, ![]⟩

class Facts : Prop where
  bcast_S_S8x100 : S_.BroadcastsInDim S8x100 (![] : Fin 0 → Fin S8x100.rank)
  reducesTo_S8x100_S_d0_1 : S8x100.ReducesTo [0, 1] S_
  h_S_ : 0 < S_.numel
  bcast_S_S4000x100 : S_.BroadcastsInDim S4000x100 (![] : Fin 0 → Fin S4000x100.rank)
  reducesTo_S4000x100_S_d0_1 : S4000x100.ReducesTo [0, 1] S_

variable [Facts]

def fn_part1 {F : FTy → Type} [FloatOps F] (main_arg4 : FVec F S4000x100 .f32) (main_arg5 : FVec F S4000x100 .f32) (main_arg6 : FVec F S4000x100 .f32) (main_v13 : IVec S_ 1) (main_v16 : IVec S4000x100 1) : IVec S_ 1 :=
  let main_c_5 : IVec S_ 1 := constantI S_ 1 1#1
  let main_v17 : IVec S_ 1 := (fun x v => Host.reduce IntOp.andi x v reducesTo_S4000x100_S_d0_1 h_S_) main_v16 main_c_5
  let main_v18 : IVec S_ 1 := andi main_v13 main_v17
  let main_v19 : FVec F S4000x100 .f32 := Host.absf main_arg4
  let main_cst_6 : FVec F S_ .f32 := constant S_ .f32 0x7F800000#32
  let main_v20 : FVec F S4000x100 .f32 := broadcastInDim S4000x100 ![] bcast_S_S4000x100 main_cst_6
  let main_v21 : IVec S4000x100 1 := cmpf .olt main_v19 main_v20
  let main_c_7 : IVec S_ 1 := constantI S_ 1 1#1
  let main_v22 : IVec S_ 1 := (fun x v => Host.reduce IntOp.andi x v reducesTo_S4000x100_S_d0_1 h_S_) main_v21 main_c_7
  let main_v23 : IVec S_ 1 := andi main_v18 main_v22
  let main_v24 : FVec F S4000x100 .f32 := Host.absf main_arg5
  let main_cst_8 : FVec F S_ .f32 := constant S_ .f32 0x7F800000#32
  let main_v25 : FVec F S4000x100 .f32 := broadcastInDim S4000x100 ![] bcast_S_S4000x100 main_cst_8
  let main_v26 : IVec S4000x100 1 := cmpf .olt main_v24 main_v25
  let main_c_9 : IVec S_ 1 := constantI S_ 1 1#1
  let main_v27 : IVec S_ 1 := (fun x v => Host.reduce IntOp.andi x v reducesTo_S4000x100_S_d0_1 h_S_) main_v26 main_c_9
  let main_v28 : IVec S_ 1 := andi main_v23 main_v27
  let main_v29 : FVec F S4000x100 .f32 := Host.absf main_arg6
  let main_cst_10 : FVec F S_ .f32 := constant S_ .f32 0x7F800000#32
  let main_v30 : FVec F S4000x100 .f32 := broadcastInDim S4000x100 ![] bcast_S_S4000x100 main_cst_10
  let main_v31 : IVec S4000x100 1 := cmpf .olt main_v29 main_v30
  let main_c_11 : IVec S_ 1 := constantI S_ 1 1#1
  let main_v32 : IVec S_ 1 := (fun x v => Host.reduce IntOp.andi x v reducesTo_S4000x100_S_d0_1 h_S_) main_v31 main_c_11
  let main_v33 : IVec S_ 1 := andi main_v28 main_v32
  main_v33

def fn {F : FTy → Type} [FloatOps F] (main_arg0 : FVec F S8x100 .f32) (main_arg1 : FVec F S8x100 .f32) (main_arg2 : FVec F S8x100 .f32) (main_arg3 : FVec F S4000x100 .f32) (main_arg4 : FVec F S4000x100 .f32) (main_arg5 : FVec F S4000x100 .f32) (main_arg6 : FVec F S4000x100 .f32) : IVec S_ 1 :=
  let main_v0 : FVec F S8x100 .f32 := Host.absf main_arg0
  let main_cst : FVec F S_ .f32 := constant S_ .f32 0x7F800000#32
  let main_v1 : FVec F S8x100 .f32 := broadcastInDim S8x100 ![] bcast_S_S8x100 main_cst
  let main_v2 : IVec S8x100 1 := cmpf .olt main_v0 main_v1
  let main_c : IVec S_ 1 := constantI S_ 1 1#1
  let main_v3 : IVec S_ 1 := (fun x v => Host.reduce IntOp.andi x v reducesTo_S8x100_S_d0_1 h_S_) main_v2 main_c
  let main_v4 : FVec F S8x100 .f32 := Host.absf main_arg1
  let main_cst_0 : FVec F S_ .f32 := constant S_ .f32 0x7F800000#32
  let main_v5 : FVec F S8x100 .f32 := broadcastInDim S8x100 ![] bcast_S_S8x100 main_cst_0
  let main_v6 : IVec S8x100 1 := cmpf .olt main_v4 main_v5
  let main_c_1 : IVec S_ 1 := constantI S_ 1 1#1
  let main_v7 : IVec S_ 1 := (fun x v => Host.reduce IntOp.andi x v reducesTo_S8x100_S_d0_1 h_S_) main_v6 main_c_1
  let main_v8 : IVec S_ 1 := andi main_v3 main_v7
  let main_v9 : FVec F S8x100 .f32 := Host.absf main_arg2
  let main_cst_2 : FVec F S_ .f32 := constant S_ .f32 0x7F800000#32
  let main_v10 : FVec F S8x100 .f32 := broadcastInDim S8x100 ![] bcast_S_S8x100 main_cst_2
  let main_v11 : IVec S8x100 1 := cmpf .olt main_v9 main_v10
  let main_c_3 : IVec S_ 1 := constantI S_ 1 1#1
  let main_v12 : IVec S_ 1 := (fun x v => Host.reduce IntOp.andi x v reducesTo_S8x100_S_d0_1 h_S_) main_v11 main_c_3
  let main_v13 : IVec S_ 1 := andi main_v8 main_v12
  let main_v14 : FVec F S4000x100 .f32 := Host.absf main_arg3
  let main_cst_4 : FVec F S_ .f32 := constant S_ .f32 0x7F800000#32
  let main_v15 : FVec F S4000x100 .f32 := broadcastInDim S4000x100 ![] bcast_S_S4000x100 main_cst_4
  let main_v16 : IVec S4000x100 1 := cmpf .olt main_v14 main_v15
  fn_part1 (F := F) main_arg4 main_arg5 main_arg6 main_v13 main_v16
-- ==== Kernel.lean ====
abbrev S8x100 : Shape := ⟨2, ![8, 100]⟩
abbrev S4000x100 : Shape := ⟨2, ![4000, 100]⟩
abbrev S_ : Shape := ⟨0, ![]⟩
abbrev S8x128 : Shape := ⟨2, ![8, 128]⟩
abbrev S4000x128 : Shape := ⟨2, ![4000, 128]⟩
abbrev S8x4000 : Shape := ⟨2, ![8, 4000]⟩
abbrev S8 : Shape := ⟨1, ![8]⟩
abbrev S8x1 : Shape := ⟨2, ![8, 1]⟩
abbrev S4000 : Shape := ⟨1, ![4000]⟩
abbrev S1x4000 : Shape := ⟨2, ![1, 4000]⟩
abbrev S4096x128 : Shape := ⟨2, ![4096, 128]⟩
abbrev S8x4096 : Shape := ⟨2, ![8, 4096]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S512x4000 : Shape := ⟨2, ![512, 4000]⟩
abbrev S1x512 : Shape := ⟨2, ![1, 512]⟩

abbrev nBuf : Space → Nat
  | .hbm => 34
  | .vmem => 18
  | .smem => 0
  | _ => 0

abbrev bufTy : (tb : Table) → Fin (tcTables nBuf tb) → BufTy
  | .hbm, ⟨0, _⟩ => ⟨S8x100, .f32⟩
  | .hbm, ⟨1, _⟩ => ⟨S8x100, .f32⟩
  | .hbm, ⟨2, _⟩ => ⟨S8x100, .f32⟩
  | .hbm, ⟨3, _⟩ => ⟨S4000x100, .f32⟩
  | .hbm, ⟨4, _⟩ => ⟨S4000x100, .f32⟩
  | .hbm, ⟨5, _⟩ => ⟨S4000x100, .f32⟩
  | .hbm, ⟨6, _⟩ => ⟨S4000x100, .f32⟩
  | .hbm, ⟨7, _⟩ => ⟨S_, .i32⟩
  | .hbm, ⟨8, _⟩ => ⟨S_, .f32⟩
  | .hbm, ⟨9, _⟩ => ⟨S8x128, .f32⟩
  | .hbm, ⟨10, _⟩ => ⟨S_, .i32⟩
  | .hbm, ⟨11, _⟩ => ⟨S_, .f32⟩
  | .hbm, ⟨12, _⟩ => ⟨S8x128, .f32⟩
  | .hbm, ⟨13, _⟩ => ⟨S_, .i32⟩
  | .hbm, ⟨14, _⟩ => ⟨S_, .f32⟩
  | .hbm, ⟨15, _⟩ => ⟨S8x128, .f32⟩
  | .hbm, ⟨16, _⟩ => ⟨S_, .i32⟩
  | .hbm, ⟨17, _⟩ => ⟨S_, .f32⟩
  | .hbm, ⟨18, _⟩ => ⟨S4000x128, .f32⟩
  | .hbm, ⟨19, _⟩ => ⟨S_, .i32⟩
  | .hbm, ⟨20, _⟩ => ⟨S_, .f32⟩
  | .hbm, ⟨21, _⟩ => ⟨S4000x128, .f32⟩
  | .hbm, ⟨22, _⟩ => ⟨S_, .i32⟩
  | .hbm, ⟨23, _⟩ => ⟨S_, .f32⟩
  | .hbm, ⟨24, _⟩ => ⟨S4000x128, .f32⟩
  | .hbm, ⟨25, _⟩ => ⟨S8x4000, .f32⟩
  | .hbm, ⟨26, _⟩ => ⟨S8x4000, .f32⟩
  | .hbm, ⟨27, _⟩ => ⟨S_, .i32⟩
  | .hbm, ⟨28, _⟩ => ⟨S_, .f32⟩
  | .hbm, ⟨29, _⟩ => ⟨S4096x128, .f32⟩
  | .hbm, ⟨30, _⟩ => ⟨S8x4096, .f32⟩
  | .hbm, ⟨31, _⟩ => ⟨S8x4096, .f32⟩
  | .hbm, ⟨32, _⟩ => ⟨S8x4000, .f32⟩
  | .hbm, ⟨33, _⟩ => ⟨S8x4000, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S8x4000, .f32⟩
  | .local _ .vmem, ⟨7, _⟩ => ⟨S8x4000, .f32⟩
  | .local _ .vmem, ⟨8, _⟩ => ⟨S512x128, .f32⟩
  | .local _ .vmem, ⟨9, _⟩ => ⟨S512x128, .f32⟩
  | .local _ .vmem, ⟨10, _⟩ => ⟨S4000x128, .f32⟩
  | .local _ .vmem, ⟨11, _⟩ => ⟨S4000x128, .f32⟩
  | .local _ .vmem, ⟨12, _⟩ => ⟨S8x4000, .f32⟩
  | .local _ .vmem, ⟨13, _⟩ => ⟨S8x4000, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | _, _ => ⟨S8x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_c_4 : Ref sig .tc := ⟨.hbm, 22, rfl⟩
abbrev main_call5_v0 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_c_5 : Ref sig .tc := ⟨.hbm, 27, rfl⟩
abbrev main_call6_v0 : Ref sig .tc := ⟨.hbm, 28, rfl⟩
abbrev main_v7 : Ref sig .tc := ⟨.hbm, 29, rfl⟩
abbrev main_v8_0 : Ref sig .tc := ⟨.hbm, 30, rfl⟩
abbrev main_v8_1 : Ref sig .tc := ⟨.hbm, 31, rfl⟩
abbrev main_v9 : Ref sig .tc := ⟨.hbm, 32, rfl⟩
abbrev main_v10 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![8], ![false]⟩

@[reducible] def k1_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k1_off1 (k1_t1 : Fin k1_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k1_t1
  let c1_i32_8 : BitVec 32 := 1#32
  let v12 : BitVec 32 := Scalar.muli arg8 c1_i32_8
  let v13 : BitVec 32 := Scalar.addi c0_i32_9 v12
  let v14 : Index := Scalar.indexCast v13
  let c0_10 : Index := 0#32
  ![v14.toNat, 0]
def k1_off2 (k1_t1 : Fin k1_t1_loop.trips) : Fin 2 → Nat :=
  let c0_i32_9 : BitVec 32 := 0#32
  let c0_i32 : BitVec 32 := 0#32
  let c1_i32 : BitVec 32 := 1#32
  let arg8 : BitVec 32 := Scf.iv c0_i32 c1_i32 k1_t1
  let c1_i32_8 : BitVec 32 := 1#32
  let v12 : BitVec 32 := Scalar.muli arg8 c1_i32_8
  let v13 : BitVec 32 := Scalar.addi c0_i32_9 v12
  let v37 : Index := Scalar.indexCast v13
  let c0_17 : Index := 0#32
  ![v37.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x4000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  pads_S8x100_S8x128_000_0280 : S8x100.Pads (![0, 0] : Fin 2 → Nat) ![0, 28] ![0, 0] S8x128
  h_S_ : 0 < S_.numel
  pads_S4000x100_S4000x128_000_0280 : S4000x100.Pads (![0, 0] : Fin 2 → Nat) ![0, 28] ![0, 0] S4000x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S8x128_S8 : S8x128.Reduces [1] S8
  shapeCasts_S8_S8x1 : S8.ShapeCasts S8x1
  reduces_S4000x128_S4000 : S4000x128.Reduces [1] S4000
  shapeCasts_S4000_S1x4000 : S4000.ShapeCasts S1x4000
  broadcasts_S1x4000_S8x4000 : S1x4000.Broadcasts S8x4000
  broadcasts_S8x1_S8x4000 : S8x1.Broadcasts S8x4000
  inb_S8x4000_S8x4000_0_0 : ∀ a, (![0, 0] : Fin 2 → Nat) a + S8x4000.size a ≤ S8x4000.size a
  h_S8x4000 : 0 < S8x4000.numel
  pads_S4000x100_S4096x128_0960_0280 : S4000x100.Pads (![0, 0] : Fin 2 → Nat) ![96, 28] ![0, 0] S4096x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  h_S1x4000 : 0 < S1x4000.numel
  shapeCasts_S1x4000_S4000 : S1x4000.ShapeCasts S4000
  broadcasts_S1x4000_S512x4000 : S1x4000.Broadcasts S512x4000
  reduces_S512x4000_S512 : S512x4000.Reduces [1] S512
  shapeCasts_S512x1_S512 : S512x1.ShapeCasts S512
  h_S1x512 : 0 < S1x512.numel
  shapeCasts_S1x512_S512 : S1x512.ShapeCasts S512
  shapeCasts_S512_S1x512 : S512.ShapeCasts S1x512
  slices_S8x4096_S8x4000_0_0 : S8x4096.Slices ![0, 0] S8x4000
  dot_S8x128_S4000x128_S8x4000_1_1_0_0_n_n_wf : DotDims.WF S8x128 S4000x128 S8x4000 [1] [1] [0] [0] [] []
  dot_S512x128_S4000x128_S512x4000_1_1_0_0_n_n_wf : DotDims.WF S512x128 S4000x128 S512x4000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S8x128.size a
  hwx0_0 : ∀ i : grid0.Coords, EltTy.bits .f32 = 32 ∨ (Rect.block (s := S8x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S4000x128.size a
  hwx0_3 : ∀ i : grid0.Coords, EltTy.bits .f32 = 32 ∨ (Rect.block (s := S4000x128) S4000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S4000x128.size a
  hwx0_4 : ∀ i : grid0.Coords, EltTy.bits .f32 = 32 ∨ (Rect.block (s := S4000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S4000x128.size a
  hwx0_5 : ∀ i : grid0.Coords, EltTy.bits .f32 = 32 ∨ (Rect.block (s := S4000x128) S4000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x4000.size a ≤ S8x4000.size a
  hwx0_6 : ∀ i : grid0.Coords, EltTy.bits .f32 = 32 ∨ (Rect.block (s := S8x4000) S8x4000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x4000.size a ≤ S8x4000.size a
  hwx0_7 : ∀ i : grid0.Coords, EltTy.bits .f32 = 32 ∨ (Rect.block (s := S8x4000) S8x4000.size (cc0_transform_7 i) (hinb0_7 i)).WholeWords (EltTy.packing .f32)
  hrank1 : 0 < grid1.rank
  k1_t1_ok : k1_t1_loop.OK
  k1_off1_inb : ∀ k1_t1 : Fin k1_t1_loop.trips, ∀ a, (k1_off1 k1_t1) a + S1x4000.size a ≤ S8x4000.size a
  k1_off2_inb : ∀ k1_t1 : Fin k1_t1_loop.trips, ∀ a, (k1_off2 k1_t1) a + S1x512.size a ≤ S8x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S4000x128.size a
  hwx1_1 : ∀ i : grid1.Coords, EltTy.bits .f32 = 32 ∨ (Rect.block (s := S4000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S4000x128.size a
  hwx1_2 : ∀ i : grid1.Coords, EltTy.bits .f32 = 32 ∨ (Rect.block (s := S4000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4000.size a ≤ S8x4000.size a
  hwx1_3 : ∀ i : grid1.Coords, EltTy.bits .f32 = 32 ∨ (Rect.block (s := S8x4000) S8x4000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x4000.size a ≤ S8x4000.size a
  hwx1_4 : ∀ i : grid1.Coords, EltTy.bits .f32 = 32 ∨ (Rect.block (s := S8x4000) S8x4000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x512.size a ≤ S8x4096.size a
  hwx1_5 : ∀ i : grid1.Coords, EltTy.bits .f32 = 32 ∨ (Rect.block (s := S8x4096) S8x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x512.size a ≤ S8x4096.size a
  hwx1_6 : ∀ i : grid1.Coords, EltTy.bits .f32 = 32 ∨ (Rect.block (s := S8x4096) S8x512.size (cc1_transform_6 i) (hinb1_6 i)).WholeWords (EltTy.packing .f32)

variable [Facts₀]

def dot_S8x128_S4000x128_S8x4000_1_1_0_0_n_n : DotDims S8x128 S4000x128 S8x4000 where
  lhsContracting := [1]
  rhsContracting := [1]
  lhsNonContracting := [0]
  rhsNonContracting := [0]
  lhsBatch := []
  rhsBatch := []
  wf := dot_S8x128_S4000x128_S8x4000_1_1_0_0_n_n_wf
def dot_S512x128_S4000x128_S512x4000_1_1_0_0_n_n : DotDims S512x128 S4000x128 S512x4000 where
  lhsContracting := [1]
  rhsContracting := [1]
  lhsNonContracting := [0]
  rhsNonContracting := [0]
  lhsBatch := []
  rhsBatch := []
  wf := dot_S512x128_S4000x128_S512x4000_1_1_0_0_n_n_wf

abbrev win0_0 : Pipeline.Window sig grid0 :=
  Pipeline.Window.ofSpec (Memref.whole main_v0) S8x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4000x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4000x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S8x4000.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S8x4000.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S8x4000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S8x4000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S8x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S8x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x100 : Shape := ⟨2, ![8, 100]⟩
abbrev S4000x100 : Shape := ⟨2, ![4000, 100]⟩
abbrev S4000x300 : Shape := ⟨2, ![4000, 300]⟩
abbrev S8x1x100 : Shape := ⟨3, ![8, 1, 100]⟩
abbrev S8x4000x100 : Shape := ⟨3, ![8, 4000, 100]⟩
abbrev S1x4000x100 : Shape := ⟨3, ![1, 4000, 100]⟩
abbrev S8x4000x300 : Shape := ⟨3, ![8, 4000, 300]⟩
abbrev S_ : Shape := ⟨0, ![]⟩
abbrev S8x4000 : Shape := ⟨2, ![8, 4000]⟩
abbrev S8x4000x1 : Shape := ⟨3, ![8, 4000, 1]⟩
abbrev S4000 : Shape := ⟨1, ![4000]⟩
abbrev S8x4000x4000 : Shape := ⟨3, ![8, 4000, 4000]⟩
abbrev S1x1x4000 : Shape := ⟨3, ![1, 1, 4000]⟩

abbrev nBuf : Space → Nat
  | .hbm => 70
  | .vmem => 0
  | .smem => 0
  | _ => 0

abbrev bufTy : (tb : Table) → Fin (tcTables nBuf tb) → BufTy
  | .hbm, ⟨0, _⟩ => ⟨S8x100, .f32⟩
  | .hbm, ⟨1, _⟩ => ⟨S8x100, .f32⟩
  | .hbm, ⟨2, _⟩ => ⟨S8x100, .f32⟩
  | .hbm, ⟨3, _⟩ => ⟨S4000x100, .f32⟩
  | .hbm, ⟨4, _⟩ => ⟨S4000x100, .f32⟩
  | .hbm, ⟨5, _⟩ => ⟨S4000x100, .f32⟩
  | .hbm, ⟨6, _⟩ => ⟨S4000x100, .f32⟩
  | .hbm, ⟨7, _⟩ => ⟨S4000x300, .f32⟩
  | .hbm, ⟨8, _⟩ => ⟨S8x1x100, .f32⟩
  | .hbm, ⟨9, _⟩ => ⟨S8x4000x100, .f32⟩
  | .hbm, ⟨10, _⟩ => ⟨S1x4000x100, .f32⟩
  | .hbm, ⟨11, _⟩ => ⟨S8x4000x100, .f32⟩
  | .hbm, ⟨12, _⟩ => ⟨S8x1x100, .f32⟩
  | .hbm, ⟨13, _⟩ => ⟨S8x4000x100, .f32⟩
  | .hbm, ⟨14, _⟩ => ⟨S8x4000x300, .f32⟩
  | .hbm, ⟨15, _⟩ => ⟨S8x4000x300, .f32⟩
  | .hbm, ⟨16, _⟩ => ⟨S_, .f32⟩
  | .hbm, ⟨17, _⟩ => ⟨S8x4000, .f32⟩
  | .hbm, ⟨18, _⟩ => ⟨S8x4000x1, .f32⟩
  | .hbm, ⟨19, _⟩ => ⟨S4000x300, .f32⟩
  | .hbm, ⟨20, _⟩ => ⟨S_, .f32⟩
  | .hbm, ⟨21, _⟩ => ⟨S4000, .f32⟩
  | .hbm, ⟨22, _⟩ => ⟨S8x4000x4000, .f32⟩
  | .hbm, ⟨23, _⟩ => ⟨S1x1x4000, .f32⟩
  | .hbm, ⟨24, _⟩ => ⟨S8x4000x4000, .f32⟩
  | .hbm, ⟨25, _⟩ => ⟨S8x4000x4000, .f32⟩
  | .hbm, ⟨26, _⟩ => ⟨S8x4000x4000, .f32⟩
  | .hbm, ⟨27, _⟩ => ⟨S_, .f32⟩
  | .hbm, ⟨28, _⟩ => ⟨S8x4000x4000, .f32⟩
  | .hbm, ⟨29, _⟩ => ⟨S8x4000x4000, .f32⟩
  | .hbm, ⟨30, _⟩ => ⟨S8x4000x4000, .f32⟩
  | .hbm, ⟨31, _⟩ => ⟨S_, .f32⟩
  | .hbm, ⟨32, _⟩ => ⟨S8x4000x4000, .f32⟩
  | .hbm, ⟨33, _⟩ => ⟨S8x4000x4000, .f32⟩
  | .hbm, ⟨34, _⟩ => ⟨S8x4000x4000, .f32⟩
  | .hbm, ⟨35, _⟩ => ⟨S_, .f32⟩
  | .hbm, ⟨36, _⟩ => ⟨S8x4000x4000, .f32⟩
  | .hbm, ⟨37, _⟩ => ⟨S8x4000x4000, .f32⟩
  | .hbm, ⟨38, _⟩ => ⟨S8x4000x4000, .f32⟩
  | .hbm, ⟨39, _⟩ => ⟨S_, .f32⟩
  | .hbm, ⟨40, _⟩ => ⟨S8x4000, .f32⟩
  | .hbm, ⟨41, _⟩ => ⟨S8x1x100, .f32⟩
  | .hbm, ⟨42, _⟩ => ⟨S8x4000x100, .f32⟩
  | .hbm, ⟨43, _⟩ => ⟨S8x4000x300, .f32⟩
  | .hbm, ⟨44, _⟩ => ⟨S8x4000x300, .f32⟩
  | .hbm, ⟨45, _⟩ => ⟨S_, .f32⟩
  | .hbm, ⟨46, _⟩ => ⟨S8x4000, .f32⟩
  | .hbm, ⟨47, _⟩ => ⟨S8x4000x1, .f32⟩
  | .hbm, ⟨48, _⟩ => ⟨S4000x300, .f32⟩
  | .hbm, ⟨49, _⟩ => ⟨S_, .f32⟩
  | .hbm, ⟨50, _⟩ => ⟨S4000, .f32⟩
  | .hbm, ⟨51, _⟩ => ⟨S8x4000x4000, .f32⟩
  | .hbm, ⟨52, _⟩ => ⟨S1x1x4000, .f32⟩
  | .hbm, ⟨53, _⟩ => ⟨S8x4000x4000, .f32⟩
  | .hbm, ⟨54, _⟩ => ⟨S8x4000x4000, .f32⟩
  | .hbm, ⟨55, _⟩ => ⟨S8x4000x4000, .f32⟩
  | .hbm, ⟨56, _⟩ => ⟨S_, .f32⟩
  | .hbm, ⟨57, _⟩ => ⟨S8x4000x4000, .f32⟩
  | .hbm, ⟨58, _⟩ => ⟨S8x4000x4000, .f32⟩
  | .hbm, ⟨59, _⟩ => ⟨S8x4000x4000, .f32⟩
  | .hbm, ⟨60, _⟩ => ⟨S_, .f32⟩
  | .hbm, ⟨61, _⟩ => ⟨S8x4000x4000, .f32⟩
  | .hbm, ⟨62, _⟩ => ⟨S8x4000x4000, .f32⟩
  | .hbm, ⟨63, _⟩ => ⟨S8x4000x4000, .f32⟩
  | .hbm, ⟨64, _⟩ => ⟨S_, .f32⟩
  | .hbm, ⟨65, _⟩ => ⟨S8x4000x4000, .f32⟩
  | .hbm, ⟨66, _⟩ => ⟨S8x4000x4000, .f32⟩
  | .hbm, ⟨67, _⟩ => ⟨S8x4000x4000, .f32⟩
  | .hbm, ⟨68, _⟩ => ⟨S_, .f32⟩
  | .hbm, ⟨69, _⟩ => ⟨S8x4000, .f32⟩
  | _, _ => ⟨S8x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  concatenates_S4000x100_S4000x100_S4000x100_S4000x300_d1 : Shape.Concatenates [S4000x100, S4000x100, S4000x100] S4000x300 1
  bcast_S8x100_S8x1x100_0_2 : S8x100.BroadcastsInDim S8x1x100 (![0, 2] : Fin 2 → Fin S8x1x100.rank)
  bcast_S8x1x100_S8x4000x100_0_1_2 : S8x1x100.BroadcastsInDim S8x4000x100 (![0, 1, 2] : Fin 3 → Fin S8x4000x100.rank)
  bcast_S4000x100_S1x4000x100_1_2 : S4000x100.BroadcastsInDim S1x4000x100 (![1, 2] : Fin 2 → Fin S1x4000x100.rank)
  bcast_S1x4000x100_S8x4000x100_0_1_2 : S1x4000x100.BroadcastsInDim S8x4000x100 (![0, 1, 2] : Fin 3 → Fin S8x4000x100.rank)
  concatenates_S8x4000x100_S8x4000x100_S8x4000x100_S8x4000x300_d2 : Shape.Concatenates [S8x4000x100, S8x4000x100, S8x4000x100] S8x4000x300 2
  reducesTo_S8x4000x300_S8x4000_d2 : S8x4000x300.ReducesTo [2] S8x4000
  h_S_ : 0 < S_.numel
  bcast_S8x4000_S8x4000x1_0_1 : S8x4000.BroadcastsInDim S8x4000x1 (![0, 1] : Fin 2 → Fin S8x4000x1.rank)
  reducesTo_S4000x300_S4000_d1 : S4000x300.ReducesTo [1] S4000
  bcast_S4000_S1x1x4000_2 : S4000.BroadcastsInDim S1x1x4000 (![2] : Fin 1 → Fin S1x1x4000.rank)
  bcast_S8x4000x1_S8x4000x4000_0_1_2 : S8x4000x1.BroadcastsInDim S8x4000x4000 (![0, 1, 2] : Fin 3 → Fin S8x4000x4000.rank)
  bcast_S1x1x4000_S8x4000x4000_0_1_2 : S1x1x4000.BroadcastsInDim S8x4000x4000 (![0, 1, 2] : Fin 3 → Fin S8x4000x4000.rank)
  bcast_S_S8x4000x4000 : S_.BroadcastsInDim S8x4000x4000 (![] : Fin 0 → Fin S8x4000x4000.rank)
  reducesTo_S8x4000x4000_S8x4000_d2 : S8x4000x4000.ReducesTo [2] S8x4000
  dot_S8x4000x300_S4000x300_S8x4000x4000_2_1_01_0_n_n_wf : DotDims.WF S8x4000x300 S4000x300 S8x4000x4000 [2] [1] [0, 1] [0] [] []

variable [Facts₀]

def dot_S8x4000x300_S4000x300_S8x4000x4000_2_1_01_0_n_n : DotDims S8x4000x300 S4000x300 S8x4000x4000 where
  lhsContracting := [2]
  rhsContracting := [1]
  lhsNonContracting := [0, 1]
  rhsNonContracting := [0]
  lhsBatch := []
  rhsBatch := []
  wf := dot_S8x4000x300_S4000x300_S8x4000x4000_2_1_01_0_n_n_wf

class Facts : Prop extends Facts₀ where

variable [Facts]
-- ==== Proof.TripK.lean ====
/-
  Region 1's loop over the eight batch rows, trip by trip. Trip k stores one row into each of the two output
  tiles: row k of the first holds the first score's payload of row k of the first coefficient array, row k of
  the second the second score's payload of row k of the second coefficient array. Neither row depends on what
  the output tiles held before the trip (the trip's reads of the output rows are dead), so the pieces written
  by the trips before n are the n row pieces listed here, the last trip's first.
-/
import proofs.«159620_j37701222924630_2_alg».proof.Proof.Gen.Kernel.Loops

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.Sem

variable {F : FTy → Type} [FloatOps F]

/-- The row piece trip k writes into the first output tile. -/
def piece5 (arg4 : Memref sig .tc .vmem S8x4000 .f32) (v0 : Vec F S512x128 .f32) (v4 : Vec F S4000x128 .f32)
    (X_arg4 : BufTy.Contents (Elt F) arg4.view.ty) (k : Fin k1_t1_loop.trips) : View.Piece (Elt F) S8x512 .f32 :=
  ⟨Rect.unit (s := S8x512) (k1_off2 k) S1x512.size (k1_off2_inb k),
    k1_pay6 (k1_pay2 v0) (k1_pay4 v0 v4) (View.readAt (Elt F) arg4.view (Rect.unit (s := S8x4000) (k1_off1 k) S1x4000.size (k1_off1_inb k)).toLoadRect X_arg4)⟩

/-- The row piece trip k writes into the second output tile. -/
def piece6 (arg5 : Memref sig .tc .vmem S8x4000 .f32) (v0 : Vec F S512x128 .f32) (v2 : Vec F S4000x128 .f32)
    (X_arg5 : BufTy.Contents (Elt F) arg5.view.ty) (k : Fin k1_t1_loop.trips) : View.Piece (Elt F) S8x512 .f32 :=
  ⟨Rect.unit (s := S8x512) (k1_off2 k) S1x512.size (k1_off2_inb k),
    k1_pay5 (k1_pay7 (k1_pay2 v0) (k1_pay3 v0 v2) (View.readAt (Elt F) arg5.view (Rect.unit (s := S8x4000) (k1_off1 k) S1x4000.size (k1_off1_inb k)).toLoadRect X_arg5))⟩

/-- The first tile's pieces of the trips before n, last trip first. -/
def rows5 (arg4 : Memref sig .tc .vmem S8x4000 .f32) (v0 : Vec F S512x128 .f32) (v4 : Vec F S4000x128 .f32)
    (X_arg4 : BufTy.Contents (Elt F) arg4.view.ty) : ℕ → List (View.Piece (Elt F) S8x512 .f32)
  | 0 => []
  | k + 1 => if h : k < k1_t1_loop.trips then piece5 arg4 v0 v4 X_arg4 ⟨k, h⟩ :: rows5 arg4 v0 v4 X_arg4 k else rows5 arg4 v0 v4 X_arg4 k

/-- The second tile's pieces of the trips before n, last trip first. -/
def rows6 (arg5 : Memref sig .tc .vmem S8x4000 .f32) (v0 : Vec F S512x128 .f32) (v2 : Vec F S4000x128 .f32)
    (X_arg5 : BufTy.Contents (Elt F) arg5.view.ty) : ℕ → List (View.Piece (Elt F) S8x512 .f32)
  | 0 => []
  | k + 1 => if h : k < k1_t1_loop.trips then piece6 arg5 v0 v2 X_arg5 ⟨k, h⟩ :: rows6 arg5 v0 v2 X_arg5 k else rows6 arg5 v0 v2 X_arg5 k

/-- One trip writes its two row pieces, whatever the output tiles held. -/
theorem tripL_eq (𝒱 : Variants) (c : Dev nD) (bd : Option 𝒱.V) (i : grid1.Coords) (arg1 : Memref sig .tc .vmem S512x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x4000 .f32) (harg4 : arg4.IsWhole) (arg5 : Memref sig .tc .vmem S8x4000 .f32) (harg5 : arg5.IsWhole) (arg6 : Memref sig .tc .vmem S8x512 .f32) (harg6 : arg6.IsWhole) (arg7 : Memref sig .tc .vmem S8x512 .f32) (harg7 : arg7.IsWhole) (v0 : Vec F S512x128 .f32) (v2 : Vec F S4000x128 .f32) (v4 : Vec F S4000x128 .f32) (X_arg4 : BufTy.Contents (Elt F) arg4.view.ty) (X_arg5 : BufTy.Contents (Elt F) arg5.view.ty) (k : Fin k1_t1_loop.trips) (f6 : BufTy.Contents (Elt F) arg6.view.ty) (f7 : BufTy.Contents (Elt F) arg7.view.ty) :
    tripL_k1_t1 (F := F) 𝒱 c bd i arg1 harg1 arg2 harg2 arg3 harg3 arg4 harg4 arg5 harg5 arg6 harg6 arg7 harg7 v0 v2 v4 X_arg4 X_arg5 k f6 f7 = ([piece5 arg4 v0 v4 X_arg4 k], [piece6 arg5 v0 v2 X_arg5 k]) := by
  unfold tripL_k1_t1 trip_k1_t1 piece5 piece6
  rfl

/-- The pieces of the trips before n are the row pieces, from whatever contents the loop starts. -/
theorem pb_eq (𝒱 : Variants) (c : Dev nD) (bd : Option 𝒱.V) (i : grid1.Coords) (arg1 : Memref sig .tc .vmem S512x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x4000 .f32) (harg4 : arg4.IsWhole) (arg5 : Memref sig .tc .vmem S8x4000 .f32) (harg5 : arg5.IsWhole) (arg6 : Memref sig .tc .vmem S8x512 .f32) (harg6 : arg6.IsWhole) (arg7 : Memref sig .tc .vmem S8x512 .f32) (harg7 : arg7.IsWhole) (v0 : Vec F S512x128 .f32) (v2 : Vec F S4000x128 .f32) (v4 : Vec F S4000x128 .f32) (X_arg4 : BufTy.Contents (Elt F) arg4.view.ty) (X_arg5 : BufTy.Contents (Elt F) arg5.view.ty) (G_arg6 : BufTy.Contents (Elt F) arg6.view.ty) (G_arg7 : BufTy.Contents (Elt F) arg7.view.ty) (n : ℕ) :
    pb_k1_t1 (F := F) 𝒱 c bd i arg1 harg1 arg2 harg2 arg3 harg3 arg4 harg4 arg5 harg5 arg6 harg6 arg7 harg7 v0 v2 v4 X_arg4 X_arg5 G_arg6 G_arg7 n = (rows5 arg4 v0 v4 X_arg4 n, rows6 arg5 v0 v2 X_arg5 n) := by
  induction n with
  | zero => rfl
  | succ k ih =>
    rw [pb_k1_t1.eq_2]; unfold pb_k1_t1Step
    by_cases h : k < k1_t1_loop.trips
    · rw [dif_pos h, tripL_eq, ih, rows5, rows6, dif_pos h, dif_pos h]; rfl
    · rw [dif_neg h, ih, rows5, rows6, dif_neg h, dif_neg h]

end Cert.Kernel.GenP

end
-- ==== Proof.TripKI.lean ====
/-
  Region 1's loop over the eight batch rows, trip by trip. Trip k stores one row into each of the two output
  tiles: row k of the first holds the first score's payload of row k of the first coefficient array, row k of
  the second the second score's payload of row k of the second coefficient array. Neither row depends on what
  the output tiles held before the trip (the trip's reads of the output rows are dead), so the pieces written
  by the trips before n are the n row pieces listed here, the last trip's first.
-/
import proofs.«159620_j37701222924630_2_alg».proof.Proof.Gen.KernelIdeal.Loops

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.Sem

variable {F : FTy → Type} [FloatOps F]

/-- The row piece trip k writes into the first output tile. -/
def piece5 (arg4 : Memref sig .tc .vmem S8x4000 .f32) (v0 : Vec F S512x128 .f32) (v4 : Vec F S4000x128 .f32)
    (X_arg4 : BufTy.Contents (Elt F) arg4.view.ty) (k : Fin k1_t1_loop.trips) : View.Piece (Elt F) S8x512 .f32 :=
  ⟨Rect.unit (s := S8x512) (k1_off2 k) S1x512.size (k1_off2_inb k),
    k1_pay6 (k1_pay2 v0) (k1_pay4 v0 v4) (View.readAt (Elt F) arg4.view (Rect.unit (s := S8x4000) (k1_off1 k) S1x4000.size (k1_off1_inb k)).toLoadRect X_arg4)⟩

/-- The row piece trip k writes into the second output tile. -/
def piece6 (arg5 : Memref sig .tc .vmem S8x4000 .f32) (v0 : Vec F S512x128 .f32) (v2 : Vec F S4000x128 .f32)
    (X_arg5 : BufTy.Contents (Elt F) arg5.view.ty) (k : Fin k1_t1_loop.trips) : View.Piece (Elt F) S8x512 .f32 :=
  ⟨Rect.unit (s := S8x512) (k1_off2 k) S1x512.size (k1_off2_inb k),
    k1_pay5 (k1_pay7 (k1_pay2 v0) (k1_pay3 v0 v2) (View.readAt (Elt F) arg5.view (Rect.unit (s := S8x4000) (k1_off1 k) S1x4000.size (k1_off1_inb k)).toLoadRect X_arg5))⟩

/-- The first tile's pieces of the trips before n, last trip first. -/
def rows5 (arg4 : Memref sig .tc .vmem S8x4000 .f32) (v0 : Vec F S512x128 .f32) (v4 : Vec F S4000x128 .f32)
    (X_arg4 : BufTy.Contents (Elt F) arg4.view.ty) : ℕ → List (View.Piece (Elt F) S8x512 .f32)
  | 0 => []
  | k + 1 => if h : k < k1_t1_loop.trips then piece5 arg4 v0 v4 X_arg4 ⟨k, h⟩ :: rows5 arg4 v0 v4 X_arg4 k else rows5 arg4 v0 v4 X_arg4 k

/-- The second tile's pieces of the trips before n, last trip first. -/
def rows6 (arg5 : Memref sig .tc .vmem S8x4000 .f32) (v0 : Vec F S512x128 .f32) (v2 : Vec F S4000x128 .f32)
    (X_arg5 : BufTy.Contents (Elt F) arg5.view.ty) : ℕ → List (View.Piece (Elt F) S8x512 .f32)
  | 0 => []
  | k + 1 => if h : k < k1_t1_loop.trips then piece6 arg5 v0 v2 X_arg5 ⟨k, h⟩ :: rows6 arg5 v0 v2 X_arg5 k else rows6 arg5 v0 v2 X_arg5 k

/-- One trip writes its two row pieces, whatever the output tiles held. -/
theorem tripL_eq (𝒱 : Variants) (c : Dev nD) (bd : Option 𝒱.V) (i : grid1.Coords) (arg1 : Memref sig .tc .vmem S512x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x4000 .f32) (harg4 : arg4.IsWhole) (arg5 : Memref sig .tc .vmem S8x4000 .f32) (harg5 : arg5.IsWhole) (arg6 : Memref sig .tc .vmem S8x512 .f32) (harg6 : arg6.IsWhole) (arg7 : Memref sig .tc .vmem S8x512 .f32) (harg7 : arg7.IsWhole) (v0 : Vec F S512x128 .f32) (v2 : Vec F S4000x128 .f32) (v4 : Vec F S4000x128 .f32) (X_arg4 : BufTy.Contents (Elt F) arg4.view.ty) (X_arg5 : BufTy.Contents (Elt F) arg5.view.ty) (k : Fin k1_t1_loop.trips) (f6 : BufTy.Contents (Elt F) arg6.view.ty) (f7 : BufTy.Contents (Elt F) arg7.view.ty) :
    tripL_k1_t1 (F := F) 𝒱 c bd i arg1 harg1 arg2 harg2 arg3 harg3 arg4 harg4 arg5 harg5 arg6 harg6 arg7 harg7 v0 v2 v4 X_arg4 X_arg5 k f6 f7 = ([piece5 arg4 v0 v4 X_arg4 k], [piece6 arg5 v0 v2 X_arg5 k]) := by
  unfold tripL_k1_t1 trip_k1_t1 piece5 piece6
  rfl

/-- The pieces of the trips before n are the row pieces, from whatever contents the loop starts. -/
theorem pb_eq (𝒱 : Variants) (c : Dev nD) (bd : Option 𝒱.V) (i : grid1.Coords) (arg1 : Memref sig .tc .vmem S512x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x4000 .f32) (harg4 : arg4.IsWhole) (arg5 : Memref sig .tc .vmem S8x4000 .f32) (harg5 : arg5.IsWhole) (arg6 : Memref sig .tc .vmem S8x512 .f32) (harg6 : arg6.IsWhole) (arg7 : Memref sig .tc .vmem S8x512 .f32) (harg7 : arg7.IsWhole) (v0 : Vec F S512x128 .f32) (v2 : Vec F S4000x128 .f32) (v4 : Vec F S4000x128 .f32) (X_arg4 : BufTy.Contents (Elt F) arg4.view.ty) (X_arg5 : BufTy.Contents (Elt F) arg5.view.ty) (G_arg6 : BufTy.Contents (Elt F) arg6.view.ty) (G_arg7 : BufTy.Contents (Elt F) arg7.view.ty) (n : ℕ) :
    pb_k1_t1 (F := F) 𝒱 c bd i arg1 harg1 arg2 harg2 arg3 harg3 arg4 harg4 arg5 harg5 arg6 harg6 arg7 harg7 v0 v2 v4 X_arg4 X_arg5 G_arg6 G_arg7 n = (rows5 arg4 v0 v4 X_arg4 n, rows6 arg5 v0 v2 X_arg5 n) := by
  induction n with
  | zero => rfl
  | succ k ih =>
    rw [pb_k1_t1.eq_2]; unfold pb_k1_t1Step
    by_cases h : k < k1_t1_loop.trips
    · rw [dif_pos h, tripL_eq, ih, rows5, rows6, dif_pos h, dif_pos h]; rfl
    · rw [dif_neg h, ih, rows5, rows6, dif_neg h, dif_neg h]

end Cert.KernelIdeal.GenP

end
-- ==== Proof.RunKI.lean ====
/-
  The tiled program's run with its two results named: every weakly fair execution of @main terminates without a
  fault, the arguments end as launched, and the two result buffers end at the contents the last boundary of the
  run's fold of buffer contents gives them (the slices of what the second region's write-backs leave).
-/
import proofs.«159620_j37701222924630_2_alg».proof.Proof.FrameKI

-- membership in a rectangle of production extents (`View.cover_of_tiled`): the elaborator's structural look
-- recurses once per coordinate of the long axes
set_option maxRecDepth 16384

noncomputable section

namespace Cert.KernelIdeal.RunV

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run, with the result buffers read against the final state as the argument buffers are. -/
theorem run_results : θ_run defs (onTc (τ := τ) (main (F := F))) ⟨m, fun _ => 0, ρ⟩ (fun r => ∀ c : Dev nD,
      r.2.mem ((c.tc : Thread nD τ).loc main_v9) = W17 m ρ c (Proc.devRef .tc main_v9)
      ∧ r.2.mem ((c.tc : Thread nD τ).loc main_v10) = W17 m ρ c (Proc.devRef .tc main_v10)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v9 (by decide)), h c _ (mem_uc main_v10 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c)⟩)

end Cert.KernelIdeal.RunV

end
-- ==== Proof.FoldKI.lean ====
/-
  What each buffer of the tiled program's @main holds at the boundaries of its two kernel regions, read back through
  the host operations to the launch memory: the six padded arrays the first region reads are the zero-paddings of
  the first six arguments; the second region reads the zero-padded seventh argument, two of those paddings again,
  and the two arrays the first region's write-backs leave (an input window's array is never written back to); and the two results are the leading 4000 columns of what
  the second region's write-backs leave.
-/
import proofs.«159620_j37701222924630_2_alg».proof.Proof.FrameKI
import Idealize.ShloMosaic.Lib.StableHlo.Run
import Idealize.ShloMosaic.Lib.Pipeline.Value
import Idealize.ShloMosaic.Lib.ValueIdx

set_option maxRecDepth 16384

noncomputable section

namespace Cert.KernelIdeal.FoldV

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The scalar the host pads with: the integer 0 converted to a float. -/
abbrev zpad : (⟨S_, .f32⟩ : BufTy).Contents (Elt F) := sitofp .f32 (constantI S_ 32 0#32)

/-- An [8,100] array padded to [8,128] on the right. -/
def pad8 (x : (⟨S8x100, .f32⟩ : BufTy).Contents (Elt F)) : (⟨S8x128, .f32⟩ : BufTy).Contents (Elt F) :=
  pad S8x128 ![0, 0] ![0, 28] ![0, 0] x (zpad (F := F)) pads_S8x100_S8x128_000_0280 h_S_
/-- A [4000,100] array padded to [4000,128] on the right. -/
def pad4000 (x : (⟨S4000x100, .f32⟩ : BufTy).Contents (Elt F)) : (⟨S4000x128, .f32⟩ : BufTy).Contents (Elt F) :=
  pad S4000x128 ![0, 0] ![0, 28] ![0, 0] x (zpad (F := F)) pads_S4000x100_S4000x128_000_0280 h_S_
/-- A [4000,100] array padded to [4096,128] below and on the right. -/
def pad4096 (x : (⟨S4000x100, .f32⟩ : BufTy).Contents (Elt F)) : (⟨S4096x128, .f32⟩ : BufTy).Contents (Elt F) :=
  pad S4096x128 ![0, 0] ![96, 28] ![0, 0] x (zpad (F := F)) pads_S4000x100_S4096x128_0960_0280 h_S_

variable (m : (ℓ : Loc nD τ sig) → Buf (Elt F) ℓ) (ρ : Dev nD → PrngReg)

/-! ## The first region's inputs -/

theorem V12_v0 (c : Dev nD) : V12 m ρ c main_v0 = pad8 (m ((c : Thread nD τ).loc main_arg0)) := by
  show StableHlo.after hostOps0_11 (W11 m ρ c) (Proc.devRef .tc main_v0) = _
  unfold pad8; after_results; rfl
theorem V12_v1 (c : Dev nD) : V12 m ρ c main_v1 = pad8 (m ((c : Thread nD τ).loc main_arg1)) := by
  show StableHlo.after hostOps0_11 (W11 m ρ c) (Proc.devRef .tc main_v1) = _
  unfold pad8; after_results; rfl
theorem V12_v2 (c : Dev nD) : V12 m ρ c main_v2 = pad8 (m ((c : Thread nD τ).loc main_arg2)) := by
  show StableHlo.after hostOps0_11 (W11 m ρ c) (Proc.devRef .tc main_v2) = _
  unfold pad8; after_results; rfl
theorem V12_v3 (c : Dev nD) : V12 m ρ c main_v3 = pad4000 (m ((c : Thread nD τ).loc main_arg3)) := by
  show StableHlo.after hostOps0_11 (W11 m ρ c) (Proc.devRef .tc main_v3) = _
  unfold pad4000; after_results; rfl
theorem V12_v4 (c : Dev nD) : V12 m ρ c main_v4 = pad4000 (m ((c : Thread nD τ).loc main_arg4)) := by
  show StableHlo.after hostOps0_11 (W11 m ρ c) (Proc.devRef .tc main_v4) = _
  unfold pad4000; after_results; rfl
theorem V12_v5 (c : Dev nD) : V12 m ρ c main_v5 = pad4000 (m ((c : Thread nD τ).loc main_arg5)) := by
  show StableHlo.after hostOps0_11 (W11 m ρ c) (Proc.devRef .tc main_v5) = _
  unfold pad4000; after_results; rfl

/-! ## The second region's inputs -/

/-- The first region and the host operations before it leave the seventh argument as launched. -/
theorem W13_arg6 (c : Dev nD) : W13 m ρ c (Proc.devRef .tc main_arg6) = m ((c : Thread nD τ).loc main_arg6) := by
  rw [W13_of_ne m ρ c main_arg6 (by decide)]
  show StableHlo.after hostOps0_11 (W11 m ρ c) (Proc.devRef .tc main_arg6) = _
  after_results

theorem V15_v7 (c : Dev nD) : V15 m ρ c main_v7 = pad4096 (m ((c : Thread nD τ).loc main_arg6)) := by
  have e : V15 m ρ c main_v7 = pad4096 (W13 m ρ c (Proc.devRef .tc main_arg6)) := by
    show StableHlo.after hostOps1_1 (W14 m ρ c) (Proc.devRef .tc main_v7) = _
    unfold pad4096; after_results; rfl
  rw [e, W13_arg6]

theorem V15_v4 (c : Dev nD) : V15 m ρ c main_v4 = pad4000 (m ((c : Thread nD τ).loc main_arg4)) := by
  have e : V15 m ρ c main_v4 = W13 m ρ c (Proc.devRef .tc main_v4) := by
    show StableHlo.after hostOps1_1 (W14 m ρ c) (Proc.devRef .tc main_v4) = _
    after_results
  rw [e]
  refine (W13_arr m ρ c 4).trans ?_
  rw [(dat0 (V12 m ρ) c).arrAt_in 4 rfl cfg0.N, A_eq0]
  exact V12_v4 m ρ c

theorem V15_v5 (c : Dev nD) : V15 m ρ c main_v5 = pad4000 (m ((c : Thread nD τ).loc main_arg5)) := by
  have e : V15 m ρ c main_v5 = W13 m ρ c (Proc.devRef .tc main_v5) := by
    show StableHlo.after hostOps1_1 (W14 m ρ c) (Proc.devRef .tc main_v5) = _
    after_results
  rw [e]
  refine (W13_arr m ρ c 5).trans ?_
  rw [(dat0 (V12 m ρ) c).arrAt_in 5 rfl cfg0.N, A_eq0]
  exact V12_v5 m ρ c

theorem V15_v6_0 (c : Dev nD) : V15 m ρ c main_v6_0 = (dat0 (V12 m ρ) c).arrAt 6 cfg0.N := by
  have e : V15 m ρ c main_v6_0 = W13 m ρ c (Proc.devRef .tc main_v6_0) := by
    show StableHlo.after hostOps1_1 (W14 m ρ c) (Proc.devRef .tc main_v6_0) = _
    after_results
  rw [e]
  exact W13_arr m ρ c 6

theorem V15_v6_1 (c : Dev nD) : V15 m ρ c main_v6_1 = (dat0 (V12 m ρ) c).arrAt 7 cfg0.N := by
  have e : V15 m ρ c main_v6_1 = W13 m ρ c (Proc.devRef .tc main_v6_1) := by
    show StableHlo.after hostOps1_1 (W14 m ρ c) (Proc.devRef .tc main_v6_1) = _
    after_results
  rw [e]
  exact W13_arr m ρ c 7

/-! ## The results -/

theorem W17_v9 (c : Dev nD) : W17 m ρ c (Proc.devRef .tc main_v9)
    = extractStridedSlice S8x4000 ![0, 0] ((dat1 (V15 m ρ) c).arrAt 5 cfg1.N) slices_S8x4096_S8x4000_0_0 := by
  have e : W17 m ρ c (Proc.devRef .tc main_v9) = extractStridedSlice S8x4000 ![0, 0] (W16 m ρ c (Proc.devRef .tc main_v8_0)) slices_S8x4096_S8x4000_0_0 := by
    show StableHlo.after hostOps2 (W16 m ρ c) (Proc.devRef .tc main_v9) = _
    after_results
  rw [e]
  exact congrArg (fun x => extractStridedSlice S8x4000 ![0, 0] x slices_S8x4096_S8x4000_0_0) (W16_arr m ρ c 5)

theorem W17_v10 (c : Dev nD) : W17 m ρ c (Proc.devRef .tc main_v10)
    = extractStridedSlice S8x4000 ![0, 0] ((dat1 (V15 m ρ) c).arrAt 6 cfg1.N) slices_S8x4096_S8x4000_0_0 := by
  have e : W17 m ρ c (Proc.devRef .tc main_v10) = extractStridedSlice S8x4000 ![0, 0] (W16 m ρ c (Proc.devRef .tc main_v8_1)) slices_S8x4096_S8x4000_0_0 := by
    show StableHlo.after hostOps2 (W16 m ρ c) (Proc.devRef .tc main_v10) = _
    after_results
  rw [e]
  exact congrArg (fun x => extractStridedSlice S8x4000 ![0, 0] x slices_S8x4096_S8x4000_0_0) (W16_arr m ρ c 6)

end Cert.KernelIdeal.FoldV

end
-- ==== Proof.Spec.lean ====
/-
  The two scores as functions of rows of the argument arrays, over the extended reals, in the two
  arrangements the programs compute them in.

  For a batch row b, an entity row n and a fact row f write q for the query (three rows of length 100 laid
  side by side) and φ for the fact (likewise). The score is max over f of exp (-(max (|q|² + |φ|² - 2 q·φ) 0) / 2).
  One program computes it literally (refVal); the other takes the minimum over f of the part of the
  squared distance that depends on f, adds the part that does not, clamps, and applies exp (-x · ½) once (kerVal).
-/
import Idealize.ShloMosaic.PureOps.Ideal
import Idealize.ShloMosaic.Lib.ValueIdx

noncomputable section

open scoped BigOperators
open Idealize.ShloMosaic

namespace Cert.Spec

/-- The f32 words the programs use: 0, 2, ½, +∞, -∞. -/
abbrev ZERO : EReal := Ideal.ofBits .f32 0x00000000#32
abbrev TWO : EReal := Ideal.ofBits .f32 0x40000000#32
abbrev HALF : EReal := Ideal.ofBits .f32 0x3F000000#32
abbrev POSINF : EReal := Ideal.ofBits .f32 0x7F800000#32
abbrev NEGINF : EReal := Ideal.ofBits .f32 0xFF800000#32

/-- The inner product of two rows of length n. -/
def dot {n : Nat} (u v : Fin n → EReal) : EReal := ∑ k : Fin n, u k * v k

/-- Row i of a two-axis array. -/
def row {a b : Nat} (x : (⟨2, ![a, b]⟩ : Shape).Idx → EReal) (i : Fin a) : Fin b → EReal :=
  fun k => x (ValueIdx.ix2 i k)

/-- A sum of three terms, associated to the left. -/
def sum3 (a b c : EReal) : EReal := a + b + c

/-- The part of the squared distance that does not depend on the entity row:
    |φ|² - 2 R - 2 A + |rel|² + |arg|², in the order the prelude computes it. -/
def cterm (f2 R A rsq asq : EReal) : EReal := (((f2 - TWO * R) - TWO * A) + rsq) + asq

/-- The score as the tiled program computes it: c f the entity-independent part, g f the entity's inner
    product with fact f, s the entity's squared norm. -/
def kerVal (c g : Fin 4000 → EReal) (s : EReal) : EReal :=
  Ideal.exp ((ZERO - max (Finset.univ.fold min POSINF (fun f => c f - TWO * g f) + s) ZERO) * HALF)

/-- The score as the plain program computes it: q2 the query's squared norm, f2 f fact f's squared norm,
    qf f their inner product. -/
def refVal (q2 : EReal) (f2 qf : Fin 4000 → EReal) : EReal :=
  Finset.univ.fold max NEGINF
    (fun f => Ideal.exp (Ideal.div (-(max (((ZERO + q2) + (ZERO + f2 f)) - TWO * qf f) ZERO)) TWO))

end Cert.Spec

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Prelude.lean ====
/-
  The first program's entity-independent term read at one index.

  For a batch row b and a fact row f the first kernel leaves, in its two output buffers,
    |φ_f|² - 2 rel_b·frel_f - 2 arg_b·farg_f + |rel_b|² + |arg_b|²
  with arg the second argument row for the first buffer and the third for the second, each inner product and
  squared norm a sum over the 128 lanes of a (zero-padded) row. The proof reads each operation of the body at an
  index: a product of two rows into a zero accumulator is the sum of the lanes' products, a lane reduction of a
  square is the squared norm, and the column and row layouts carry one entry along a row or a column.
-/
import proofs.«159620_j37701222924630_2_alg».proof.Proof.Gen.KernelIdeal.Skeleton
import proofs.«159620_j37701222924630_2_alg».proof.Proof.Spec
import proofs.«159620_j37701222924630_2_alg».proof.Proof.LibLayout
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws

noncomputable section

namespace Cert.Prelude

open Idealize.ShloMosaic Idealize.ShloMosaic.ValueIdx
open Cert.KernelIdeal Cert.KernelIdeal.Gen
open Cert.Spec Cert.Attn.Layout
open scoped BigOperators

/-! ## The body's accesses and what it leaves in each output buffer -/

section Buffers
variable {F : FTy → Type} [FloatOps F]

abbrev r0_0 : Rect S8x128 := Rect.unit (s := S8x128) ![0, 0] S8x128.size inb_S8x128_S8x128_0_0
abbrev r0_1 : Rect S4000x128 := Rect.unit (s := S4000x128) ![0, 0] S4000x128.size inb_S4000x128_S4000x128_0_0
abbrev r0_2 : Rect S8x4000 := Rect.unit (s := S8x4000) ![0, 0] S8x4000.size inb_S8x4000_S8x4000_0_0

def out0_6 (x0 : Vec F S8x128 .f32) (x1 : Vec F S8x128 .f32) (x2 : Vec F S8x128 .f32) (x3 : Vec F S4000x128 .f32) (x4 : Vec F S4000x128 .f32) (x5 : Vec F S4000x128 .f32) : Vec F S8x4000 .f32 :=
  View.canon [⟨r0_2, k0_pay1 (k0_pay10 (View.ld x1 r0_0) (View.ld x4 r0_1)) (k0_pay12 (View.ld x0 r0_0)) (k0_pay13 (View.ld x1 r0_0)) (k0_pay16 (View.ld x0 r0_0) (View.ld x3 r0_1) (View.ld x4 r0_1) (View.ld x5 r0_1))⟩]

def out0_7 (x0 : Vec F S8x128 .f32) (x1 : Vec F S8x128 .f32) (x2 : Vec F S8x128 .f32) (x3 : Vec F S4000x128 .f32) (x4 : Vec F S4000x128 .f32) (x5 : Vec F S4000x128 .f32) : Vec F S8x4000 .f32 :=
  View.canon [⟨r0_2, k0_pay2 (k0_pay9 (View.ld x0 r0_0) (View.ld x3 r0_1)) (k0_pay11 (View.ld x2 r0_0) (View.ld x5 r0_1)) (k0_pay12 (View.ld x0 r0_0)) (k0_pay14 (View.ld x2 r0_0)) (k0_pay15 (View.ld x3 r0_1) (View.ld x4 r0_1) (View.ld x5 r0_1))⟩]

end Buffers

/-- The rectangles' offsets are zero. -/
theorem hz : (![0, 0] : Fin 2 → Nat) = fun _ => 0 := funext fun a => by fin_cases a <;> rfl

/-! ## The non-pointwise operations at an index -/

/-- On the kept axis of the left operand the product's left index is the output's row. -/
theorem lhs_row (i : S8x4000.Idx) (q : dot_S8x128_S4000x128_S8x4000_1_1_0_0_n_n.contr.Idx) :
    (dot_S8x128_S4000x128_S8x4000_1_1_0_0_n_n.lhsIdx i q 0).val = (i 0).val := by
  unfold DotDims.lhsIdx
  rw [dif_neg (show ¬(0 : Fin S8x128.rank) ∈ dot_S8x128_S4000x128_S8x4000_1_1_0_0_n_n.lhsBatch by decide), dif_pos (show (0 : Fin S8x128.rank) ∈ dot_S8x128_S4000x128_S8x4000_1_1_0_0_n_n.lhsNonContracting by decide)]
  rfl
/-- On its contracted axis it is the contraction's coordinate. -/
theorem lhs_lane (i : S8x4000.Idx) (q : dot_S8x128_S4000x128_S8x4000_1_1_0_0_n_n.contr.Idx) :
    (dot_S8x128_S4000x128_S8x4000_1_1_0_0_n_n.lhsIdx i q 1).val = (q ⟨0, by decide⟩).val :=
  dot_S8x128_S4000x128_S8x4000_1_1_0_0_n_n.lhsIdx_val_of_single rfl i q
/-- On the kept axis of the right operand the product's right index is the output's column. -/
theorem rhs_row (i : S8x4000.Idx) (q : dot_S8x128_S4000x128_S8x4000_1_1_0_0_n_n.contr.Idx) :
    (dot_S8x128_S4000x128_S8x4000_1_1_0_0_n_n.rhsIdx i q 0).val = (i 1).val := by
  unfold DotDims.rhsIdx
  rw [dif_neg (show ¬(0 : Fin S4000x128.rank) ∈ dot_S8x128_S4000x128_S8x4000_1_1_0_0_n_n.rhsBatch by decide), dif_pos (show (0 : Fin S4000x128.rank) ∈ dot_S8x128_S4000x128_S8x4000_1_1_0_0_n_n.rhsNonContracting by decide)]
  rfl
/-- On its contracted axis it is the contraction's coordinate. -/
theorem rhs_lane (i : S8x4000.Idx) (q : dot_S8x128_S4000x128_S8x4000_1_1_0_0_n_n.contr.Idx) :
    (dot_S8x128_S4000x128_S8x4000_1_1_0_0_n_n.rhsIdx i q 1).val = (q ⟨0, by decide⟩).val :=
  dot_S8x128_S4000x128_S8x4000_1_1_0_0_n_n.rhsIdx_val_of_single rfl i q

/-- A product of a row of the left operand with a row of the right one, into a zero accumulator: the sum over the
    128 lanes of the entries' products. -/
theorem matmul_rows (l : FVec Ideal S8x128 .f32) (r : FVec Ideal S4000x128 .f32) (b : Fin 8) (f : Fin 4000) :
    matmul dot_S8x128_S4000x128_S8x4000_1_1_0_0_n_n none l r (constant (F := Ideal) S8x4000 .f32 0x00000000#32) (ix2 b f)
      = ∑ k : Fin 128, l (ix2 b k) * r (ix2 f k) := by
  simp only [matmul]
  rw [Ideal.matmul_constant_zero_apply, ← Equiv.sum_comp (contrEquiv1 dot_S8x128_S4000x128_S8x4000_1_1_0_0_n_n 128 rfl rfl).symm]
  refine Finset.sum_congr rfl fun k _ => ?_
  have hk := contrEquiv1_symm_val dot_S8x128_S4000x128_S8x4000_1_1_0_0_n_n 128 rfl rfl k
  have el : dot_S8x128_S4000x128_S8x4000_1_1_0_0_n_n.lhsIdx (ix2 b f) ((contrEquiv1 dot_S8x128_S4000x128_S8x4000_1_1_0_0_n_n 128 rfl rfl).symm k) = ix2 b k :=
    funext fun a => Fin.ext (by
      match a with
      | ⟨0, _⟩ => exact lhs_row _ _
      | ⟨1, _⟩ => exact (lhs_lane _ _).trans hk)
  have er : dot_S8x128_S4000x128_S8x4000_1_1_0_0_n_n.rhsIdx (ix2 b f) ((contrEquiv1 dot_S8x128_S4000x128_S8x4000_1_1_0_0_n_n 128 rfl rfl).symm k) = ix2 f k :=
    funext fun a => Fin.ext (by
      match a with
      | ⟨0, _⟩ => exact rhs_row _ _
      | ⟨1, _⟩ => exact (rhs_lane _ _).trans hk)
  rw [el, er]

/-- A sum over the lanes of an [8, 128] array, at row r. -/
theorem laneSum8 (src : FVec Ideal S8x128 .f32) (h : S8x128.Reduces [1] S8) (hφ : FKind.Formats .f32)
    (hacc : (0x00000000#32 : BitVec 32) = 0x00000000#32) (r : Fin 8) :
    multiReduction .add [1] S8 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- A sum over the lanes of a [4000, 128] array, at row r. -/
theorem laneSum4000 (src : FVec Ideal S4000x128 .f32) (h : S4000x128.Reduces [1] S4000) (hφ : FKind.Formats .f32)
    (hacc : (0x00000000#32 : BitVec 32) = 0x00000000#32) (r : Fin 4000) :
    multiReduction .add [1] S4000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-! ## The payloads at an index -/

section Payloads
variable (v0 v2 v4 : Vec Ideal S8x128 .f32) (v6 v8 v10 : Vec Ideal S4000x128 .f32) (b : Fin 8) (f : Fin 4000)

/-- The first product: row b of the first argument against row f of the first fact array. -/
theorem pay9_apply : k0_pay9 (F := Ideal) v0 v6 (ix2 b f) = dot (row v0 b) (row v6 f) := by
  show matmul dot_S8x128_S4000x128_S8x4000_1_1_0_0_n_n none (shapeCast S8x128 v0 shapeCasts_S8x128_S8x128)
    (shapeCast S4000x128 v6 shapeCasts_S4000x128_S4000x128) (constant (F := Ideal) S8x4000 .f32 0x00000000#32) (ix2 b f) = _
  rw [shapeCast_self, shapeCast_self, matmul_rows]
  rfl

/-- The second product. -/
theorem pay10_apply : k0_pay10 (F := Ideal) v2 v8 (ix2 b f) = dot (row v2 b) (row v8 f) := by
  show matmul dot_S8x128_S4000x128_S8x4000_1_1_0_0_n_n none (shapeCast S8x128 v2 shapeCasts_S8x128_S8x128)
    (shapeCast S4000x128 v8 shapeCasts_S4000x128_S4000x128) (constant (F := Ideal) S8x4000 .f32 0x00000000#32) (ix2 b f) = _
  rw [shapeCast_self, shapeCast_self, matmul_rows]
  rfl

/-- The third product. -/
theorem pay11_apply : k0_pay11 (F := Ideal) v4 v10 (ix2 b f) = dot (row v4 b) (row v10 f) := by
  show matmul dot_S8x128_S4000x128_S8x4000_1_1_0_0_n_n none (shapeCast S8x128 v4 shapeCasts_S8x128_S8x128)
    (shapeCast S4000x128 v10 shapeCasts_S4000x128_S4000x128) (constant (F := Ideal) S8x4000 .f32 0x00000000#32) (ix2 b f) = _
  rw [shapeCast_self, shapeCast_self, matmul_rows]
  rfl

/-- A row's squared norm, kept as a one-entry column. -/
theorem sqnorm8_apply (v : Vec Ideal S8x128 .f32) (u : Fin 1) :
    shapeCast S8x1 (multiReduction (F := Ideal) .add [1] S8 (mulf (shapeCast S8x128 v shapeCasts_S8x128_S8x128) (shapeCast S8x128 v shapeCasts_S8x128_S8x128))
      0x00000000#32 reduces_S8x128_S8 (.inl rfl) rfl) shapeCasts_S8_S8x1 (ix2 b u) = dot (row v b) (row v b) := by
  rw [shapeCast_a_a1_apply, laneSum8, shapeCast_self]
  rfl

theorem pay12_apply (u : Fin 1) : k0_pay12 (F := Ideal) v0 (ix2 b u) = dot (row v0 b) (row v0 b) := sqnorm8_apply b v0 u
theorem pay13_apply (u : Fin 1) : k0_pay13 (F := Ideal) v2 (ix2 b u) = dot (row v2 b) (row v2 b) := sqnorm8_apply b v2 u
theorem pay14_apply (u : Fin 1) : k0_pay14 (F := Ideal) v4 (ix2 b u) = dot (row v4 b) (row v4 b) := sqnorm8_apply b v4 u

/-- A fact row's squared norm. -/
theorem sqnorm4000_apply (v : Vec Ideal S4000x128 .f32) :
    multiReduction (F := Ideal) .add [1] S4000 (mulf (shapeCast S4000x128 v shapeCasts_S4000x128_S4000x128) (shapeCast S4000x128 v shapeCasts_S4000x128_S4000x128))
      0x00000000#32 reduces_S4000x128_S4000 (.inl rfl) rfl (ix1 f) = dot (row v f) (row v f) := by
  rw [laneSum4000, shapeCast_self]
  rfl

/-- The three fact rows' squared norms added, kept as a one-entry row. -/
theorem pay15_apply (u : Fin 1) : k0_pay15 (F := Ideal) v6 v8 v10 (ix2 u f)
    = sum3 (dot (row v6 f) (row v6 f)) (dot (row v8 f) (row v8 f)) (dot (row v10 f) (row v10 f)) := by
  unfold k0_pay15 k0_pay6 k0_pay7 k0_pay8
  rw [shapeCast_a_1a_apply, addf_apply, addf_apply, sqnorm4000_apply, sqnorm4000_apply, sqnorm4000_apply]
  rfl

end Payloads

/-! ## The two stored values at an index -/

section Stored
variable (b : Fin 8) (f : Fin 4000)

/-- The facts' squared norms less twice the first product. -/
theorem pay16_apply (v0 : Vec Ideal S8x128 .f32) (v6 v8 v10 : Vec Ideal S4000x128 .f32) :
    k0_pay16 (F := Ideal) v0 v6 v8 v10 (ix2 b f)
      = sum3 (dot (row v6 f) (row v6 f)) (dot (row v8 f) (row v8 f)) (dot (row v10 f) (row v10 f)) - TWO * dot (row v0 b) (row v6 f) := by
  unfold k0_pay16
  rw [subf_apply, broadcastTo_1b_ab_apply, pay15_apply, mulf_apply, broadcast_apply, pay9_apply]
  rfl

/-- The first stored value from its four operands. -/
theorem pay1_apply (v13 : FVec Ideal S8x4000 .f32) (v17 v20 : FVec Ideal S8x1 .f32) (v36 : FVec Ideal S8x4000 .f32) :
    k0_pay1 (F := Ideal) v13 v17 v20 v36 (ix2 b f)
      = ((v36 (ix2 b f) - TWO * v13 (ix2 b f)) + v17 (ix2 b (0 : Fin 1))) + v20 (ix2 b (0 : Fin 1)) := by
  unfold k0_pay1
  rw [addf_apply, addf_apply, subf_apply, mulf_apply, broadcast_apply, broadcastTo_a1_ab_apply, broadcastTo_a1_ab_apply]
  rfl

/-- The second stored value from its five operands. -/
theorem pay2_apply (v12 v14 : FVec Ideal S8x4000 .f32) (v17 v23 : FVec Ideal S8x1 .f32) (v32 : FVec Ideal S1x4000 .f32) :
    k0_pay2 (F := Ideal) v12 v14 v17 v23 v32 (ix2 b f)
      = (((v32 (ix2 (0 : Fin 1) f) - TWO * v12 (ix2 b f)) - TWO * v14 (ix2 b f)) + v17 (ix2 b (0 : Fin 1))) + v23 (ix2 b (0 : Fin 1)) := by
  unfold k0_pay2
  rw [addf_apply, addf_apply, subf_apply, subf_apply, mulf_apply, mulf_apply, broadcast_apply,
    broadcastTo_1b_ab_apply, broadcastTo_a1_ab_apply, broadcastTo_a1_ab_apply]
  rfl

end Stored

/-- What the body leaves in its first output buffer, at (b, f). -/
theorem out0_6_apply (x0 x1 x2 : Vec Ideal S8x128 .f32) (x3 x4 x5 : Vec Ideal S4000x128 .f32) (b : Fin 8) (f : Fin 4000) :
    out0_6 (F := Ideal) x0 x1 x2 x3 x4 x5 (ix2 b f)
      = cterm (sum3 (dot (row x3 f) (row x3 f)) (dot (row x4 f) (row x4 f)) (dot (row x5 f) (row x5 f)))
          (dot (row x0 b) (row x3 f)) (dot (row x1 b) (row x4 f)) (dot (row x0 b) (row x0 b)) (dot (row x1 b) (row x1 b)) := by
  unfold out0_6
  rw [View.canon_unit_zero hz]
  simp only [View.ld_unit_zero (S := S8x128) hz, View.ld_unit_zero (S := S4000x128) hz]
  rw [pay1_apply, pay16_apply, pay10_apply, pay12_apply, pay13_apply]
  rfl

/-- What the body leaves in its second output buffer, at (b, f). -/
theorem out0_7_apply (x0 x1 x2 : Vec Ideal S8x128 .f32) (x3 x4 x5 : Vec Ideal S4000x128 .f32) (b : Fin 8) (f : Fin 4000) :
    out0_7 (F := Ideal) x0 x1 x2 x3 x4 x5 (ix2 b f)
      = cterm (sum3 (dot (row x3 f) (row x3 f)) (dot (row x4 f) (row x4 f)) (dot (row x5 f) (row x5 f)))
          (dot (row x0 b) (row x3 f)) (dot (row x2 b) (row x5 f)) (dot (row x0 b) (row x0 b)) (dot (row x2 b) (row x2 b)) := by
  unfold out0_7
  rw [View.canon_unit_zero hz]
  simp only [View.ld_unit_zero (S := S8x128) hz, View.ld_unit_zero (S := S4000x128) hz]
  rw [pay2_apply, pay15_apply, pay9_apply, pay11_apply, pay12_apply, pay14_apply]
  rfl

end Cert.Prelude

end
-- ==== Proof.Pads.lean ====
/-
  Zero padding read at an index, and the inner product of two zero-padded rows.

  The host pads each argument array on the high side of its axes (rows of length 100 to 128 lanes; for one array
  also 4000 rows to 4096) with a fill value. At an index inside the operand the padded array is the operand there,
  and elsewhere it is the fill value. A row of length 100 extended by zeros to 128 lanes has the same inner products
  as the row itself: the extra 28 products are 0 · 0.
-/
import proofs.«159620_j37701222924630_2_alg».proof.Proof.Gen.KernelIdeal
import proofs.«159620_j37701222924630_2_alg».proof.Proof.Spec
import Idealize.ShloMosaic.Lib.Pipeline.Value
import Idealize.ShloMosaic.Lib.ValueIdx
import Idealize.ShloMosaic.Lib.KernelVsHost

noncomputable section

namespace Cert.Pads

open Idealize.ShloMosaic Idealize.ShloMosaic.ValueIdx
open Cert.KernelIdeal Cert.KernelIdeal.Gen
open Cert.Spec
open scoped BigOperators

/-! ## The padded arrays at an index, for any proofs of the shape facts -/

/-- An [8, 100] array padded to [8, 128]: inside the first 100 lanes the operand, beyond them the fill value. -/
theorem pad8_apply_of (x : (⟨S8x100, .f32⟩ : BufTy).Contents (Elt Ideal)) (v : (⟨S_, .f32⟩ : BufTy).Contents (Elt Ideal))
    (hp : S8x100.Pads (![0, 0] : Fin 2 → Nat) ![0, 28] ![0, 0] S8x128) (hu : 0 < S_.numel) (b : Fin 8) (k : Fin 128) :
    pad S8x128 ![0, 0] ![0, 28] ![0, 0] x v hp hu (ix2 b k) = if h : k.val < 100 then x (ix2 b ⟨k.val, h⟩) else v ix0 := by
  by_cases h : k.val < 100
  · rw [dif_pos h]
    refine pad_apply_of_inside _ _ _ x v hp hu _ (ix2 b ⟨k.val, h⟩) fun a => ?_
    match a with
    | ⟨0, _⟩ => show b.val = 0 + b.val * (0 + 1); omega
    | ⟨1, _⟩ => show k.val = 0 + k.val * (0 + 1); omega
  · rw [dif_neg h]
    refine (pad_apply_of_not_inside _ _ _ x v hp hu _ (1 : Fin 2) ?_).trans (congrArg v (eq_ix0 _))
    show ¬(0 ≤ k.val ∧ (k.val - 0) % (0 + 1) = 0 ∧ (k.val - 0) / (0 + 1) < 100)
    omega

/-- A [4000, 100] array padded to [4000, 128]: inside the first 100 lanes the operand, beyond them the fill value. -/
theorem pad4000_apply_of (x : (⟨S4000x100, .f32⟩ : BufTy).Contents (Elt Ideal)) (v : (⟨S_, .f32⟩ : BufTy).Contents (Elt Ideal))
    (hp : S4000x100.Pads (![0, 0] : Fin 2 → Nat) ![0, 28] ![0, 0] S4000x128) (hu : 0 < S_.numel) (n : Fin 4000) (k : Fin 128) :
    pad S4000x128 ![0, 0] ![0, 28] ![0, 0] x v hp hu (ix2 n k) = if h : k.val < 100 then x (ix2 n ⟨k.val, h⟩) else v ix0 := by
  by_cases h : k.val < 100
  · rw [dif_pos h]
    refine pad_apply_of_inside _ _ _ x v hp hu _ (ix2 n ⟨k.val, h⟩) fun a => ?_
    match a with
    | ⟨0, _⟩ => show n.val = 0 + n.val * (0 + 1); omega
    | ⟨1, _⟩ => show k.val = 0 + k.val * (0 + 1); omega
  · rw [dif_neg h]
    refine (pad_apply_of_not_inside _ _ _ x v hp hu _ (1 : Fin 2) ?_).trans (congrArg v (eq_ix0 _))
    show ¬(0 ≤ k.val ∧ (k.val - 0) % (0 + 1) = 0 ∧ (k.val - 0) / (0 + 1) < 100)
    omega

/-- A [4000, 100] array padded to [4096, 128]: inside the first 4000 rows and 100 lanes the operand, elsewhere the
    fill value. -/
theorem pad4096_apply_of (x : (⟨S4000x100, .f32⟩ : BufTy).Contents (Elt Ideal)) (v : (⟨S_, .f32⟩ : BufTy).Contents (Elt Ideal))
    (hp : S4000x100.Pads (![0, 0] : Fin 2 → Nat) ![96, 28] ![0, 0] S4096x128) (hu : 0 < S_.numel) (n : Fin 4096) (k : Fin 128) :
    pad S4096x128 ![0, 0] ![96, 28] ![0, 0] x v hp hu (ix2 n k)
      = if h : n.val < 4000 ∧ k.val < 100 then x (ix2 ⟨n.val, h.1⟩ ⟨k.val, h.2⟩) else v ix0 := by
  by_cases h : n.val < 4000 ∧ k.val < 100
  · rw [dif_pos h]
    refine pad_apply_of_inside _ _ _ x v hp hu _ (ix2 ⟨n.val, h.1⟩ ⟨k.val, h.2⟩) fun a => ?_
    match a with
    | ⟨0, _⟩ => show n.val = 0 + n.val * (0 + 1); omega
    | ⟨1, _⟩ => show k.val = 0 + k.val * (0 + 1); omega
  · rw [dif_neg h]
    by_cases h0 : n.val < 4000
    · have h1 : ¬k.val < 100 := fun hk => h ⟨h0, hk⟩
      refine (pad_apply_of_not_inside _ _ _ x v hp hu _ (1 : Fin 2) ?_).trans (congrArg v (eq_ix0 _))
      show ¬(0 ≤ k.val ∧ (k.val - 0) % (0 + 1) = 0 ∧ (k.val - 0) / (0 + 1) < 100)
      omega
    · refine (pad_apply_of_not_inside _ _ _ x v hp hu _ (0 : Fin 2) ?_).trans (congrArg v (eq_ix0 _))
      show ¬(0 ≤ n.val ∧ (n.val - 0) % (0 + 1) = 0 ∧ (n.val - 0) / (0 + 1) < 4000)
      omega

/-! ## The same at the program's own shape facts -/

theorem pad8_apply (x : (⟨S8x100, .f32⟩ : BufTy).Contents (Elt Ideal)) (v : (⟨S_, .f32⟩ : BufTy).Contents (Elt Ideal)) (b : Fin 8) (k : Fin 128) :
    pad S8x128 ![0, 0] ![0, 28] ![0, 0] x v pads_S8x100_S8x128_000_0280 h_S_ (ix2 b k) = if h : k.val < 100 then x (ix2 b ⟨k.val, h⟩) else v ix0 :=
  pad8_apply_of x v _ _ b k

theorem pad4000_apply (x : (⟨S4000x100, .f32⟩ : BufTy).Contents (Elt Ideal)) (v : (⟨S_, .f32⟩ : BufTy).Contents (Elt Ideal)) (n : Fin 4000) (k : Fin 128) :
    pad S4000x128 ![0, 0] ![0, 28] ![0, 0] x v pads_S4000x100_S4000x128_000_0280 h_S_ (ix2 n k) = if h : k.val < 100 then x (ix2 n ⟨k.val, h⟩) else v ix0 :=
  pad4000_apply_of x v _ _ n k

theorem pad4096_apply (x : (⟨S4000x100, .f32⟩ : BufTy).Contents (Elt Ideal)) (v : (⟨S_, .f32⟩ : BufTy).Contents (Elt Ideal)) (n : Fin 4096) (k : Fin 128) :
    pad S4096x128 ![0, 0] ![96, 28] ![0, 0] x v pads_S4000x100_S4096x128_0960_0280 h_S_ (ix2 n k)
      = if h : n.val < 4000 ∧ k.val < 100 then x (ix2 ⟨n.val, h.1⟩ ⟨k.val, h.2⟩) else v ix0 :=
  pad4096_apply_of x v _ _ n k

/-! ## Inner products of zero-padded rows -/

/-- Two rows of length 100, each extended by zeros to 128 lanes, have the inner product of the rows themselves. -/
theorem dot_pad (u v : Fin 100 → EReal) :
    dot (fun k : Fin 128 => if h : k.val < 100 then u ⟨k.val, h⟩ else 0) (fun k : Fin 128 => if h : k.val < 100 then v ⟨k.val, h⟩ else 0)
      = dot u v := by
  unfold dot
  show ∑ k : Fin (100 + 28), (if h : k.val < 100 then u ⟨k.val, h⟩ else 0) * (if h : k.val < 100 then v ⟨k.val, h⟩ else 0) = _
  rw [Fin.sum_univ_add]
  have h2 : ∑ i : Fin 28, ((if h : (Fin.natAdd 100 i).val < 100 then u ⟨(Fin.natAdd 100 i).val, h⟩ else 0)
      * (if h : (Fin.natAdd 100 i).val < 100 then v ⟨(Fin.natAdd 100 i).val, h⟩ else 0) : EReal) = 0 :=
    Finset.sum_eq_zero fun i _ => by
      have hn : ¬(Fin.natAdd 100 i).val < 100 := by
        show ¬(100 + i.val < 100)
        omega
      rw [dif_neg hn, dif_neg hn, mul_zero]
  rw [h2, add_zero]
  refine Finset.sum_congr rfl fun i _ => ?_
  have hi : (Fin.castAdd 28 i).val < 100 := i.isLt
  rw [dif_pos hi, dif_pos hi]
  rfl

end Cert.Pads

end
-- ==== Proof.MainPay.lean ====
/-
  The main kernel's arithmetic, read at one element over the extended reals.

  For an entity tile v0 (512 rows of length 128), a fact block v (4000 rows of length 128) and a row w of the
  entity-independent part of the squared distance (length 4000), the value stored for lane r is
      exp ((0 - max (min_f (w f - 2 · ⟨v0 r, v f⟩) + ⟨v0 r, v0 r⟩) 0) · ½),
  which is `kerVal` of Spec at c = w, g f = ⟨v0 r, v f⟩, s = ⟨v0 r, v0 r⟩. The pieces: the squared-norm column is a
  lane sum of the elementwise square (a sum over the 128 coordinates of the row); each product with a transposed fact
  block, accumulated into the zero splat, is at (r, f) the sum over the one contracted axis of the two rows' products;
  the minimum over the fact axis is the fold of `min` from +∞ over the 4000 coordinates of the row; the shape casts
  between a vector, a one-row matrix and a one-column matrix, and the broadcast of one row over 512, move no value.
-/
import proofs.«159620_j37701222924630_2_alg».proof.Proof.Gen.KernelIdeal.Skeleton
import proofs.«159620_j37701222924630_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.MainPay

open Cert.KernelIdeal Cert.KernelIdeal.Gen Cert.Spec Idealize.ShloMosaic Idealize.ShloMosaic.ValueIdx

section Layout
variable {α : Type}

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The entity tile's cast to its own shape is the tile. -/
theorem pay1_eq (v0 : Vec Ideal S512x128 .f32) : k1_pay1 (F := Ideal) v0 = v0 :=
  shapeCast_self v0 _

/-- The squared-norm column at row `r`: the inner product of entity row `r` with itself. -/
theorem pay2_apply (v0 : Vec Ideal S512x128 .f32) (r : Fin 512) (u : Fin 1) :
    k1_pay2 (F := Ideal) v0 (ix2 r u) = dot (row v0 r) (row v0 r) := by
  unfold k1_pay2
  rw [pay1_eq]
  refine (shapeCast_a_a1_apply _ shapeCasts_S512_S512x1 r u).trans ?_
  refine (Ideal.multiReduction_add_single (mulf v0 v0) 0x00000000#32 reduces_S512x128_S512 (.inl rfl) rfl (ix1 r)).trans ?_
  unfold dot row
  refine Finset.sum_congr rfl fun k _ => ?_
  have e : reduces_S512x128_S512.lift (ix1 r) k = ix2 r k :=
    funext fun a => Fin.ext (by match a with | ⟨0, _⟩ => rfl | ⟨1, _⟩ => rfl)
  rw [e]
  rfl

/-- The contraction record of the two products: one contracting axis of length 128. -/
abbrev DD : DotDims S512x128 S4000x128 S512x4000 := dot_S512x128_S4000x128_S512x4000_1_1_0_0_n_n

/-- The left operand's index keeps the output's row coordinate. -/
theorem lhsIdx0 (i : S512x4000.Idx) (q : DD.contr.Idx) : (DD.lhsIdx i q 0).val = (i 0).val := by
  unfold DotDims.lhsIdx
  rw [dif_neg (show ¬(0 : Fin S512x128.rank) ∈ DD.lhsBatch by decide), dif_pos (show (0 : Fin S512x128.rank) ∈ DD.lhsNonContracting by decide)]
  rfl

/-- The right operand's row coordinate is the output's column coordinate. -/
theorem rhsIdx0 (i : S512x4000.Idx) (q : DD.contr.Idx) : (DD.rhsIdx i q 0).val = (i 1).val := by
  unfold DotDims.rhsIdx
  rw [dif_neg (show ¬(0 : Fin S4000x128.rank) ∈ DD.rhsBatch by decide), dif_pos (show (0 : Fin S4000x128.rank) ∈ DD.rhsNonContracting by decide)]
  rfl

/-- A product of the entity tile with a transposed fact block, accumulated into the zero splat, reads at
    `(r, f)` the inner product of entity row `r` with fact row `f`. -/
theorem matmul_rows_apply (x : FVec Ideal S512x128 .f32) (y : FVec Ideal S4000x128 .f32) (r : Fin 512) (f : Fin 4000) :
    matmul DD none x y (constant S512x4000 .f32 0x00000000#32) (ix2 r f) = dot (row x r) (row y f) := by
  show FloatOps.matmul DD none x y (constant S512x4000 .f32 0x00000000#32) (ix2 r f) = _
  rw [Ideal.matmul_constant_zero_apply, ← Equiv.sum_comp (contrEquiv1 DD 128 rfl rfl).symm]
  unfold dot row
  refine Finset.sum_congr rfl fun k _ => ?_
  have hk := contrEquiv1_symm_val DD 128 rfl rfl k
  have el : DD.lhsIdx (ix2 r f) ((contrEquiv1 DD 128 rfl rfl).symm k) = ix2 r k := funext fun a => Fin.ext (by
    match a with
    | ⟨0, _⟩ => exact lhsIdx0 _ _
    | ⟨1, _⟩ => exact (DD.lhsIdx_val_of_single rfl _ _).trans hk)
  have er : DD.rhsIdx (ix2 r f) ((contrEquiv1 DD 128 rfl rfl).symm k) = ix2 f k := funext fun a => Fin.ext (by
    match a with
    | ⟨0, _⟩ => exact rhsIdx0 _ _
    | ⟨1, _⟩ => exact (DD.rhsIdx_val_of_single rfl _ _).trans hk)
  rw [el, er]

/-- The first product at `(r, f)`: entity row `r` against row `f` of the first fact block. -/
theorem pay3_apply (v0 : Vec Ideal S512x128 .f32) (v2 : Vec Ideal S4000x128 .f32) (r : Fin 512) (f : Fin 4000) :
    k1_pay3 (F := Ideal) v0 v2 (ix2 r f) = dot (row v0 r) (row v2 f) := by
  unfold k1_pay3
  rw [pay1_eq, shapeCast_self]
  exact matmul_rows_apply v0 v2 r f

/-- The second product at `(r, f)`: entity row `r` against row `f` of the second fact block. -/
theorem pay4_apply (v0 : Vec Ideal S512x128 .f32) (v4 : Vec Ideal S4000x128 .f32) (r : Fin 512) (f : Fin 4000) :
    k1_pay4 (F := Ideal) v0 v4 (ix2 r f) = dot (row v0 r) (row v4 f) := by
  unfold k1_pay4
  rw [pay1_eq, shapeCast_self]
  exact matmul_rows_apply v0 v4 r f

/-- A minimum-reduction over one axis, read at the extended reals: the fold of `min` from the accumulator's value
    over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The exponential of a vector at an index is the extended reals' exponential of the element. -/
theorem exp_apply {s : Shape} {φ : FTy} (a : FVec Ideal s φ) (i : s.Idx) : exp a i = Ideal.exp (a i) := rfl

/-- A scalar constant's word read at the extended reals. -/
theorem scalar_ofBits (φ : FTy) (b : BitVec φ.bits) : Scalar.ofBits (F := Ideal) φ b = Ideal.ofBits φ b := rfl

/-- The minimum over the fact axis of a `[512, 4000]` block, at row `r`: the fold of `min` from `+∞` over the row. -/
theorem minimumf_row (src : FVec Ideal S512x4000 .f32) (hφ : FKind.Formats .f32)
    (hacc : (0x7F800000#32 : BitVec 32) = FKind.minimumf.neutral .f32 hφ) (r : Fin 512) :
    multiReduction .minimumf [1] S512 src 0x7F800000#32 reduces_S512x4000_S512 hφ hacc (ix1 r)
      = Finset.univ.fold min POSINF (fun f : Fin 4000 => src (ix2 r f)) := by
  refine (multiReduction_minimumf_single src 0x7F800000#32 reduces_S512x4000_S512 hφ hacc (ix1 r)).trans ?_
  refine congrArg (Finset.univ.fold min POSINF) (funext fun f => ?_)
  exact congrArg src (funext fun a => Fin.ext (by match a with | ⟨0, _⟩ => rfl | ⟨1, _⟩ => rfl))

/-- The stored row of the first output, over any squared-norm column `v8`, product block `v10` and row `w` of the
    entity-independent part: at lane `r` it is `exp ((0 - max (min_f (w f - 2 v10 (r, f)) + v8 r) 0) · ½)`. -/
theorem pay6_gen (v8 : FVec Ideal S512x1 .f32) (v10 : FVec Ideal S512x4000 .f32) (w : Vec Ideal S1x4000 .f32)
    (u : Fin 1) (r : Fin 512) :
    k1_pay6 (F := Ideal) v8 v10 w (ix2 u r)
      = Ideal.exp ((ZERO - max (Finset.univ.fold min POSINF
          (fun f : Fin 4000 => w (ix2 (0 : Fin 1) f) - TWO * v10 (ix2 r f)) + v8 (ix2 r (0 : Fin 1))) ZERO) * HALF) := by
  unfold k1_pay6
  refine (shapeCast_a_1a_apply _ shapeCasts_S512_S1x512 u r).trans ?_
  repeat rw [scalar_ofBits]
  rw [exp_apply, mulf_apply, subf_apply, broadcast_apply, broadcast_apply]
  refine congrArg (fun t => Ideal.exp ((ZERO - t) * HALF)) ?_
  refine (shapeCast_a1_a_apply _ shapeCasts_S512x1_S512 r).trans ?_
  rw [maximumf_apply, addf_apply, broadcast_apply]
  refine congrArg (fun t => max (t + v8 (ix2 r (0 : Fin 1))) ZERO) ?_
  refine (shapeCast_a_a1_apply _ shapeCasts_S512_S512x1 r (0 : Fin 1)).trans ?_
  refine (minimumf_row _ _ _ r).trans ?_
  refine congrArg (Finset.univ.fold min POSINF) (funext fun f => ?_)
  rw [subf_apply, mulf_apply, broadcast_apply]
  refine congrArg (fun t => t - TWO * v10 (ix2 r f)) ?_
  refine (broadcastTo_1b_ab_apply _ broadcasts_S1x4000_S512x4000 r f).trans ?_
  rw [shapeCast_shapeCast]

/-- The scaled, clamped distance of the second output before the exponential, over any squared-norm column `v8`,
    product block `v9` and row `w` of the entity-independent part: at lane `r` it is
    `(0 - max (min_f (w f - 2 v9 (r, f)) + v8 r) 0) · ½`. -/
theorem pay7_gen (v8 : FVec Ideal S512x1 .f32) (v9 : FVec Ideal S512x4000 .f32) (w : Vec Ideal S1x4000 .f32) (r : Fin 512) :
    k1_pay7 (F := Ideal) v8 v9 w (ix1 r)
      = (ZERO - max (Finset.univ.fold min POSINF
          (fun f : Fin 4000 => w (ix2 (0 : Fin 1) f) - TWO * v9 (ix2 r f)) + v8 (ix2 r (0 : Fin 1))) ZERO) * HALF := by
  unfold k1_pay7
  repeat rw [scalar_ofBits]
  rw [mulf_apply, subf_apply, broadcast_apply, broadcast_apply]
  refine congrArg (fun t => (ZERO - t) * HALF) ?_
  refine (shapeCast_a1_a_apply _ shapeCasts_S512x1_S512 r).trans ?_
  rw [maximumf_apply, addf_apply, broadcast_apply]
  refine congrArg (fun t => max (t + v8 (ix2 r (0 : Fin 1))) ZERO) ?_
  refine (shapeCast_a_a1_apply _ shapeCasts_S512_S512x1 r (0 : Fin 1)).trans ?_
  refine (minimumf_row _ _ _ r).trans ?_
  refine congrArg (Finset.univ.fold min POSINF) (funext fun f => ?_)
  rw [subf_apply, mulf_apply, broadcast_apply]
  refine congrArg (fun t => t - TWO * v9 (ix2 r f)) ?_
  refine (broadcastTo_1b_ab_apply _ broadcasts_S1x4000_S512x4000 r f).trans ?_
  rw [shapeCast_shapeCast]

/-- The stored row of the second output: the exponential of its operand, lane by lane. -/
theorem pay5_apply (v54 : FVec Ideal S512 .f32) (u : Fin 1) (r : Fin 512) :
    k1_pay5 (F := Ideal) v54 (ix2 u r) = Ideal.exp (v54 (ix1 r)) := by
  unfold k1_pay5
  refine (shapeCast_a_1a_apply _ shapeCasts_S512_S1x512 u r).trans ?_
  rw [exp_apply]

/-- What a trip stores into its row of the first output, at lane `r`: the tiled score of the entity row `r` against
    the second fact block, with `w` the trip's row of the entity-independent part. -/
theorem pay6_apply (v0 : Vec Ideal S512x128 .f32) (v4 : Vec Ideal S4000x128 .f32) (w : Vec Ideal S1x4000 .f32) (r : Fin 512) :
    k1_pay6 (F := Ideal) (k1_pay2 v0) (k1_pay4 v0 v4) w (ix2 (0 : Fin 1) r)
      = kerVal (fun f => w (ix2 (0 : Fin 1) f)) (fun f => dot (row v0 r) (row v4 f)) (dot (row v0 r) (row v0 r)) := by
  refine (pay6_gen _ _ w (0 : Fin 1) r).trans ?_
  unfold kerVal
  rw [pay2_apply]
  refine congrArg (fun g => Ideal.exp ((ZERO - max (Finset.univ.fold min POSINF g + dot (row v0 r) (row v0 r)) ZERO) * HALF))
    (funext fun f => ?_)
  rw [pay4_apply]

/-- What a trip stores into its row of the second output, at lane `r`: the tiled score of the entity row `r` against
    the first fact block, with `w` the trip's row of the entity-independent part. -/
theorem pay57_apply (v0 : Vec Ideal S512x128 .f32) (v2 : Vec Ideal S4000x128 .f32) (w : Vec Ideal S1x4000 .f32) (r : Fin 512) :
    k1_pay5 (F := Ideal) (k1_pay7 (k1_pay2 v0) (k1_pay3 v0 v2) w) (ix2 (0 : Fin 1) r)
      = kerVal (fun f => w (ix2 (0 : Fin 1) f)) (fun f => dot (row v0 r) (row v2 f)) (dot (row v0 r) (row v0 r)) := by
  refine (pay5_apply _ (0 : Fin 1) r).trans ?_
  rw [pay7_gen]
  unfold kerVal
  rw [pay2_apply]
  refine congrArg (fun g => Ideal.exp ((ZERO - max (Finset.univ.fold min POSINF g + dot (row v0 r) (row v0 r)) ZERO) * HALF))
    (funext fun f => ?_)
  rw [pay3_apply]

end Cert.MainPay

end
-- ==== Proof.Arrays.lean ====
/-
  From the blocks to the arrays, for both regions, whatever the bodies compute.

  Region 0 has one grid point and every window's block is its whole array: a block coordinate is the array
  coordinate, so each input block is the array as the region finds it, and each output array ends as the
  body's result of the input arrays.

  Region 1 has 8 grid points. Window 0 moves 512 rows per point: row r of the block at point t is row
  512 t + r of the array. Windows 1 to 4 are whole arrays. The output windows 5 and 6 move 512 columns per
  point: column r of what point t leaves is column 512 t + r of the final array, since the blocks of
  distinct points share no column and together cover all 4096.
-/
import proofs.«159620_j37701222924630_2_alg».proof.Proof.FrameKI
import Idealize.ShloMosaic.Lib.Pipeline.Value
import Idealize.ShloMosaic.Lib.ValueIdx

set_option maxRecDepth 16384

noncomputable section

namespace Cert.KernelIdeal.ArrV

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

variable (V : (c : Dev nD) → (b : Ref sig .tc) → Buf (Elt F) ((c : Thread nD τ).loc b))

/-! # Region 0 -/

/-- Every window of region 0 sits at block index 0 on both axes, at its one grid point. -/
theorem index0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Window 0's block is its whole array. -/
theorem iblk0_0 (c : Dev nD) (t : Fin cfg0.N) : iblk0 V c 0 t = V c main_v0 := by
  obtain ⟨e0, e1, -⟩ := index0 t
  funext j
  show V c main_v0 (((cfg0.win 0).blk t).view.emb j) = V c main_v0 j
  refine congrArg (V c main_v0) (funext fun a => Fin.ext ?_)
  match a with
  | ⟨0, _⟩ => show win0_0.index t (0 : Fin 2) * 8 + 1 * (j 0).val = (j 0).val; omega
  | ⟨1, _⟩ => show win0_0.index t (1 : Fin 2) * 128 + 1 * (j 1).val = (j 1).val; omega

/-- Window 1's block is its whole array. -/
theorem iblk0_1 (c : Dev nD) (t : Fin cfg0.N) : iblk0 V c 1 t = V c main_v1 := by
  have h := index0 t
  funext j
  show V c main_v1 (((cfg0.win 1).blk t).view.emb j) = V c main_v1 j
  refine congrArg (V c main_v1) (funext fun a => Fin.ext ?_)
  match a with
  | ⟨0, _⟩ => show win0_1.index t (0 : Fin 2) * 8 + 1 * (j 0).val = (j 0).val; omega
  | ⟨1, _⟩ => show win0_1.index t (1 : Fin 2) * 128 + 1 * (j 1).val = (j 1).val; omega

/-- Window 2's block is its whole array. -/
theorem iblk0_2 (c : Dev nD) (t : Fin cfg0.N) : iblk0 V c 2 t = V c main_v2 := by
  have h := index0 t
  funext j
  show V c main_v2 (((cfg0.win 2).blk t).view.emb j) = V c main_v2 j
  refine congrArg (V c main_v2) (funext fun a => Fin.ext ?_)
  match a with
  | ⟨0, _⟩ => show win0_2.index t (0 : Fin 2) * 8 + 1 * (j 0).val = (j 0).val; omega
  | ⟨1, _⟩ => show win0_2.index t (1 : Fin 2) * 128 + 1 * (j 1).val = (j 1).val; omega

/-- Window 3's block is its whole array. -/
theorem iblk0_3 (c : Dev nD) (t : Fin cfg0.N) : iblk0 V c 3 t = V c main_v3 := by
  have h := index0 t
  funext j
  show V c main_v3 (((cfg0.win 3).blk t).view.emb j) = V c main_v3 j
  refine congrArg (V c main_v3) (funext fun a => Fin.ext ?_)
  match a with
  | ⟨0, _⟩ => show win0_3.index t (0 : Fin 2) * 4000 + 1 * (j 0).val = (j 0).val; omega
  | ⟨1, _⟩ => show win0_3.index t (1 : Fin 2) * 128 + 1 * (j 1).val = (j 1).val; omega

/-- Window 4's block is its whole array. -/
theorem iblk0_4 (c : Dev nD) (t : Fin cfg0.N) : iblk0 V c 4 t = V c main_v4 := by
  have h := index0 t
  funext j
  show V c main_v4 (((cfg0.win 4).blk t).view.emb j) = V c main_v4 j
  refine congrArg (V c main_v4) (funext fun a => Fin.ext ?_)
  match a with
  | ⟨0, _⟩ => show win0_4.index t (0 : Fin 2) * 4000 + 1 * (j 0).val = (j 0).val; omega
  | ⟨1, _⟩ => show win0_4.index t (1 : Fin 2) * 128 + 1 * (j 1).val = (j 1).val; omega

/-- Window 5's block is its whole array. -/
theorem iblk0_5 (c : Dev nD) (t : Fin cfg0.N) : iblk0 V c 5 t = V c main_v5 := by
  have h := index0 t
  funext j
  show V c main_v5 (((cfg0.win 5).blk t).view.emb j) = V c main_v5 j
  refine congrArg (V c main_v5) (funext fun a => Fin.ext ?_)
  match a with
  | ⟨0, _⟩ => show win0_5.index t (0 : Fin 2) * 4000 + 1 * (j 0).val = (j 0).val; omega
  | ⟨1, _⟩ => show win0_5.index t (1 : Fin 2) * 128 + 1 * (j 1).val = (j 1).val; omega

/-- An index of output window 6's array is in the point's block iff each coordinate is in the block's range. -/
theorem mem_blk0_6 (t : Fin cfg0.N) (i : S8x4000.Idx) :
    i ∈ ((cfg0.win 6).blk t).view.set ↔ ∀ a : Fin 2, win0_6.index t a * S8x4000.size a ≤ (i a).val ∧ (i a).val < win0_6.index t a * S8x4000.size a + S8x4000.size a := by
  show i ∈ ((View.whole main_v6_0).slice (win0_6.rect t)).set ↔ _
  rw [View.set_slice_whole, Rect.mem_set_unit]
  exact Iff.rfl

/-- What the point writes back to output window 6 is the one block, the whole, of the staged contents. -/
theorem cut_eq_read0_6 (t : Fin cfg0.N) (G : Vec F S8x4000 .f32) :
    (cfg0.win 6).cut (grid0.coords t) G = ((cfg0.win 6).blk t).view.read (Elt F) G := by
  have h := index0 t
  funext j
  show G ((cfg0.win 6).xinj (grid0.coords t) j) = G (((cfg0.win 6).blk t).view.emb j)
  refine congrArg G (funext fun a => Fin.ext ?_)
  match a with
  | ⟨0, _⟩ => show (j 0).val = win0_6.index t (0 : Fin 2) * 8 + 1 * (j 0).val; omega
  | ⟨1, _⟩ => show (j 1).val = win0_6.index t (1 : Fin 2) * 4000 + 1 * (j 1).val; omega

/-- The one point's block covers output window 6's array. -/
theorem cover0_6 (i : S8x4000.Idx) :
    ∃ t : Fin cfg0.N, (cfg0.win 6).flush t = true ∧ i ∈ ((cfg0.win 6).blk t).view.set := by
  have hN : 0 < cfg0.N := by rw [show cfg0.N = 1 from N_0]; exact Nat.one_pos
  refine ⟨⟨0, hN⟩, flush0_6 _, ?_⟩
  rw [mem_blk0_6]
  have h := index0 ⟨0, hN⟩
  have hi0 : (i 0).val < 8 := (i 0).isLt
  have hi1 : (i 1).val < 4000 := (i 1).isLt
  intro a
  match a with
  | ⟨0, _⟩ => show win0_6.index ⟨0, hN⟩ (0 : Fin 2) * 8 ≤ (i 0).val ∧ (i 0).val < win0_6.index ⟨0, hN⟩ (0 : Fin 2) * 8 + 8; omega
  | ⟨1, _⟩ => show win0_6.index ⟨0, hN⟩ (1 : Fin 2) * 4000 ≤ (i 1).val ∧ (i 1).val < win0_6.index ⟨0, hN⟩ (1 : Fin 2) * 4000 + 4000; omega

/-- Output window 6's array after region 0: the body's result of the input arrays as the region finds them. -/
theorem arr0_6 (c : Dev nD) :
    (dat0 V c).arrAt 6 cfg0.N
      = out0_6 (V c main_v0) (V c main_v1) (V c main_v2) (V c main_v3) (V c main_v4) (V c main_v5) := by
  refine (dat0 V c).arrAt_eq_of_cover 6
    (out0_6 (V c main_v0) (V c main_v1) (V c main_v2) (V c main_v3) (V c main_v4) (V c main_v5)) (fun t _ => ?_) cover0_6
  show (cfg0.win 6).cut (grid0.coords t) ((dat0 V c).after 6 t) = _
  rw [after0_6, iblk0_0, iblk0_1, iblk0_2, iblk0_3, iblk0_4, iblk0_5]
  exact cut_eq_read0_6 t _

/-- An index of output window 7's array is in the point's block iff each coordinate is in the block's range. -/
theorem mem_blk0_7 (t : Fin cfg0.N) (i : S8x4000.Idx) :
    i ∈ ((cfg0.win 7).blk t).view.set ↔ ∀ a : Fin 2, win0_7.index t a * S8x4000.size a ≤ (i a).val ∧ (i a).val < win0_7.index t a * S8x4000.size a + S8x4000.size a := by
  show i ∈ ((View.whole main_v6_1).slice (win0_7.rect t)).set ↔ _
  rw [View.set_slice_whole, Rect.mem_set_unit]
  exact Iff.rfl

/-- What the point writes back to output window 7 is the one block, the whole, of the staged contents. -/
theorem cut_eq_read0_7 (t : Fin cfg0.N) (G : Vec F S8x4000 .f32) :
    (cfg0.win 7).cut (grid0.coords t) G = ((cfg0.win 7).blk t).view.read (Elt F) G := by
  have h := index0 t
  funext j
  show G ((cfg0.win 7).xinj (grid0.coords t) j) = G (((cfg0.win 7).blk t).view.emb j)
  refine congrArg G (funext fun a => Fin.ext ?_)
  match a with
  | ⟨0, _⟩ => show (j 0).val = win0_7.index t (0 : Fin 2) * 8 + 1 * (j 0).val; omega
  | ⟨1, _⟩ => show (j 1).val = win0_7.index t (1 : Fin 2) * 4000 + 1 * (j 1).val; omega

/-- The one point's block covers output window 7's array. -/
theorem cover0_7 (i : S8x4000.Idx) :
    ∃ t : Fin cfg0.N, (cfg0.win 7).flush t = true ∧ i ∈ ((cfg0.win 7).blk t).view.set := by
  have hN : 0 < cfg0.N := by rw [show cfg0.N = 1 from N_0]; exact Nat.one_pos
  refine ⟨⟨0, hN⟩, flush0_7 _, ?_⟩
  rw [mem_blk0_7]
  have h := index0 ⟨0, hN⟩
  have hi0 : (i 0).val < 8 := (i 0).isLt
  have hi1 : (i 1).val < 4000 := (i 1).isLt
  intro a
  match a with
  | ⟨0, _⟩ => show win0_7.index ⟨0, hN⟩ (0 : Fin 2) * 8 ≤ (i 0).val ∧ (i 0).val < win0_7.index ⟨0, hN⟩ (0 : Fin 2) * 8 + 8; omega
  | ⟨1, _⟩ => show win0_7.index ⟨0, hN⟩ (1 : Fin 2) * 4000 ≤ (i 1).val ∧ (i 1).val < win0_7.index ⟨0, hN⟩ (1 : Fin 2) * 4000 + 4000; omega

/-- Output window 7's array after region 0: the body's result of the input arrays as the region finds them. -/
theorem arr0_7 (c : Dev nD) :
    (dat0 V c).arrAt 7 cfg0.N
      = out0_7 (V c main_v0) (V c main_v1) (V c main_v2) (V c main_v3) (V c main_v4) (V c main_v5) := by
  refine (dat0 V c).arrAt_eq_of_cover 7
    (out0_7 (V c main_v0) (V c main_v1) (V c main_v2) (V c main_v3) (V c main_v4) (V c main_v5)) (fun t _ => ?_) cover0_7
  show (cfg0.win 7).cut (grid0.coords t) ((dat0 V c).after 7 t) = _
  rw [after0_7, iblk0_0, iblk0_1, iblk0_2, iblk0_3, iblk0_4, iblk0_5]
  exact cut_eq_read0_7 t _

/-! # Region 1 -/

/-- The block indices of region 1's windows at each of its 8 grid points: window 0 moves along the rows and
    the output windows 5 and 6 along the columns, with the point; windows 1 to 4 stay at 0. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-- Row 512 t + r is a row of the 4096. -/
theorem row_lt (t : Fin cfg1.N) (r : Fin 512) : 512 * t.val + r.val < 4096 := by
  have ht := t.isLt
  have hN : cfg1.N = 8 := N_1
  have hr := r.isLt
  omega

/-- Row r of window 0's block at point t is row 512 t + r of its array. -/
theorem iblk1_0_apply (c : Dev nD) (t : Fin cfg1.N) (r : Fin 512) (k : Fin 128) :
    iblk1 V c 0 t (ix2 r k) = V c main_v7 (ix2 (⟨512 * t.val + r.val, row_lt t r⟩ : Fin 4096) k) := by
  have h := index1 t
  show V c main_v7 (((cfg1.win 0).blk t).view.emb (ix2 r k)) = _
  refine congrArg (V c main_v7) (funext fun a => Fin.ext ?_)
  match a with
  | ⟨0, _⟩ => show win1_0.index t (0 : Fin 2) * 512 + 1 * r.val = 512 * t.val + r.val; omega
  | ⟨1, _⟩ => show win1_0.index t (1 : Fin 2) * 128 + 1 * k.val = k.val; omega

/-- Window 1's block is its whole array, at every point. -/
theorem iblk1_1 (c : Dev nD) (t : Fin cfg1.N) : iblk1 V c 1 t = V c main_v4 := by
  have h := index1 t
  funext j
  show V c main_v4 (((cfg1.win 1).blk t).view.emb j) = V c main_v4 j
  refine congrArg (V c main_v4) (funext fun a => Fin.ext ?_)
  match a with
  | ⟨0, _⟩ => show win1_1.index t (0 : Fin 2) * 4000 + 1 * (j 0).val = (j 0).val; omega
  | ⟨1, _⟩ => show win1_1.index t (1 : Fin 2) * 128 + 1 * (j 1).val = (j 1).val; omega

/-- Window 2's block is its whole array, at every point. -/
theorem iblk1_2 (c : Dev nD) (t : Fin cfg1.N) : iblk1 V c 2 t = V c main_v5 := by
  have h := index1 t
  funext j
  show V c main_v5 (((cfg1.win 2).blk t).view.emb j) = V c main_v5 j
  refine congrArg (V c main_v5) (funext fun a => Fin.ext ?_)
  match a with
  | ⟨0, _⟩ => show win1_2.index t (0 : Fin 2) * 4000 + 1 * (j 0).val = (j 0).val; omega
  | ⟨1, _⟩ => show win1_2.index t (1 : Fin 2) * 128 + 1 * (j 1).val = (j 1).val; omega

/-- Window 3's block is its whole array, at every point. -/
theorem iblk1_3 (c : Dev nD) (t : Fin cfg1.N) : iblk1 V c 3 t = V c main_v6_0 := by
  have h := index1 t
  funext j
  show V c main_v6_0 (((cfg1.win 3).blk t).view.emb j) = V c main_v6_0 j
  refine congrArg (V c main_v6_0) (funext fun a => Fin.ext ?_)
  match a with
  | ⟨0, _⟩ => show win1_3.index t (0 : Fin 2) * 8 + 1 * (j 0).val = (j 0).val; omega
  | ⟨1, _⟩ => show win1_3.index t (1 : Fin 2) * 4000 + 1 * (j 1).val = (j 1).val; omega

/-- Window 4's block is its whole array, at every point. -/
theorem iblk1_4 (c : Dev nD) (t : Fin cfg1.N) : iblk1 V c 4 t = V c main_v6_1 := by
  have h := index1 t
  funext j
  show V c main_v6_1 (((cfg1.win 4).blk t).view.emb j) = V c main_v6_1 j
  refine congrArg (V c main_v6_1) (funext fun a => Fin.ext ?_)
  match a with
  | ⟨0, _⟩ => show win1_4.index t (0 : Fin 2) * 8 + 1 * (j 0).val = (j 0).val; omega
  | ⟨1, _⟩ => show win1_4.index t (1 : Fin 2) * 4000 + 1 * (j 1).val = (j 1).val; omega

/-- Distinct points put output window 5's block at distinct block indices. -/
theorem index_inj1_5 (t t' : Fin cfg1.N) (h : win1_5.index t = win1_5.index t') : t = t' := by
  have e := index1 t
  have e' := index1 t'
  have h1 : win1_5.index t (1 : Fin 2) = win1_5.index t' (1 : Fin 2) := congrFun h 1
  exact Fin.ext (by omega)

/-- So the blocks of two distinct points share no index of the array. -/
theorem disjoint1_5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (index_inj1_5 t t' h)

/-- Column 512 t + r of output window 5's array after region 1 is column r of what point t leaves. -/
theorem arr1_5_apply (c : Dev nD) (t : Fin cfg1.N) (b : Fin 8) (r : Fin 512) :
    (dat1 V c).arrAt 5 cfg1.N (ix2 b (⟨512 * t.val + r.val, row_lt t r⟩ : Fin 4096)) = (outsAt1 V c t).1 (ix2 b r) := by
  have h := index1 t
  have e : ((cfg1.win 5).blk t).view.emb (ix2 b r) = ix2 b (⟨512 * t.val + r.val, row_lt t r⟩ : Fin 4096) := by
    funext a
    apply Fin.ext
    match a with
    | ⟨0, _⟩ => show win1_5.index t (0 : Fin 2) * 8 + 1 * b.val = b.val; omega
    | ⟨1, _⟩ => show win1_5.index t (1 : Fin 2) * 512 + 1 * r.val = 512 * t.val + r.val; omega
  refine (congrArg ((dat1 V c).arrAt 5 cfg1.N) e).symm.trans ?_
  refine ((dat1 V c).arrAt_emb_eq_flushed 5 disjoint1_5 t (flush1_5 t) (ix2 b r)).trans ?_
  show (cfg1.win 5).cut (grid1.coords t) ((dat1 V c).after 5 t) (ix2 b r) = _
  rw [after1_5]
  exact congrArg (outsAt1 V c t).1 (funext fun a => Fin.ext rfl)

/-- Distinct points put output window 6's block at distinct block indices. -/
theorem index_inj1_6 (t t' : Fin cfg1.N) (h : win1_6.index t = win1_6.index t') : t = t' := by
  have e := index1 t
  have e' := index1 t'
  have h1 : win1_6.index t (1 : Fin 2) = win1_6.index t' (1 : Fin 2) := congrFun h 1
  exact Fin.ext (by omega)

/-- So the blocks of two distinct points share no index of the array. -/
theorem disjoint1_6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (index_inj1_6 t t' h)

/-- Column 512 t + r of output window 6's array after region 1 is column r of what point t leaves. -/
theorem arr1_6_apply (c : Dev nD) (t : Fin cfg1.N) (b : Fin 8) (r : Fin 512) :
    (dat1 V c).arrAt 6 cfg1.N (ix2 b (⟨512 * t.val + r.val, row_lt t r⟩ : Fin 4096)) = (outsAt1 V c t).2 (ix2 b r) := by
  have h := index1 t
  have e : ((cfg1.win 6).blk t).view.emb (ix2 b r) = ix2 b (⟨512 * t.val + r.val, row_lt t r⟩ : Fin 4096) := by
    funext a
    apply Fin.ext
    match a with
    | ⟨0, _⟩ => show win1_6.index t (0 : Fin 2) * 8 + 1 * b.val = b.val; omega
    | ⟨1, _⟩ => show win1_6.index t (1 : Fin 2) * 512 + 1 * r.val = 512 * t.val + r.val; omega
  refine (congrArg ((dat1 V c).arrAt 6 cfg1.N) e).symm.trans ?_
  refine ((dat1 V c).arrAt_emb_eq_flushed 6 disjoint1_6 t (flush1_6 t) (ix2 b r)).trans ?_
  show (cfg1.win 6).cut (grid1.coords t) ((dat1 V c).after 6 t) (ix2 b r) = _
  rw [after1_6]
  exact congrArg (outsAt1 V c t).2 (funext fun a => Fin.ext rfl)

end Cert.KernelIdeal.ArrV

end
-- ==== Proof.MainPieces.lean ====
/-
  What region 1's loop over the eight batch rows leaves in its two output tiles, read at an entry (b, r):
  trip k stores one row into each tile, row k, and that row is the score's payload of row k of the tile's
  coefficient array; the eight rows tile the 8 × 512 tile, so entry (b, r) is entry r of trip b's row. The
  loads through whole-buffer rectangles read the buffers' contents, and the load of row k of a coefficient
  array reads that row.
-/
import proofs.«159620_j37701222924630_2_alg».proof.Proof.FrameKI
import Idealize.ShloMosaic.Lib.Pipeline.Value
import Idealize.ShloMosaic.Lib.ValueIdx

set_option maxRecDepth 16384

noncomputable section

namespace Cert.MainPieces

open Cert.KernelIdeal Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Both zero offsets of a rank-two rectangle, as a constant function. -/
theorem hz2 : (![0, 0] : Fin 2 → Nat) = fun _ => 0 := funext fun a => by fin_cases a <;> rfl

/-! ## The loop's offsets: trip k addresses row k, column 0 -/

/-- The loop makes eight trips. -/
theorem trips_eq : k1_t1_loop.trips = 8 := by decide

/-- The coefficient rows' offsets at trip k: row k … -/
theorem off1_0 (k : Fin k1_t1_loop.trips) : k1_off1 k 0 = k.val := by
  obtain ⟨k, hk⟩ := k
  have hk' : k < 8 := hk
  interval_cases k <;> rfl
/-- … column 0. -/
theorem off1_1 (k : Fin k1_t1_loop.trips) : k1_off1 k 1 = 0 := rfl
/-- The output rows' offsets at trip k: row k … -/
theorem off2_0 (k : Fin k1_t1_loop.trips) : k1_off2 k 0 = k.val := by
  obtain ⟨k, hk⟩ := k
  have hk' : k < 8 := hk
  interval_cases k <;> rfl
/-- … column 0. -/
theorem off2_1 (k : Fin k1_t1_loop.trips) : k1_off2 k 1 = 0 := rfl

/-! ## The loads -/

/-- A load of a whole 512 × 128 buffer reads its contents. -/
theorem load_whole_a (arg : Memref sig .tc .vmem S512x128 .f32) (harg : arg.IsWhole) (x : Vec F S512x128 .f32) :
    View.readAt (Elt F) arg.view (Rect.unit (s := S512x128) ![0, 0] S512x128.size inb_S512x128_S512x128_0_0).toLoadRect (harg.unread x) = x := by
  rw [View.readAt_eq_ld, harg.read_unread, View.ld_unit_zero (S := S512x128) hz2]

/-- A load of a whole 4000 × 128 buffer reads its contents. -/
theorem load_whole_b (arg : Memref sig .tc .vmem S4000x128 .f32) (harg : arg.IsWhole) (x : Vec F S4000x128 .f32) :
    View.readAt (Elt F) arg.view (Rect.unit (s := S4000x128) ![0, 0] S4000x128.size inb_S4000x128_S4000x128_0_0).toLoadRect (harg.unread x) = x := by
  rw [View.readAt_eq_ld, harg.read_unread, View.ld_unit_zero (S := S4000x128) hz2]

/-- Trip k's load of one row of a coefficient array reads row k. -/
theorem load_row (arg : Memref sig .tc .vmem S8x4000 .f32) (harg : arg.IsWhole) (x : Vec F S8x4000 .f32)
    (k : Fin k1_t1_loop.trips) :
    View.readAt (Elt F) arg.view (Rect.unit (s := S8x4000) (k1_off1 k) S1x4000.size (k1_off1_inb k)).toLoadRect (harg.unread x)
      = fun j : S1x4000.Idx => x (ix2 (⟨k.val, trips_eq ▸ k.isLt⟩ : Fin 8) (⟨(j 1).val, (j 1).isLt⟩ : Fin 4000)) := by
  rw [View.readAt_eq_ld, harg.read_unread]
  funext j
  refine congrArg x (funext fun a => Fin.ext ?_)
  match a with
  | ⟨0, _⟩ =>
    show k1_off1 k 0 + 1 * (j 0).val = k.val
    have h0 : (j 0).val < 1 := (j 0).isLt
    rw [off1_0]; omega
  | ⟨1, _⟩ =>
    show k1_off1 k 1 + 1 * (j 1).val = (j 1).val
    rw [off1_1]; omega

/-! ## The row pieces as blocks of one function of the tile's index -/

/-- Every piece of the first tile's list is some trip's row piece. -/
theorem mem_rows5 (arg4 : Memref sig .tc .vmem S8x4000 .f32) (v0 : Vec F S512x128 .f32) (v4 : Vec F S4000x128 .f32)
    (X : BufTy.Contents (Elt F) arg4.view.ty) :
    ∀ (n : ℕ) (p : View.Piece (Elt F) S8x512 .f32), p ∈ rows5 arg4 v0 v4 X n → ∃ k, p = piece5 arg4 v0 v4 X k
  | 0, p, h => absurd h List.not_mem_nil
  | n + 1, p, h => by
    rw [rows5] at h
    by_cases hn : n < k1_t1_loop.trips
    · rw [dif_pos hn] at h
      rcases List.mem_cons.mp h with rfl | h'
      · exact ⟨⟨n, hn⟩, rfl⟩
      · exact mem_rows5 arg4 v0 v4 X n p h'
    · rw [dif_neg hn] at h
      exact mem_rows5 arg4 v0 v4 X n p h

/-- Every piece of the second tile's list is some trip's row piece. -/
theorem mem_rows6 (arg5 : Memref sig .tc .vmem S8x4000 .f32) (v0 : Vec F S512x128 .f32) (v2 : Vec F S4000x128 .f32)
    (X : BufTy.Contents (Elt F) arg5.view.ty) :
    ∀ (n : ℕ) (p : View.Piece (Elt F) S8x512 .f32), p ∈ rows6 arg5 v0 v2 X n → ∃ k, p = piece6 arg5 v0 v2 X k
  | 0, p, h => absurd h List.not_mem_nil
  | n + 1, p, h => by
    rw [rows6] at h
    by_cases hn : n < k1_t1_loop.trips
    · rw [dif_pos hn] at h
      rcases List.mem_cons.mp h with rfl | h'
      · exact ⟨⟨n, hn⟩, rfl⟩
      · exact mem_rows6 arg5 v0 v2 X n p h'
    · rw [dif_neg hn] at h
      exact mem_rows6 arg5 v0 v2 X n p h

/-- The first tile as one function of its index (b, r): entry r of the first score's payload of row b of the
    first coefficient array. -/
def G5 (v0 : Vec F S512x128 .f32) (v4 : Vec F S4000x128 .f32) (x3 : Vec F S8x4000 .f32) : S8x512.Idx → Elt F .f32 :=
  fun y => k1_pay6 (k1_pay2 v0) (k1_pay4 v0 v4)
    (fun j : S1x4000.Idx => x3 (ix2 (⟨(y 0).val, (y 0).isLt⟩ : Fin 8) (⟨(j 1).val, (j 1).isLt⟩ : Fin 4000)))
    (ix2 (0 : Fin 1) (⟨(y 1).val, (y 1).isLt⟩ : Fin 512))

/-- The second tile as one function of its index (b, r). -/
def G6 (v0 : Vec F S512x128 .f32) (v2 : Vec F S4000x128 .f32) (x4 : Vec F S8x4000 .f32) : S8x512.Idx → Elt F .f32 :=
  fun y => k1_pay5 (k1_pay7 (k1_pay2 v0) (k1_pay3 v0 v2)
      (fun j : S1x4000.Idx => x4 (ix2 (⟨(y 0).val, (y 0).isLt⟩ : Fin 8) (⟨(j 1).val, (j 1).isLt⟩ : Fin 4000))))
    (ix2 (0 : Fin 1) (⟨(y 1).val, (y 1).isLt⟩ : Fin 512))

/-- Where trip k's row rectangle puts its entry x: at (k, x 1). -/
theorem emb_row (k : Fin k1_t1_loop.trips) (x : S1x512.Idx) :
    (Rect.unit (s := S8x512) (k1_off2 k) S1x512.size (k1_off2_inb k)).emb x
      = ix2 (⟨k.val, trips_eq ▸ k.isLt⟩ : Fin 8) (⟨(x 1).val, (x 1).isLt⟩ : Fin 512) := by
  funext a
  apply Fin.ext
  match a with
  | ⟨0, _⟩ =>
    show k1_off2 k 0 + 1 * (x 0).val = k.val
    have h0 : (x 0).val < 1 := (x 0).isLt
    rw [off2_0]; omega
  | ⟨1, _⟩ =>
    show k1_off2 k 1 + 1 * (x 1).val = (x 1).val
    rw [off2_1]; omega

/-- An index of a one-row block is (0, its column). -/
theorem row_idx (x : S1x512.Idx) : x = ix2 (0 : Fin 1) (⟨(x 1).val, (x 1).isLt⟩ : Fin 512) := by
  funext a
  apply Fin.ext
  match a with
  | ⟨0, _⟩ =>
    show (x 0).val = 0
    have h0 : (x 0).val < 1 := (x 0).isLt
    omega
  | ⟨1, _⟩ => rfl

/-- Trip k's piece of the first tile is the block of G5 its rectangle names. -/
theorem piece5_spec (arg4 : Memref sig .tc .vmem S8x4000 .f32) (harg4 : arg4.IsWhole) (v0 : Vec F S512x128 .f32)
    (v4 : Vec F S4000x128 .f32) (x3 : Vec F S8x4000 .f32) (k : Fin k1_t1_loop.trips) (x : S1x512.Idx) :
    (piece5 arg4 v0 v4 (harg4.unread x3) k).2 x = G5 v0 v4 x3 ((piece5 arg4 v0 v4 (harg4.unread x3) k).1.emb x) := by
  show k1_pay6 (k1_pay2 v0) (k1_pay4 v0 v4) (View.readAt (Elt F) arg4.view (Rect.unit (s := S8x4000) (k1_off1 k) S1x4000.size (k1_off1_inb k)).toLoadRect (harg4.unread x3)) x
    = G5 v0 v4 x3 ((Rect.unit (s := S8x512) (k1_off2 k) S1x512.size (k1_off2_inb k)).emb x)
  rw [load_row, emb_row]
  exact congrArg _ (row_idx x)

/-- Trip k's piece of the second tile is the block of G6 its rectangle names. -/
theorem piece6_spec (arg5 : Memref sig .tc .vmem S8x4000 .f32) (harg5 : arg5.IsWhole) (v0 : Vec F S512x128 .f32)
    (v2 : Vec F S4000x128 .f32) (x4 : Vec F S8x4000 .f32) (k : Fin k1_t1_loop.trips) (x : S1x512.Idx) :
    (piece6 arg5 v0 v2 (harg5.unread x4) k).2 x = G6 v0 v2 x4 ((piece6 arg5 v0 v2 (harg5.unread x4) k).1.emb x) := by
  show k1_pay5 (k1_pay7 (k1_pay2 v0) (k1_pay3 v0 v2) (View.readAt (Elt F) arg5.view (Rect.unit (s := S8x4000) (k1_off1 k) S1x4000.size (k1_off1_inb k)).toLoadRect (harg5.unread x4))) x
    = G6 v0 v2 x4 ((Rect.unit (s := S8x512) (k1_off2 k) S1x512.size (k1_off2_inb k)).emb x)
  rw [load_row, emb_row]
  exact congrArg _ (row_idx x)

/-! ## The two tiles read at (b, r) -/

/-- The first output tile after the loop, at (b, r): entry r of the first score's payload of row b of the first
    coefficient array (the eight row pieces tile the tile, and each is the block of G5 its rectangle names). -/
theorem out1_5_row (c : Dev nD) (i : grid1.Coords) (arg1 : Memref sig .tc .vmem S512x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x4000 .f32) (harg4 : arg4.IsWhole) (arg5 : Memref sig .tc .vmem S8x4000 .f32) (harg5 : arg5.IsWhole) (arg6 : Memref sig .tc .vmem S8x512 .f32) (harg6 : arg6.IsWhole) (arg7 : Memref sig .tc .vmem S8x512 .f32) (harg7 : arg7.IsWhole)
    (x0 : Vec F S512x128 .f32) (x1 : Vec F S4000x128 .f32) (x2 : Vec F S4000x128 .f32) (x3 : Vec F S8x4000 .f32) (x4 : Vec F S8x4000 .f32) (b : Fin 8) (r : Fin 512) :
    GenP.out1_A_5 (F := F) c i arg1 harg1 arg2 harg2 arg3 harg3 arg4 harg4 arg5 harg5 arg6 harg6 arg7 harg7 x0 x1 x2 x3 x4 (ix2 b r)
      = k1_pay6 (k1_pay2 x0) (k1_pay4 x0 x2) (fun j : S1x4000.Idx => x3 (ix2 b (⟨(j 1).val, (j 1).isLt⟩ : Fin 4000))) (ix2 (0 : Fin 1) r) := by
  unfold GenP.out1_A_5
  rw [View.read_writes_eq_canon _ _ _ (cover1_A_5 c i arg1 harg1 arg2 harg2 arg3 harg3 arg4 harg4 arg5 harg5 arg6 harg6 arg7 harg7 x0 x1 x2 x3 x4)]
  have hc := cover1_A_5 c i arg1 harg1 arg2 harg2 arg3 harg3 arg4 harg4 arg5 harg5 arg6 harg6 arg7 harg7 x0 x1 x2 x3 x4 (ix2 b r)
  unfold kernelRun1_A at hc ⊢
  dsimp only at hc ⊢
  rw [load_whole_a, load_whole_b] at hc ⊢
  refine (View.canon_apply_of_pieces (G5 x0 x2 x3) _ (fun p hp x => ?_) (ix2 b r) hc).trans rfl
  obtain ⟨k, rfl⟩ := mem_rows5 _ _ _ _ _ p hp
  exact piece5_spec arg4 harg4 x0 x2 x3 k x

/-- The second output tile after the loop, at (b, r): entry r of the second score's payload of row b of the second
    coefficient array. -/
theorem out1_6_row (c : Dev nD) (i : grid1.Coords) (arg1 : Memref sig .tc .vmem S512x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S8x4000 .f32) (harg4 : arg4.IsWhole) (arg5 : Memref sig .tc .vmem S8x4000 .f32) (harg5 : arg5.IsWhole) (arg6 : Memref sig .tc .vmem S8x512 .f32) (harg6 : arg6.IsWhole) (arg7 : Memref sig .tc .vmem S8x512 .f32) (harg7 : arg7.IsWhole)
    (x0 : Vec F S512x128 .f32) (x1 : Vec F S4000x128 .f32) (x2 : Vec F S4000x128 .f32) (x3 : Vec F S8x4000 .f32) (x4 : Vec F S8x4000 .f32) (b : Fin 8) (r : Fin 512) :
    GenP.out1_A_6 (F := F) c i arg1 harg1 arg2 harg2 arg3 harg3 arg4 harg4 arg5 harg5 arg6 harg6 arg7 harg7 x0 x1 x2 x3 x4 (ix2 b r)
      = k1_pay5 (k1_pay7 (k1_pay2 x0) (k1_pay3 x0 x1) (fun j : S1x4000.Idx => x4 (ix2 b (⟨(j 1).val, (j 1).isLt⟩ : Fin 4000)))) (ix2 (0 : Fin 1) r) := by
  unfold GenP.out1_A_6
  rw [View.read_writes_eq_canon _ _ _ (cover1_A_6 c i arg1 harg1 arg2 harg2 arg3 harg3 arg4 harg4 arg5 harg5 arg6 harg6 arg7 harg7 x0 x1 x2 x3 x4)]
  have hc := cover1_A_6 c i arg1 harg1 arg2 harg2 arg3 harg3 arg4 harg4 arg5 harg5 arg6 harg6 arg7 harg7 x0 x1 x2 x3 x4 (ix2 b r)
  unfold kernelRun1_A at hc ⊢
  dsimp only at hc ⊢
  rw [load_whole_a, load_whole_b] at hc ⊢
  refine (View.canon_apply_of_pieces (G6 x0 x1 x4) _ (fun p hp x => ?_) (ix2 b r) hc).trans rfl
  obtain ⟨k, rfl⟩ := mem_rows6 _ _ _ _ _ p hp
  exact piece6_spec arg5 harg5 x0 x1 x4 k x

end Cert.MainPieces

end
-- ==== Proof.KerValue.lean ====
/-
  The tiled program's two results, entry by entry, as functions of rows of the argument arrays.

  Entry (b, n) of a result is the leading-columns slice of what the second region writes back; entity row n lies
  in tile n / 512 at row n % 512, whose body stores into row b of the output tile the score's payload of row b of
  a coefficient array (the first region's output, itself a function of zero-padded argument rows), of the tile's
  entity rows and of a zero-padded fact array. Zero padding changes no inner product, so every inner product below
  is one of rows of length 100 of the arguments themselves.
-/
import proofs.«159620_j37701222924630_2_alg».proof.Proof.FoldKI
import proofs.«159620_j37701222924630_2_alg».proof.Proof.Spec
import proofs.«159620_j37701222924630_2_alg».proof.Proof.Prelude
import proofs.«159620_j37701222924630_2_alg».proof.Proof.Pads
import proofs.«159620_j37701222924630_2_alg».proof.Proof.MainPay
import proofs.«159620_j37701222924630_2_alg».proof.Proof.Arrays
import proofs.«159620_j37701222924630_2_alg».proof.Proof.MainPieces
set_option maxRecDepth 16384

noncomputable section

namespace Cert.KernelIdeal.KerV

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

open Cert.KernelIdeal.FoldV Cert.Spec

/-- The host's padding scalar is zero. -/
theorem zpad_ix0 : zpad (F := Ideal) ix0 = 0 := by
  show (((0#32 : BitVec 32).toInt : ℝ) : EReal) = 0
  norm_num

/-- A row of a right-padded array is the row followed by zeros. -/
theorem row_pad8 (x : (⟨S8x100, .f32⟩ : BufTy).Contents (Elt Ideal)) (b : Fin 8) :
    row (pad8 x) b = fun k : Fin 128 => if h : k.val < 100 then row x b ⟨k.val, h⟩ else 0 := by
  funext k
  show pad8 x (ix2 b k) = _
  unfold pad8
  rw [Cert.Pads.pad8_apply, zpad_ix0]
  rfl

theorem row_pad4000 (x : (⟨S4000x100, .f32⟩ : BufTy).Contents (Elt Ideal)) (n : Fin 4000) :
    row (pad4000 x) n = fun k : Fin 128 => if h : k.val < 100 then row x n ⟨k.val, h⟩ else 0 := by
  funext k
  show pad4000 x (ix2 n k) = _
  unfold pad4000
  rw [Cert.Pads.pad4000_apply, zpad_ix0]
  rfl

theorem row_pad4096 (x : (⟨S4000x100, .f32⟩ : BufTy).Contents (Elt Ideal)) (n : Fin 4096) (hn : n.val < 4000) :
    row (pad4096 x) n = fun k : Fin 128 => if h : k.val < 100 then row x ⟨n.val, hn⟩ ⟨k.val, h⟩ else 0 := by
  funext k
  show pad4096 x (ix2 n k) = _
  unfold pad4096
  rw [Cert.Pads.pad4096_apply, zpad_ix0]
  by_cases h : k.val < 100
  · rw [dif_pos ⟨hn, h⟩, dif_pos h]; rfl
  · rw [dif_neg (fun h' => h h'.2), dif_neg h]

variable (m : (ℓ : Loc nD τ sig) → Buf (Elt Ideal) ℓ) (ρ : Dev nD → PrngReg)

/-- The inner product of two zero-padded rows is the inner product of the rows. -/
theorem dot_pad8_4000 (x : (⟨S8x100, .f32⟩ : BufTy).Contents (Elt Ideal)) (y : (⟨S4000x100, .f32⟩ : BufTy).Contents (Elt Ideal)) (b : Fin 8) (f : Fin 4000) :
    dot (row (pad8 x) b) (row (pad4000 y) f) = dot (row x b) (row y f) := by
  rw [row_pad8, row_pad4000]; exact Cert.Pads.dot_pad _ _
theorem dot_pad8_8 (x y : (⟨S8x100, .f32⟩ : BufTy).Contents (Elt Ideal)) (b : Fin 8) :
    dot (row (pad8 x) b) (row (pad8 y) b) = dot (row x b) (row y b) := by
  rw [row_pad8, row_pad8]; exact Cert.Pads.dot_pad _ _
theorem dot_pad4000_4000 (x y : (⟨S4000x100, .f32⟩ : BufTy).Contents (Elt Ideal)) (f : Fin 4000) :
    dot (row (pad4000 x) f) (row (pad4000 y) f) = dot (row x f) (row y f) := by
  rw [row_pad4000, row_pad4000]; exact Cert.Pads.dot_pad _ _
theorem dot_pad4096_4000 (x y : (⟨S4000x100, .f32⟩ : BufTy).Contents (Elt Ideal)) (n : Fin 4096) (hn : n.val < 4000) (f : Fin 4000) :
    dot (row (pad4096 x) n) (row (pad4000 y) f) = dot (row x ⟨n.val, hn⟩) (row y f) := by
  rw [row_pad4096 x n hn, row_pad4000]; exact Cert.Pads.dot_pad _ _
theorem dot_pad4096_4096 (x : (⟨S4000x100, .f32⟩ : BufTy).Contents (Elt Ideal)) (n : Fin 4096) (hn : n.val < 4000) :
    dot (row (pad4096 x) n) (row (pad4096 x) n) = dot (row x ⟨n.val, hn⟩) (row x ⟨n.val, hn⟩) := by
  rw [row_pad4096 x n hn]; exact Cert.Pads.dot_pad _ _

/-- The first coefficient array the prelude leaves, entry (b, f), from the rows of the arguments. -/
theorem csp_val (c : Dev nD) (b : Fin 8) (f : Fin 4000) :
    V15 m ρ c main_v6_0 (ix2 b f)
      = cterm (sum3 (dot (row (m ((c : Thread nD τ).loc main_arg3)) f) (row (m ((c : Thread nD τ).loc main_arg3)) f))
                    (dot (row (m ((c : Thread nD τ).loc main_arg4)) f) (row (m ((c : Thread nD τ).loc main_arg4)) f))
                    (dot (row (m ((c : Thread nD τ).loc main_arg5)) f) (row (m ((c : Thread nD τ).loc main_arg5)) f)))
          (dot (row (m ((c : Thread nD τ).loc main_arg0)) b) (row (m ((c : Thread nD τ).loc main_arg3)) f))
          (dot (row (m ((c : Thread nD τ).loc main_arg1)) b) (row (m ((c : Thread nD τ).loc main_arg4)) f))
          (dot (row (m ((c : Thread nD τ).loc main_arg0)) b) (row (m ((c : Thread nD τ).loc main_arg0)) b))
          (dot (row (m ((c : Thread nD τ).loc main_arg1)) b) (row (m ((c : Thread nD τ).loc main_arg1)) b)) := by
  rw [V15_v6_0, Cert.KernelIdeal.ArrV.arr0_6 (V12 m ρ) c, V12_v0, V12_v1, V12_v2, V12_v3, V12_v4, V12_v5]
  refine (Cert.Prelude.out0_6_apply (pad8 (m ((c : Thread nD τ).loc main_arg0))) (pad8 (m ((c : Thread nD τ).loc main_arg1))) (pad8 (m ((c : Thread nD τ).loc main_arg2))) (pad4000 (m ((c : Thread nD τ).loc main_arg3))) (pad4000 (m ((c : Thread nD τ).loc main_arg4))) (pad4000 (m ((c : Thread nD τ).loc main_arg5))) b f).trans ?_
  rw [dot_pad4000_4000, dot_pad4000_4000, dot_pad4000_4000, dot_pad8_4000, dot_pad8_4000, dot_pad8_8, dot_pad8_8]

/-- The second coefficient array the prelude leaves, entry (b, f). -/
theorem cpo_val (c : Dev nD) (b : Fin 8) (f : Fin 4000) :
    V15 m ρ c main_v6_1 (ix2 b f)
      = cterm (sum3 (dot (row (m ((c : Thread nD τ).loc main_arg3)) f) (row (m ((c : Thread nD τ).loc main_arg3)) f))
                    (dot (row (m ((c : Thread nD τ).loc main_arg4)) f) (row (m ((c : Thread nD τ).loc main_arg4)) f))
                    (dot (row (m ((c : Thread nD τ).loc main_arg5)) f) (row (m ((c : Thread nD τ).loc main_arg5)) f)))
          (dot (row (m ((c : Thread nD τ).loc main_arg0)) b) (row (m ((c : Thread nD τ).loc main_arg3)) f))
          (dot (row (m ((c : Thread nD τ).loc main_arg2)) b) (row (m ((c : Thread nD τ).loc main_arg5)) f))
          (dot (row (m ((c : Thread nD τ).loc main_arg0)) b) (row (m ((c : Thread nD τ).loc main_arg0)) b))
          (dot (row (m ((c : Thread nD τ).loc main_arg2)) b) (row (m ((c : Thread nD τ).loc main_arg2)) b)) := by
  rw [V15_v6_1, Cert.KernelIdeal.ArrV.arr0_7 (V12 m ρ) c, V12_v0, V12_v1, V12_v2, V12_v3, V12_v4, V12_v5]
  refine (Cert.Prelude.out0_7_apply (pad8 (m ((c : Thread nD τ).loc main_arg0))) (pad8 (m ((c : Thread nD τ).loc main_arg1))) (pad8 (m ((c : Thread nD τ).loc main_arg2))) (pad4000 (m ((c : Thread nD τ).loc main_arg3))) (pad4000 (m ((c : Thread nD τ).loc main_arg4))) (pad4000 (m ((c : Thread nD τ).loc main_arg5))) b f).trans ?_
  rw [dot_pad4000_4000, dot_pad4000_4000, dot_pad4000_4000, dot_pad8_4000, dot_pad8_4000, dot_pad8_8, dot_pad8_8]

/-- Entity row n sits in tile n / 512 at row n % 512. -/
theorem tile_lt (n : Fin 4000) : n.val / 512 < cfg1.N := by
  have := n.isLt; have hN : cfg1.N = 8 := N_1; omega

/-- The row of the tile's entity block is the zero-padded entity row. -/
theorem ent_row (c : Dev nD) (t : Fin cfg1.N) (r : Fin 512) :
    row (iblk1 (V15 m ρ) c 0 t) r = row (pad4096 (m ((c : Thread nD τ).loc main_arg6))) (⟨512 * t.val + r.val, Cert.KernelIdeal.ArrV.row_lt t r⟩ : Fin 4096) := by
  funext k
  show iblk1 (V15 m ρ) c 0 t (ix2 r k) = pad4096 (m ((c : Thread nD τ).loc main_arg6)) (ix2 _ k)
  rw [Cert.KernelIdeal.ArrV.iblk1_0_apply, V15_v7]

/-- THE FIRST RESULT at (b, n): the tiled arrangement of the score over the rows of the arguments. -/
theorem ker_sp (c : Dev nD) (b : Fin 8) (n : Fin 4000) :
    W17 m ρ c (Proc.devRef .tc main_v9) (ix2 b n)
      = kerVal (fun f => cterm (sum3 (dot (row (m ((c : Thread nD τ).loc main_arg3)) f) (row (m ((c : Thread nD τ).loc main_arg3)) f))
                    (dot (row (m ((c : Thread nD τ).loc main_arg4)) f) (row (m ((c : Thread nD τ).loc main_arg4)) f))
                    (dot (row (m ((c : Thread nD τ).loc main_arg5)) f) (row (m ((c : Thread nD τ).loc main_arg5)) f)))
          (dot (row (m ((c : Thread nD τ).loc main_arg0)) b) (row (m ((c : Thread nD τ).loc main_arg3)) f))
          (dot (row (m ((c : Thread nD τ).loc main_arg1)) b) (row (m ((c : Thread nD τ).loc main_arg4)) f))
          (dot (row (m ((c : Thread nD τ).loc main_arg0)) b) (row (m ((c : Thread nD τ).loc main_arg0)) b))
          (dot (row (m ((c : Thread nD τ).loc main_arg1)) b) (row (m ((c : Thread nD τ).loc main_arg1)) b)))
        (fun f => dot (row (m ((c : Thread nD τ).loc main_arg6)) n) (row (m ((c : Thread nD τ).loc main_arg5)) f))
        (dot (row (m ((c : Thread nD τ).loc main_arg6)) n) (row (m ((c : Thread nD τ).loc main_arg6)) n)) := by
  have hr : n.val % 512 < 512 := Nat.mod_lt _ (by decide)
  have hn' : 512 * (n.val / 512) + n.val % 512 = n.val := Nat.div_add_mod n.val 512
  -- the slice, then the tile's block
  rw [W17_v9]
  refine (extractStridedSlice_apply ![0, 0] _ slices_S8x4096_S8x4000_0_0 (ix2 b n)
    (ix2 b (⟨512 * (⟨n.val / 512, tile_lt n⟩ : Fin cfg1.N).val + (⟨n.val % 512, hr⟩ : Fin 512).val, Cert.KernelIdeal.ArrV.row_lt _ _⟩ : Fin 4096)) ?_).trans ?_
  · intro a
    match a with
    | ⟨0, _⟩ => show b.val = 0 + b.val; omega
    | ⟨1, _⟩ => show 512 * (n.val / 512) + n.val % 512 = 0 + n.val; omega
  rw [Cert.KernelIdeal.ArrV.arr1_5_apply (V15 m ρ) c ⟨n.val / 512, tile_lt n⟩ b ⟨n.val % 512, hr⟩]
  unfold outsAt1
  dsimp only
  rw [Cert.MainPieces.out1_5_row, Cert.MainPay.pay6_apply]
  -- the three ingredients
  have hn4 : (⟨512 * (⟨n.val / 512, tile_lt n⟩ : Fin cfg1.N).val + (⟨n.val % 512, hr⟩ : Fin 512).val, Cert.KernelIdeal.ArrV.row_lt _ _⟩ : Fin 4096).val < 4000 := by
    show 512 * (n.val / 512) + n.val % 512 < 4000
    have := n.isLt; omega
  have hnn : (⟨512 * (n.val / 512) + n.val % 512, hn4⟩ : Fin 4000) = n := Fin.ext hn'
  congr 1
  · funext f
    show iblk1 (V15 m ρ) c 3 ⟨n.val / 512, tile_lt n⟩ (ix2 b ⟨f.val, f.isLt⟩) = _
    rw [Cert.KernelIdeal.ArrV.iblk1_3]
    exact csp_val m ρ c b f
  · funext f
    rw [ent_row, Cert.KernelIdeal.ArrV.iblk1_2, V15_v5, dot_pad4096_4000 _ _ _ hn4]
    show dot (row _ (⟨512 * (n.val / 512) + n.val % 512, hn4⟩ : Fin 4000)) _ = _
    rw [hnn]
  · rw [ent_row, dot_pad4096_4096 _ _ hn4]
    show dot (row _ (⟨512 * (n.val / 512) + n.val % 512, hn4⟩ : Fin 4000)) (row _ (⟨512 * (n.val / 512) + n.val % 512, hn4⟩ : Fin 4000)) = _
    rw [hnn]

/-- THE SECOND RESULT at (b, n): the same arrangement with the third argument and the second fact array. -/
theorem ker_po (c : Dev nD) (b : Fin 8) (n : Fin 4000) :
    W17 m ρ c (Proc.devRef .tc main_v10) (ix2 b n)
      = kerVal (fun f => cterm (sum3 (dot (row (m ((c : Thread nD τ).loc main_arg3)) f) (row (m ((c : Thread nD τ).loc main_arg3)) f))
                    (dot (row (m ((c : Thread nD τ).loc main_arg4)) f) (row (m ((c : Thread nD τ).loc main_arg4)) f))
                    (dot (row (m ((c : Thread nD τ).loc main_arg5)) f) (row (m ((c : Thread nD τ).loc main_arg5)) f)))
          (dot (row (m ((c : Thread nD τ).loc main_arg0)) b) (row (m ((c : Thread nD τ).loc main_arg3)) f))
          (dot (row (m ((c : Thread nD τ).loc main_arg2)) b) (row (m ((c : Thread nD τ).loc main_arg5)) f))
          (dot (row (m ((c : Thread nD τ).loc main_arg0)) b) (row (m ((c : Thread nD τ).loc main_arg0)) b))
          (dot (row (m ((c : Thread nD τ).loc main_arg2)) b) (row (m ((c : Thread nD τ).loc main_arg2)) b)))
        (fun f => dot (row (m ((c : Thread nD τ).loc main_arg6)) n) (row (m ((c : Thread nD τ).loc main_arg4)) f))
        (dot (row (m ((c : Thread nD τ).loc main_arg6)) n) (row (m ((c : Thread nD τ).loc main_arg6)) n)) := by
  have hr : n.val % 512 < 512 := Nat.mod_lt _ (by decide)
  have hn' : 512 * (n.val / 512) + n.val % 512 = n.val := Nat.div_add_mod n.val 512
  rw [W17_v10]
  refine (extractStridedSlice_apply ![0, 0] _ slices_S8x4096_S8x4000_0_0 (ix2 b n)
    (ix2 b (⟨512 * (⟨n.val / 512, tile_lt n⟩ : Fin cfg1.N).val + (⟨n.val % 512, hr⟩ : Fin 512).val, Cert.KernelIdeal.ArrV.row_lt _ _⟩ : Fin 4096)) ?_).trans ?_
  · intro a
    match a with
    | ⟨0, _⟩ => show b.val = 0 + b.val; omega
    | ⟨1, _⟩ => show 512 * (n.val / 512) + n.val % 512 = 0 + n.val; omega
  rw [Cert.KernelIdeal.ArrV.arr1_6_apply (V15 m ρ) c ⟨n.val / 512, tile_lt n⟩ b ⟨n.val % 512, hr⟩]
  unfold outsAt1
  dsimp only
  rw [Cert.MainPieces.out1_6_row, Cert.MainPay.pay57_apply]
  have hn4 : (⟨512 * (⟨n.val / 512, tile_lt n⟩ : Fin cfg1.N).val + (⟨n.val % 512, hr⟩ : Fin 512).val, Cert.KernelIdeal.ArrV.row_lt _ _⟩ : Fin 4096).val < 4000 := by
    show 512 * (n.val / 512) + n.val % 512 < 4000
    have := n.isLt; omega
  have hnn : (⟨512 * (n.val / 512) + n.val % 512, hn4⟩ : Fin 4000) = n := Fin.ext hn'
  congr 1
  · funext f
    show iblk1 (V15 m ρ) c 4 ⟨n.val / 512, tile_lt n⟩ (ix2 b ⟨f.val, f.isLt⟩) = _
    rw [Cert.KernelIdeal.ArrV.iblk1_4]
    exact cpo_val m ρ c b f
  · funext f
    rw [ent_row, Cert.KernelIdeal.ArrV.iblk1_1, V15_v4, dot_pad4096_4000 _ _ _ hn4]
    show dot (row _ (⟨512 * (n.val / 512) + n.val % 512, hn4⟩ : Fin 4000)) _ = _
    rw [hnn]
  · rw [ent_row, dot_pad4096_4096 _ _ hn4]
    show dot (row _ (⟨512 * (n.val / 512) + n.val % 512, hn4⟩ : Fin 4000)) (row _ (⟨512 * (n.val / 512) + n.val % 512, hn4⟩ : Fin 4000)) = _
    rw [hnn]

end Cert.KernelIdeal.KerV
end
-- ==== Proof.RefRead.lean ====
/-
  The plain program's two results read at an index (b, n): each is the maximum over the fact rows f of
  exp (-(max (|q|² + |φ_f|² - 2 q·φ_f) 0) / 2), where the query q and the fact φ_f are three rows of length 100
  laid side by side. A sum over the 300 joined coordinates is the sum of the three sums over 100, so the
  squared norms and the inner product are sums of three inner products of rows of the argument arrays.
-/
import proofs.«159620_j37701222924630_2_alg».proof.Proof.Gen.ReferenceIdeal.Read
import proofs.«159620_j37701222924630_2_alg».proof.Proof.Spec

noncomputable section

open scoped BigOperators
open Idealize.ShloMosaic Idealize.ShloMosaic.ValueIdx
open Cert.ReferenceIdeal Cert.ReferenceIdeal.Gen Cert.Spec

namespace Cert.RefRead

/-- A sum over 300 coordinates is the sum of the sums over its three bands of 100. -/
theorem sum300 (F : Fin 300 → EReal) :
    ∑ d, F d = (∑ k : Fin 100, F ⟨k.val, by omega⟩) + (∑ k : Fin 100, F ⟨100 + k.val, by omega⟩)
        + ∑ k : Fin 100, F ⟨200 + k.val, by omega⟩ := by
  have h1 := Fin.sum_univ_add (M := EReal) (a := 100 + 100) (b := 100) (fun i => F ⟨i.val, by omega⟩)
  have h2 := Fin.sum_univ_add (M := EReal) (a := 100) (b := 100) (fun i => F ⟨i.val, by omega⟩)
  simp only [Fin.coe_castAdd, Fin.coe_natAdd] at h1 h2
  rw [h2] at h1
  exact h1

/-! ## The three joined arrays at an index in each band -/

section Cat
variable {α : Type}

/-- Three arrays of 100 columns joined along the columns, read in the first band … -/
theorem cat2_lo (u v w : S4000x100.Idx → α)
    (h : Shape.Concatenates [S4000x100, S4000x100, S4000x100] S4000x300 1) (f : Fin 4000) (k : Fin 100) :
    concatenate S4000x300 1 [⟨S4000x100, u⟩, ⟨S4000x100, v⟩, ⟨S4000x100, w⟩] h (ix2 f (⟨k.val, by omega⟩ : Fin 300))
      = u (ix2 f k) :=
  concatenate_apply_piece (t := S4000x300) 1
    ([⟨S4000x100, u⟩, ⟨S4000x100, v⟩, ⟨S4000x100, w⟩] : List ((s : Shape) × (s.Idx → α))) h _ 0 (by simp) S4000x100 u rfl rfl 0 rfl (ix2 f k)
    (fun c hc => by match c with | ⟨0, _⟩ => rfl | ⟨1, _⟩ => exact absurd rfl hc) (by show 0 + k.val = k.val; omega)

/-- … in the second band … -/
theorem cat2_mid (u v w : S4000x100.Idx → α)
    (h : Shape.Concatenates [S4000x100, S4000x100, S4000x100] S4000x300 1) (f : Fin 4000) (k : Fin 100) :
    concatenate S4000x300 1 [⟨S4000x100, u⟩, ⟨S4000x100, v⟩, ⟨S4000x100, w⟩] h (ix2 f (⟨100 + k.val, by omega⟩ : Fin 300))
      = v (ix2 f k) :=
  concatenate_apply_piece (t := S4000x300) 1
    ([⟨S4000x100, u⟩, ⟨S4000x100, v⟩, ⟨S4000x100, w⟩] : List ((s : Shape) × (s.Idx → α))) h _ 1 (by simp) S4000x100 v rfl rfl 100 rfl (ix2 f k)
    (fun c hc => by match c with | ⟨0, _⟩ => rfl | ⟨1, _⟩ => exact absurd rfl hc) rfl

/-- … and in the third. -/
theorem cat2_hi (u v w : S4000x100.Idx → α)
    (h : Shape.Concatenates [S4000x100, S4000x100, S4000x100] S4000x300 1) (f : Fin 4000) (k : Fin 100) :
    concatenate S4000x300 1 [⟨S4000x100, u⟩, ⟨S4000x100, v⟩, ⟨S4000x100, w⟩] h (ix2 f (⟨200 + k.val, by omega⟩ : Fin 300))
      = w (ix2 f k) :=
  concatenate_apply_piece (t := S4000x300) 1
    ([⟨S4000x100, u⟩, ⟨S4000x100, v⟩, ⟨S4000x100, w⟩] : List ((s : Shape) × (s.Idx → α))) h _ 2 (by simp) S4000x100 w rfl rfl 200 rfl (ix2 f k)
    (fun c hc => by match c with | ⟨0, _⟩ => rfl | ⟨1, _⟩ => exact absurd rfl hc) rfl

/-- Three arrays of 100 entries on the last axis joined along it, read in the first band … -/
theorem cat3_lo (u v w : S8x4000x100.Idx → α)
    (h : Shape.Concatenates [S8x4000x100, S8x4000x100, S8x4000x100] S8x4000x300 2) (b : Fin 8) (n : Fin 4000) (k : Fin 100) :
    concatenate S8x4000x300 2 [⟨S8x4000x100, u⟩, ⟨S8x4000x100, v⟩, ⟨S8x4000x100, w⟩] h (ix3 b n (⟨k.val, by omega⟩ : Fin 300))
      = u (ix3 b n k) :=
  concatenate_apply_piece (t := S8x4000x300) 2
    ([⟨S8x4000x100, u⟩, ⟨S8x4000x100, v⟩, ⟨S8x4000x100, w⟩] : List ((s : Shape) × (s.Idx → α))) h _ 0 (by simp) S8x4000x100 u rfl rfl 0 rfl (ix3 b n k)
    (fun c hc => by match c with | ⟨0, _⟩ => rfl | ⟨1, _⟩ => rfl | ⟨2, _⟩ => exact absurd rfl hc) (by show 0 + k.val = k.val; omega)

/-- … in the second band … -/
theorem cat3_mid (u v w : S8x4000x100.Idx → α)
    (h : Shape.Concatenates [S8x4000x100, S8x4000x100, S8x4000x100] S8x4000x300 2) (b : Fin 8) (n : Fin 4000) (k : Fin 100) :
    concatenate S8x4000x300 2 [⟨S8x4000x100, u⟩, ⟨S8x4000x100, v⟩, ⟨S8x4000x100, w⟩] h (ix3 b n (⟨100 + k.val, by omega⟩ : Fin 300))
      = v (ix3 b n k) :=
  concatenate_apply_piece (t := S8x4000x300) 2
    ([⟨S8x4000x100, u⟩, ⟨S8x4000x100, v⟩, ⟨S8x4000x100, w⟩] : List ((s : Shape) × (s.Idx → α))) h _ 1 (by simp) S8x4000x100 v rfl rfl 100 rfl (ix3 b n k)
    (fun c hc => by match c with | ⟨0, _⟩ => rfl | ⟨1, _⟩ => rfl | ⟨2, _⟩ => exact absurd rfl hc) rfl

/-- … and in the third. -/
theorem cat3_hi (u v w : S8x4000x100.Idx → α)
    (h : Shape.Concatenates [S8x4000x100, S8x4000x100, S8x4000x100] S8x4000x300 2) (b : Fin 8) (n : Fin 4000) (k : Fin 100) :
    concatenate S8x4000x300 2 [⟨S8x4000x100, u⟩, ⟨S8x4000x100, v⟩, ⟨S8x4000x100, w⟩] h (ix3 b n (⟨200 + k.val, by omega⟩ : Fin 300))
      = w (ix3 b n k) :=
  concatenate_apply_piece (t := S8x4000x300) 2
    ([⟨S8x4000x100, u⟩, ⟨S8x4000x100, v⟩, ⟨S8x4000x100, w⟩] : List ((s : Shape) × (s.Idx → α))) h _ 2 (by simp) S8x4000x100 w rfl rfl 200 rfl (ix3 b n k)
    (fun c hc => by match c with | ⟨0, _⟩ => rfl | ⟨1, _⟩ => rfl | ⟨2, _⟩ => exact absurd rfl hc) rfl

end Cat

/-! ## The program's broadcast rows and joined arrays at an index -/

section Bands
variable (x0 x1 x2 : (⟨S8x100, .f32⟩ : BufTy).Contents (Elt Ideal))
variable (x3 x4 x5 x6 : (⟨S4000x100, .f32⟩ : BufTy).Contents (Elt Ideal))

/-- The first argument's rows repeated over the entity rows. -/
theorem v2_at (b : Fin 8) (n : Fin 4000) (k : Fin 100) :
    Read.val_main_v2 (F := Ideal) x0 (ix3 b n k) = x0 (ix2 b k) := by
  rw [Read.val_main_v2_apply, Read.val_main_v1_apply]
  exact congrArg x0 (funext fun a => Fin.ext (by match a with | ⟨0, _⟩ => rfl | ⟨1, _⟩ => rfl))

/-- The second argument's rows repeated over the entity rows. -/
theorem v6_at (b : Fin 8) (n : Fin 4000) (k : Fin 100) :
    Read.val_main_v6 (F := Ideal) x1 (ix3 b n k) = x1 (ix2 b k) := by
  rw [Read.val_main_v6_apply, Read.val_main_v5_apply]
  exact congrArg x1 (funext fun a => Fin.ext (by match a with | ⟨0, _⟩ => rfl | ⟨1, _⟩ => rfl))

/-- The third argument's rows repeated over the entity rows. -/
theorem v29_at (b : Fin 8) (n : Fin 4000) (k : Fin 100) :
    Read.val_main_v29 (F := Ideal) x2 (ix3 b n k) = x2 (ix2 b k) := by
  rw [Read.val_main_v29_apply, Read.val_main_v28_apply]
  exact congrArg x2 (funext fun a => Fin.ext (by match a with | ⟨0, _⟩ => rfl | ⟨1, _⟩ => rfl))

/-- The entity rows repeated over the batch rows. -/
theorem v4_at (b : Fin 8) (n : Fin 4000) (k : Fin 100) :
    Read.val_main_v4 (F := Ideal) x6 (ix3 b n k) = x6 (ix2 n k) := by
  rw [Read.val_main_v4_apply, Read.val_main_v3_apply]
  exact congrArg x6 (funext fun a => Fin.ext (by match a with | ⟨0, _⟩ => rfl | ⟨1, _⟩ => rfl))

/-- The joined fact row f: its three bands are the rows f of the three fact arrays. -/
theorem v0_lo (f : Fin 4000) (k : Fin 100) :
    Read.val_main_v0 (F := Ideal) x3 x4 x5 (ix2 f (⟨k.val, by omega⟩ : Fin 300)) = x3 (ix2 f k) := by
  unfold Read.val_main_v0; exact cat2_lo _ _ _ _ f k
theorem v0_mid (f : Fin 4000) (k : Fin 100) :
    Read.val_main_v0 (F := Ideal) x3 x4 x5 (ix2 f (⟨100 + k.val, by omega⟩ : Fin 300)) = x4 (ix2 f k) := by
  unfold Read.val_main_v0; exact cat2_mid _ _ _ _ f k
theorem v0_hi (f : Fin 4000) (k : Fin 100) :
    Read.val_main_v0 (F := Ideal) x3 x4 x5 (ix2 f (⟨200 + k.val, by omega⟩ : Fin 300)) = x5 (ix2 f k) := by
  unfold Read.val_main_v0; exact cat2_hi _ _ _ _ f k

/-- The first joined query at (b, n): rows b of the first two arguments, then entity row n. -/
theorem v7_lo (b : Fin 8) (n : Fin 4000) (k : Fin 100) :
    Read.val_main_v7 (F := Ideal) x0 x1 x6 (ix3 b n (⟨k.val, by omega⟩ : Fin 300)) = x0 (ix2 b k) := by
  unfold Read.val_main_v7; exact (cat3_lo _ _ _ _ b n k).trans (v2_at x0 b n k)
theorem v7_mid (b : Fin 8) (n : Fin 4000) (k : Fin 100) :
    Read.val_main_v7 (F := Ideal) x0 x1 x6 (ix3 b n (⟨100 + k.val, by omega⟩ : Fin 300)) = x1 (ix2 b k) := by
  unfold Read.val_main_v7; exact (cat3_mid _ _ _ _ b n k).trans (v6_at x1 b n k)
theorem v7_hi (b : Fin 8) (n : Fin 4000) (k : Fin 100) :
    Read.val_main_v7 (F := Ideal) x0 x1 x6 (ix3 b n (⟨200 + k.val, by omega⟩ : Fin 300)) = x6 (ix2 n k) := by
  unfold Read.val_main_v7; exact (cat3_hi _ _ _ _ b n k).trans (v4_at x6 b n k)

/-- The second joined query at (b, n): row b of the first argument, entity row n, row b of the third argument. -/
theorem v30_lo (b : Fin 8) (n : Fin 4000) (k : Fin 100) :
    Read.val_main_v30 (F := Ideal) x0 x2 x6 (ix3 b n (⟨k.val, by omega⟩ : Fin 300)) = x0 (ix2 b k) := by
  unfold Read.val_main_v30; exact (cat3_lo _ _ _ _ b n k).trans (v2_at x0 b n k)
theorem v30_mid (b : Fin 8) (n : Fin 4000) (k : Fin 100) :
    Read.val_main_v30 (F := Ideal) x0 x2 x6 (ix3 b n (⟨100 + k.val, by omega⟩ : Fin 300)) = x6 (ix2 n k) := by
  unfold Read.val_main_v30; exact (cat3_mid _ _ _ _ b n k).trans (v4_at x6 b n k)
theorem v30_hi (b : Fin 8) (n : Fin 4000) (k : Fin 100) :
    Read.val_main_v30 (F := Ideal) x0 x2 x6 (ix3 b n (⟨200 + k.val, by omega⟩ : Fin 300)) = x2 (ix2 b k) := by
  unfold Read.val_main_v30; exact (cat3_hi _ _ _ _ b n k).trans (v29_at x2 b n k)

/-! ## Sums over the 300 joined coordinates -/

/-- The squared norm of the first joined query. -/
theorem sq7 (b : Fin 8) (n : Fin 4000) :
    ∑ d : Fin 300, Read.val_main_v7 (F := Ideal) x0 x1 x6 (ix3 b n d) * Read.val_main_v7 (F := Ideal) x0 x1 x6 (ix3 b n d)
      = sum3 (dot (row x0 b) (row x0 b)) (dot (row x1 b) (row x1 b)) (dot (row x6 n) (row x6 n)) := by
  rw [sum300]
  simp only [v7_lo, v7_mid, v7_hi]
  rfl

end Bands

section Elements
variable (x0 x1 x2 : (⟨S8x100, .f32⟩ : BufTy).Contents (Elt Ideal))
variable (x3 x4 x5 x6 : (⟨S4000x100, .f32⟩ : BufTy).Contents (Elt Ideal))

/-- The squared norm of the second joined query. -/
theorem sq30 (b : Fin 8) (n : Fin 4000) :
    ∑ d : Fin 300, Read.val_main_v30 (F := Ideal) x0 x2 x6 (ix3 b n d) * Read.val_main_v30 (F := Ideal) x0 x2 x6 (ix3 b n d)
      = sum3 (dot (row x0 b) (row x0 b)) (dot (row x6 n) (row x6 n)) (dot (row x2 b) (row x2 b)) := by
  rw [sum300]
  simp only [v30_lo, v30_mid, v30_hi]
  rfl

/-- The squared norm of the joined fact row f. -/
theorem sq0 (f : Fin 4000) :
    ∑ d : Fin 300, Read.val_main_v0 (F := Ideal) x3 x4 x5 (ix2 f d) * Read.val_main_v0 (F := Ideal) x3 x4 x5 (ix2 f d)
      = sum3 (dot (row x3 f) (row x3 f)) (dot (row x4 f) (row x4 f)) (dot (row x5 f) (row x5 f)) := by
  rw [sum300]
  simp only [v0_lo, v0_mid, v0_hi]
  rfl

/-- The inner product of the first joined query with the joined fact row f. -/
theorem dot7 (b : Fin 8) (n f : Fin 4000) :
    ∑ d : Fin 300, Read.val_main_v7 (F := Ideal) x0 x1 x6 (ix3 b n d) * Read.val_main_v0 (F := Ideal) x3 x4 x5 (ix2 f d)
      = sum3 (dot (row x0 b) (row x3 f)) (dot (row x1 b) (row x4 f)) (dot (row x6 n) (row x5 f)) := by
  rw [sum300]
  simp only [v7_lo, v7_mid, v7_hi, v0_lo, v0_mid, v0_hi]
  rfl

/-- The inner product of the second joined query with the joined fact row f. -/
theorem dot30 (b : Fin 8) (n f : Fin 4000) :
    ∑ d : Fin 300, Read.val_main_v30 (F := Ideal) x0 x2 x6 (ix3 b n d) * Read.val_main_v0 (F := Ideal) x3 x4 x5 (ix2 f d)
      = sum3 (dot (row x0 b) (row x3 f)) (dot (row x6 n) (row x4 f)) (dot (row x2 b) (row x5 f)) := by
  rw [sum300]
  simp only [v30_lo, v30_mid, v30_hi, v0_lo, v0_mid, v0_hi]
  rfl

/-! ## The operations between the sums and the final maximum, at (b, n, f) -/

/-- The first query's squared norm as the program sums it, from 0. -/
theorem v9_at (b : Fin 8) (n : Fin 4000) :
    Read.val_main_v9 (F := Ideal) x0 x1 x6 (ix2 b n)
      = ZERO + sum3 (dot (row x0 b) (row x0 b)) (dot (row x1 b) (row x1 b)) (dot (row x6 n) (row x6 n)) := by
  rw [Read.val_main_v9_apply]
  refine congrArg₂ (· + ·) rfl ?_
  refine Eq.trans (Finset.sum_congr rfl fun k _ => ?_) (sq7 x0 x1 x6 b n)
  rw [Read.val_main_v8_apply]
  have e : Read.idx_main_v9 (ix2 b n) k = ix3 b n k :=
    funext fun a => Fin.ext (by match a with | ⟨0, _⟩ => rfl | ⟨1, _⟩ => rfl | ⟨2, _⟩ => rfl)
  rw [e]; rfl

/-- The second query's squared norm as the program sums it, from 0. -/
theorem v32_at (b : Fin 8) (n : Fin 4000) :
    Read.val_main_v32 (F := Ideal) x0 x2 x6 (ix2 b n)
      = ZERO + sum3 (dot (row x0 b) (row x0 b)) (dot (row x6 n) (row x6 n)) (dot (row x2 b) (row x2 b)) := by
  rw [Read.val_main_v32_apply]
  refine congrArg₂ (· + ·) rfl ?_
  refine Eq.trans (Finset.sum_congr rfl fun k _ => ?_) (sq30 x0 x2 x6 b n)
  rw [Read.val_main_v31_apply]
  have e : Read.idx_main_v32 (ix2 b n) k = ix3 b n k :=
    funext fun a => Fin.ext (by match a with | ⟨0, _⟩ => rfl | ⟨1, _⟩ => rfl | ⟨2, _⟩ => rfl)
  rw [e]; rfl

/-- Fact row f's squared norm as the program sums it, from 0 (for the first result). -/
theorem v12_at (f : Fin 4000) :
    Read.val_main_v12 (F := Ideal) x3 x4 x5 (ix1 f)
      = ZERO + sum3 (dot (row x3 f) (row x3 f)) (dot (row x4 f) (row x4 f)) (dot (row x5 f) (row x5 f)) := by
  rw [Read.val_main_v12_apply]
  refine congrArg₂ (· + ·) rfl ?_
  refine Eq.trans (Finset.sum_congr rfl fun k _ => ?_) (sq0 x3 x4 x5 f)
  rw [Read.val_main_v11_apply]
  have e : Read.idx_main_v12 (ix1 f) k = ix2 f k :=
    funext fun a => Fin.ext (by match a with | ⟨0, _⟩ => rfl | ⟨1, _⟩ => rfl)
  rw [e]; rfl

/-- Fact row f's squared norm as the program sums it, from 0 (for the second result). -/
theorem v35_at (f : Fin 4000) :
    Read.val_main_v35 (F := Ideal) x3 x4 x5 (ix1 f)
      = ZERO + sum3 (dot (row x3 f) (row x3 f)) (dot (row x4 f) (row x4 f)) (dot (row x5 f) (row x5 f)) := by
  rw [Read.val_main_v35_apply]
  refine congrArg₂ (· + ·) rfl ?_
  refine Eq.trans (Finset.sum_congr rfl fun k _ => ?_) (sq0 x3 x4 x5 f)
  rw [Read.val_main_v34_apply]
  have e : Read.idx_main_v35 (ix1 f) k = ix2 f k :=
    funext fun a => Fin.ext (by match a with | ⟨0, _⟩ => rfl | ⟨1, _⟩ => rfl)
  rw [e]; rfl

/-- The query's squared norm repeated over the fact rows. -/
theorem v15_at (b : Fin 8) (n f : Fin 4000) :
    Read.val_main_v15 (F := Ideal) x0 x1 x6 (ix3 b n f) = Read.val_main_v9 (F := Ideal) x0 x1 x6 (ix2 b n) := by
  rw [Read.val_main_v15_apply, Read.val_main_v10_apply]
  exact congrArg (Read.val_main_v9 (F := Ideal) x0 x1 x6)
    (funext fun a => Fin.ext (by match a with | ⟨0, _⟩ => rfl | ⟨1, _⟩ => rfl))
theorem v38_at (b : Fin 8) (n f : Fin 4000) :
    Read.val_main_v38 (F := Ideal) x0 x2 x6 (ix3 b n f) = Read.val_main_v32 (F := Ideal) x0 x2 x6 (ix2 b n) := by
  rw [Read.val_main_v38_apply, Read.val_main_v33_apply]
  exact congrArg (Read.val_main_v32 (F := Ideal) x0 x2 x6)
    (funext fun a => Fin.ext (by match a with | ⟨0, _⟩ => rfl | ⟨1, _⟩ => rfl))

/-- The fact rows' squared norms repeated over the batch and entity rows. -/
theorem v16_at (b : Fin 8) (n f : Fin 4000) :
    Read.val_main_v16 (F := Ideal) x3 x4 x5 (ix3 b n f) = Read.val_main_v12 (F := Ideal) x3 x4 x5 (ix1 f) := by
  rw [Read.val_main_v16_apply, Read.val_main_v14_apply]
  exact congrArg (Read.val_main_v12 (F := Ideal) x3 x4 x5)
    (funext fun a => Fin.ext (by match a with | ⟨0, _⟩ => rfl))
theorem v39_at (b : Fin 8) (n f : Fin 4000) :
    Read.val_main_v39 (F := Ideal) x3 x4 x5 (ix3 b n f) = Read.val_main_v35 (F := Ideal) x3 x4 x5 (ix1 f) := by
  rw [Read.val_main_v39_apply, Read.val_main_v37_apply]
  exact congrArg (Read.val_main_v35 (F := Ideal) x3 x4 x5)
    (funext fun a => Fin.ext (by match a with | ⟨0, _⟩ => rfl))

/-- The contraction of the first joined query with the joined facts, at (b, n, f). -/
theorem v13_at (b : Fin 8) (n f : Fin 4000) :
    Read.val_main_v13 (F := Ideal) x0 x1 x3 x4 x5 x6 (ix3 b n f)
      = sum3 (dot (row x0 b) (row x3 f)) (dot (row x1 b) (row x4 f)) (dot (row x6 n) (row x5 f)) := by
  rw [Read.val_main_v13_apply]
  refine Eq.trans (Finset.sum_congr rfl fun k _ => ?_) (dot7 x0 x1 x3 x4 x5 x6 b n f)
  have el : Read.lidx_main_v13 (ix3 b n f) k = ix3 b n k :=
    funext fun a => Fin.ext (by match a with | ⟨0, _⟩ => rfl | ⟨1, _⟩ => rfl | ⟨2, _⟩ => rfl)
  have er : Read.ridx_main_v13 (ix3 b n f) k = ix2 f k :=
    funext fun a => Fin.ext (by match a with | ⟨0, _⟩ => rfl | ⟨1, _⟩ => rfl)
  rw [el, er]

/-- The contraction of the second joined query with the joined facts, at (b, n, f). -/
theorem v36_at (b : Fin 8) (n f : Fin 4000) :
    Read.val_main_v36 (F := Ideal) x0 x2 x3 x4 x5 x6 (ix3 b n f)
      = sum3 (dot (row x0 b) (row x3 f)) (dot (row x6 n) (row x4 f)) (dot (row x2 b) (row x5 f)) := by
  rw [Read.val_main_v36_apply]
  refine Eq.trans (Finset.sum_congr rfl fun k _ => ?_) (dot30 x0 x2 x3 x4 x5 x6 b n f)
  have el : Read.lidx_main_v36 (ix3 b n f) k = ix3 b n k :=
    funext fun a => Fin.ext (by match a with | ⟨0, _⟩ => rfl | ⟨1, _⟩ => rfl | ⟨2, _⟩ => rfl)
  have er : Read.ridx_main_v36 (ix3 b n f) k = ix2 f k :=
    funext fun a => Fin.ext (by match a with | ⟨0, _⟩ => rfl | ⟨1, _⟩ => rfl)
  rw [el, er]

end Elements

/-! ## The final maximum over the fact rows -/

/-- The shapes of the final reduction: the last of three axes is dropped. -/
theorem reduces_d2 : S8x4000x4000.Reduces [2] S8x4000 := by decide

/-- The reduced index (b, n) with fact row k put back is (b, n, k). -/
theorem lift_ix3 (h : S8x4000x4000.Reduces [2] S8x4000) (b : Fin 8) (n : Fin 4000) (k : Fin (S8x4000x4000.size 2)) :
    h.lift (ix2 b n) k = ix3 b n (⟨k.val, k.isLt⟩ : Fin 4000) := by
  funext c; apply Fin.ext
  fin_cases c <;> rfl

/-- From -∞ the maximum-reduce over the last axis, at (b, n), is the maximum over the fact rows of the
    operand's entries at (b, n, f). -/
theorem maxReduce_at (y : FVec Ideal S8x4000x4000 .f32) (g : Fin 4000 → EReal) (b : Fin 8) (n : Fin 4000)
    (hy : ∀ f : Fin 4000, y (ix3 b n f) = g f) :
    Host.reduce FloatOps.maximumf y (constant (F := Ideal) S_ .f32 0xFF800000#32) reducesTo_S8x4000x4000_S8x4000_d2 h_S_ (ix2 b n)
      = Finset.univ.fold max NEGINF g := by
  rw [Host.reduce_eq_fold_single FloatOps.maximumf y _ reducesTo_S8x4000x4000_S8x4000_d2 reduces_d2 h_S_]
  have hf : (y ∘ reduces_d2.lift (ix2 b n)) = fun k : Fin 4000 => g k :=
    funext fun k => (congrArg y (lift_ix3 reduces_d2 b n k)).trans (hy _)
  exact congrArg (fun f => Finset.fold max NEGINF f (Finset.univ : Finset (Fin 4000))) hf

section Results
variable (x0 x1 x2 : (⟨S8x100, .f32⟩ : BufTy).Contents (Elt Ideal))
variable (x3 x4 x5 x6 : (⟨S4000x100, .f32⟩ : BufTy).Contents (Elt Ideal))

/-- The splat constants read their words everywhere. -/
theorem v18_at (i : S8x4000x4000.Idx) : Read.val_main_v18 (F := Ideal) i = TWO := by
  rw [Read.val_main_v18_apply, Read.val_main_cst_1_apply]; rfl
theorem v21_at (i : S8x4000x4000.Idx) : Read.val_main_v21 (F := Ideal) i = ZERO := by
  rw [Read.val_main_v21_apply, Read.val_main_cst_2_apply]; rfl
theorem v24_at (i : S8x4000x4000.Idx) : Read.val_main_v24 (F := Ideal) i = TWO := by
  rw [Read.val_main_v24_apply, Read.val_main_cst_3_apply]; rfl
theorem v41_at (i : S8x4000x4000.Idx) : Read.val_main_v41 (F := Ideal) i = TWO := by
  rw [Read.val_main_v41_apply, Read.val_main_cst_7_apply]; rfl
theorem v44_at (i : S8x4000x4000.Idx) : Read.val_main_v44 (F := Ideal) i = ZERO := by
  rw [Read.val_main_v44_apply, Read.val_main_cst_8_apply]; rfl
theorem v47_at (i : S8x4000x4000.Idx) : Read.val_main_v47 (F := Ideal) i = TWO := by
  rw [Read.val_main_v47_apply, Read.val_main_cst_9_apply]; rfl

/-- The first result's exponential at (b, n, f). -/
theorem v26_at (b : Fin 8) (n f : Fin 4000) :
    Read.val_main_v26 (F := Ideal) x0 x1 x3 x4 x5 x6 (ix3 b n f)
      = Ideal.exp (Ideal.div (-(max (((ZERO + sum3 (dot (row x0 b) (row x0 b)) (dot (row x1 b) (row x1 b)) (dot (row x6 n) (row x6 n)))
            + (ZERO + sum3 (dot (row x3 f) (row x3 f)) (dot (row x4 f) (row x4 f)) (dot (row x5 f) (row x5 f))))
          - TWO * sum3 (dot (row x0 b) (row x3 f)) (dot (row x1 b) (row x4 f)) (dot (row x6 n) (row x5 f))) ZERO)) TWO) := by
  rw [Read.val_main_v26_apply, Read.val_main_v25_apply, Read.val_main_v23_apply, Read.val_main_v22_apply,
    Read.val_main_v20_apply, Read.val_main_v17_apply, Read.val_main_v19_apply, v15_at, v9_at, v16_at, v12_at, v13_at,
    v18_at, v21_at, v24_at]
  rfl

/-- The second result's exponential at (b, n, f). -/
theorem v49_at (b : Fin 8) (n f : Fin 4000) :
    Read.val_main_v49 (F := Ideal) x0 x2 x3 x4 x5 x6 (ix3 b n f)
      = Ideal.exp (Ideal.div (-(max (((ZERO + sum3 (dot (row x0 b) (row x0 b)) (dot (row x6 n) (row x6 n)) (dot (row x2 b) (row x2 b)))
            + (ZERO + sum3 (dot (row x3 f) (row x3 f)) (dot (row x4 f) (row x4 f)) (dot (row x5 f) (row x5 f))))
          - TWO * sum3 (dot (row x0 b) (row x3 f)) (dot (row x6 n) (row x4 f)) (dot (row x2 b) (row x5 f))) ZERO)) TWO) := by
  rw [Read.val_main_v49_apply, Read.val_main_v48_apply, Read.val_main_v46_apply, Read.val_main_v45_apply,
    Read.val_main_v43_apply, Read.val_main_v40_apply, Read.val_main_v42_apply, v38_at, v32_at, v39_at, v35_at, v36_at,
    v41_at, v44_at, v47_at]
  rfl

/-- The first result at (b, n). -/
theorem ref_sp (b : Fin 8) (n : Fin 4000) :
    Read.val_main_v27 (F := Ideal) x0 x1 x3 x4 x5 x6 (ix2 b n)
      = refVal (sum3 (dot (row x0 b) (row x0 b)) (dot (row x1 b) (row x1 b)) (dot (row x6 n) (row x6 n)))
          (fun f => sum3 (dot (row x3 f) (row x3 f)) (dot (row x4 f) (row x4 f)) (dot (row x5 f) (row x5 f)))
          (fun f => sum3 (dot (row x0 b) (row x3 f)) (dot (row x1 b) (row x4 f)) (dot (row x6 n) (row x5 f))) := by
  unfold Read.val_main_v27 Read.val_main_cst_4 refVal
  exact maxReduce_at _ _ b n (fun f => v26_at x0 x1 x3 x4 x5 x6 b n f)

/-- The second result at (b, n). -/
theorem ref_po (b : Fin 8) (n : Fin 4000) :
    Read.val_main_v50 (F := Ideal) x0 x2 x3 x4 x5 x6 (ix2 b n)
      = refVal (sum3 (dot (row x0 b) (row x0 b)) (dot (row x6 n) (row x6 n)) (dot (row x2 b) (row x2 b)))
          (fun f => sum3 (dot (row x3 f) (row x3 f)) (dot (row x4 f) (row x4 f)) (dot (row x5 f) (row x5 f)))
          (fun f => sum3 (dot (row x0 b) (row x3 f)) (dot (row x6 n) (row x4 f)) (dot (row x2 b) (row x5 f))) := by
  unfold Read.val_main_v50 Read.val_main_cst_10 refVal
  exact maxReduce_at _ _ b n (fun f => v49_at x0 x2 x3 x4 x5 x6 b n f)

end Results

end Cert.RefRead

end
-- ==== Proof.Algebra.lean ====
/-
  The algebra on the extended reals behind the equivalence of the two scores.

  The five float words denote 0, 2, ½, +∞, -∞. For finite rows every inner product is a real number.
  The tiled form applies the map y ↦ exp ((0 - max (y + s) 0) · ½) to the minimum over f of
  ε f = c f - 2 g f. The minimum of a finite nonempty family of reals is attained at some f₀; the map is
  antitone, so the image of ε f₀ is the maximum over f of the images; and for each f the image of ε f
  equals the plain form's term, as both are the coercion of the same real number
  exp (-(max (|q|² + |φ f|² - 2 q·φ f) 0) / 2).
-/
import proofs.«159620_j37701222924630_2_alg».proof.Proof.Spec

noncomputable section

open scoped BigOperators
open Idealize.ShloMosaic

namespace Cert.Algebra

open Cert.Spec

/-! ## The five words -/

theorem ZERO_eq : ZERO = 0 := by simp [Ideal.ofBits, Ideal.ieee]

theorem TWO_eq : TWO = ((2 : ℝ) : EReal) := by
  simp [Ideal.ofBits, Ideal.ieee, -EReal.coe_mul]; norm_num

theorem HALF_eq : HALF = ((1 / 2 : ℝ) : EReal) := by
  simp [Ideal.ofBits, Ideal.ieee, -EReal.coe_mul]; norm_num

theorem POSINF_eq : POSINF = ⊤ := by simp [Ideal.ofBits, Ideal.ieee]

theorem NEGINF_eq : NEGINF = ⊥ := by simp [Ideal.ofBits, Ideal.ieee]

/-! ## Coercions -/

/-- The coercion of a maximum of two reals. -/
theorem coe_max (x y : ℝ) : ((max x y : ℝ) : EReal) = max (x : EReal) (y : EReal) :=
  EReal.coe_strictMono.monotone.map_max

/-- The coercion of a finite sum of reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inner product of two rows of reals is the coercion of the real inner product. -/
theorem dot_coe {n : Nat} (u v : Fin n → ℝ) :
    dot (fun k => (u k : EReal)) (fun k => (v k : EReal)) = ((∑ k, u k * v k : ℝ) : EReal) := by
  unfold dot
  rw [coe_sum]
  exact Finset.sum_congr rfl fun k _ => (EReal.coe_mul _ _).symm

/-! ## One term of each form, at real arguments -/

/-- The tiled form's map at a real argument. -/
theorem ker_term (y s : ℝ) :
    Ideal.exp ((ZERO - max ((y : EReal) + (s : EReal)) ZERO) * HALF)
      = ((Real.exp (-(max (y + s) 0) / 2) : ℝ) : EReal) := by
  rw [ZERO_eq, HALF_eq, ← EReal.coe_add, ← EReal.coe_zero, ← coe_max, ← EReal.coe_sub, ← EReal.coe_mul,
    Ideal.exp_coe]
  congr 2
  ring

/-- The plain form's term at real arguments. -/
theorem ref_term (q2 f2 qf : ℝ) :
    Ideal.exp (Ideal.div (-(max ((((ZERO + (q2 : EReal)) + (ZERO + (f2 : EReal))) - TWO * (qf : EReal))) ZERO)) TWO)
      = ((Real.exp (-(max (q2 + f2 - 2 * qf) 0) / 2) : ℝ) : EReal) := by
  rw [ZERO_eq, TWO_eq, zero_add, zero_add, Ideal.div_coe (by norm_num : (2 : ℝ) ≠ 0), ← EReal.coe_add,
    ← EReal.coe_mul, ← EReal.coe_sub, ← EReal.coe_zero, ← coe_max, ← EReal.coe_neg, ← EReal.coe_mul,
    Ideal.exp_coe]
  congr 2
  ring

/-! ## The minimum and the maximum of a finite family of reals -/

/-- The minimum over a nonempty finite family of reals, folded from +∞, is attained. -/
theorem fold_min_coe {ι : Type*} [Fintype ι] [Nonempty ι] (ε : ι → ℝ) :
    ∃ i0, (∀ f, ε i0 ≤ ε f) ∧ Finset.univ.fold min POSINF (fun f => (ε f : EReal)) = (ε i0 : EReal) := by
  obtain ⟨i0, -, h0⟩ := Finset.exists_min_image Finset.univ ε Finset.univ_nonempty
  refine ⟨i0, fun f => h0 f (Finset.mem_univ f), ?_⟩
  rw [POSINF_eq]
  show Finset.univ.inf (fun f => (ε f : EReal)) = _
  apply le_antisymm
  · exact Finset.inf_le (Finset.mem_univ i0)
  · exact Finset.le_inf fun f _ => EReal.coe_le_coe_iff.mpr (h0 f (Finset.mem_univ f))

/-- The maximum over a finite family of reals, folded from -∞, is the value at an index that dominates. -/
theorem fold_max_coe {ι : Type*} [Fintype ι] (t : ι → ℝ) (i0 : ι) (h0 : ∀ f, t f ≤ t i0) :
    Finset.univ.fold max NEGINF (fun f => (t f : EReal)) = (t i0 : EReal) := by
  rw [NEGINF_eq]
  show Finset.univ.sup (fun f => (t f : EReal)) = _
  apply le_antisymm
  · exact Finset.sup_le fun f _ => EReal.coe_le_coe_iff.mpr (h0 f)
  · exact Finset.le_sup (f := fun f => (t f : EReal)) (Finset.mem_univ i0)

/-! ## The two forms agree at real arguments -/

/-- With c f - 2 g f + s = q2 + f2 f - 2 qf f for every f, the tiled form equals the plain form. -/
theorem core (c g f2 qf : Fin 4000 → ℝ) (s q2 : ℝ)
    (h : ∀ f, c f - 2 * g f + s = q2 + f2 f - 2 * qf f) :
    kerVal (fun f => (c f : EReal)) (fun f => (g f : EReal)) (s : EReal)
      = refVal (q2 : EReal) (fun f => (f2 f : EReal)) (fun f => (qf f : EReal)) := by
  obtain ⟨i0, hmin, hinf⟩ := fold_min_coe (fun f => c f - 2 * g f)
  have hker : (fun f => (c f : EReal) - TWO * (g f : EReal)) = fun f => ((c f - 2 * g f : ℝ) : EReal) := by
    funext f
    rw [TWO_eq, ← EReal.coe_mul, ← EReal.coe_sub]
  have href : (fun f => Ideal.exp (Ideal.div
        (-(max ((((ZERO + (q2 : EReal)) + (ZERO + (f2 f : EReal))) - TWO * (qf f : EReal))) ZERO)) TWO))
      = fun f => ((Real.exp (-(max (c f - 2 * g f + s) 0) / 2) : ℝ) : EReal) := by
    funext f
    rw [ref_term, h f]
  unfold kerVal refVal
  rw [hker, hinf, ker_term, href]
  refine (fold_max_coe (fun f => Real.exp (-(max (c f - 2 * g f + s) 0) / 2)) i0 fun f => ?_).symm
  apply Real.exp_le_exp.mpr
  have h1 : c i0 - 2 * g i0 + s ≤ c f - 2 * g f + s := by linarith [hmin f]
  have := max_le_max h1 (le_refl (0 : ℝ))
  linarith

/-! ## The two scores -/

theorem ker_eq_ref_sp (rel a e : Fin 100 → EReal) (fr fa fe : Fin 4000 → Fin 100 → EReal)
    (hrel : ∀ k, ∃ r : ℝ, rel k = (r : EReal)) (ha : ∀ k, ∃ r : ℝ, a k = (r : EReal))
    (he : ∀ k, ∃ r : ℝ, e k = (r : EReal))
    (hfr : ∀ f k, ∃ r : ℝ, fr f k = (r : EReal)) (hfa : ∀ f k, ∃ r : ℝ, fa f k = (r : EReal))
    (hfe : ∀ f k, ∃ r : ℝ, fe f k = (r : EReal)) :
    kerVal (fun f => cterm (sum3 (dot (fr f) (fr f)) (dot (fa f) (fa f)) (dot (fe f) (fe f)))
          (dot rel (fr f)) (dot a (fa f)) (dot rel rel) (dot a a))
        (fun f => dot e (fe f)) (dot e e)
      = refVal (sum3 (dot rel rel) (dot a a) (dot e e))
          (fun f => sum3 (dot (fr f) (fr f)) (dot (fa f) (fa f)) (dot (fe f) (fe f)))
          (fun f => sum3 (dot rel (fr f)) (dot a (fa f)) (dot e (fe f))) := by
  choose rel' hrel using hrel
  choose a' ha using ha
  choose e' he using he
  choose fr' hfr using hfr
  choose fa' hfa using hfa
  choose fe' hfe using hfe
  obtain rfl : rel = fun k => (rel' k : EReal) := funext hrel
  obtain rfl : a = fun k => (a' k : EReal) := funext ha
  obtain rfl : e = fun k => (e' k : EReal) := funext he
  obtain rfl : fr = fun f k => (fr' f k : EReal) := funext fun f => funext (hfr f)
  obtain rfl : fa = fun f k => (fa' f k : EReal) := funext fun f => funext (hfa f)
  obtain rfl : fe = fun f k => (fe' f k : EReal) := funext fun f => funext (hfe f)
  simp only [dot_coe, sum3, cterm, TWO_eq, ← EReal.coe_mul, ← EReal.coe_add, ← EReal.coe_sub]
  exact core _ _ _ _ _ _ (fun f => by ring)

theorem ker_eq_ref_po (rel a e : Fin 100 → EReal) (fr fa fe : Fin 4000 → Fin 100 → EReal)
    (hrel : ∀ k, ∃ r : ℝ, rel k = (r : EReal)) (ha : ∀ k, ∃ r : ℝ, a k = (r : EReal))
    (he : ∀ k, ∃ r : ℝ, e k = (r : EReal))
    (hfr : ∀ f k, ∃ r : ℝ, fr f k = (r : EReal)) (hfa : ∀ f k, ∃ r : ℝ, fa f k = (r : EReal))
    (hfe : ∀ f k, ∃ r : ℝ, fe f k = (r : EReal)) :
    kerVal (fun f => cterm (sum3 (dot (fr f) (fr f)) (dot (fe f) (fe f)) (dot (fa f) (fa f)))
          (dot rel (fr f)) (dot a (fa f)) (dot rel rel) (dot a a))
        (fun f => dot e (fe f)) (dot e e)
      = refVal (sum3 (dot rel rel) (dot e e) (dot a a))
          (fun f => sum3 (dot (fr f) (fr f)) (dot (fe f) (fe f)) (dot (fa f) (fa f)))
          (fun f => sum3 (dot rel (fr f)) (dot e (fe f)) (dot a (fa f))) := by
  choose rel' hrel using hrel
  choose a' ha using ha
  choose e' he using he
  choose fr' hfr using hfr
  choose fa' hfa using hfa
  choose fe' hfe using hfe
  obtain rfl : rel = fun k => (rel' k : EReal) := funext hrel
  obtain rfl : a = fun k => (a' k : EReal) := funext ha
  obtain rfl : e = fun k => (e' k : EReal) := funext he
  obtain rfl : fr = fun f k => (fr' f k : EReal) := funext fun f => funext (hfr f)
  obtain rfl : fa = fun f k => (fa' f k : EReal) := funext fun f => funext (hfa f)
  obtain rfl : fe = fun f k => (fe' f k : EReal) := funext fun f => funext (hfe f)
  simp only [dot_coe, sum3, cterm, TWO_eq, ← EReal.coe_mul, ← EReal.coe_add, ← EReal.coe_sub]
  exact core _ _ _ _ _ _ (fun f => by ring)

end Cert.Algebra

end
-- ==== Proof.Finite.lean ====
/-
  From the precondition to finiteness. The precondition is the conjunction, over the seven argument
  arrays, of "every entry x satisfies |x| < +∞". On the extended reals |x| = max x (-x), which is +∞ at
  both infinities, so the strict comparison holds exactly when x is a real number.
-/
import proofs.«159620_j37701222924630_2_alg».proof.Pre_finite_inputs
import Idealize.ShloMosaic.Lib.ReduceAll
import Idealize.ShloMosaic.Lib.ValueIdx
import Idealize.ShloMosaic.PureOps.Ideal

noncomputable section

open Idealize.ShloMosaic

namespace Cert.Finite

open Cert.Pre_finite_inputs

/-- The scalar shape has one index. -/
instance : Subsingleton S_.Idx := ⟨fun a b => funext fun d => d.elim0⟩

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: if the conjunction over all entries of |x| < +∞ is true, every entry is a real number. -/
theorem all_real {s : Shape} {axes : List (Fin s.rank)}
    (hb : S_.BroadcastsInDim s (![] : Fin 0 → Fin s.rank)) (hr : s.ReducesTo axes S_) (hS : 0 < S_.numel)
    (x : FVec Ideal s .f32) (init : IVec S_ 1)
    (e : Host.reduce IntOp.andi
          (cmpf .olt (Host.absf x) (broadcastInDim s ![] hb (constant S_ .f32 0x7F800000#32))) init hr hS
          ValueIdx.ix0 = 1#1) (i : s.Idx) : ∃ r : ℝ, x i = (r : EReal) :=
  real_of_abs_lt (x i) (Host.reduce_andi_all _ init hr hS ValueIdx.ix0 e i)

variable [Facts]

theorem finite_of_pre
    (a0 a1 a2 : (⟨S8x100, .f32⟩ : BufTy).Contents (Elt Ideal))
    (a3 a4 a5 a6 : (⟨S4000x100, .f32⟩ : BufTy).Contents (Elt Ideal))
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1, Idealize.ShloMosaic.andi] at h0
  rw [IntOp.andi_eq_one, IntOp.andi_eq_one, IntOp.andi_eq_one, IntOp.andi_eq_one, IntOp.andi_eq_one,
    IntOp.andi_eq_one] at h0
  obtain ⟨⟨⟨⟨⟨⟨e0, e1⟩, e2⟩, e3⟩, e4⟩, e5⟩, e6⟩ := h0
  exact ⟨all_real _ _ _ a0 _ e0, all_real _ _ _ a1 _ e1, all_real _ _ _ a2 _ e2, all_real _ _ _ a3 _ e3,
    all_real _ _ _ a4 _ e4, all_real _ _ _ a5 _ e5, all_real _ _ _ a6 _ e6⟩

end Cert.Finite

end
-- ==== Proof.lean ====
/-
  Two scores of a nearest-fact lookup, computed by a tiled program and by a plain one, are equal on the extended reals.

  For a batch row b, an entity row n and a fact row f write q for the query — three rows of length 100 laid side by
  side: (rel_b, arg1_b, ent_n) for the first score, (rel_b, ent_n, arg2_b) for the second — and φ_f for the fact
  (frel_f, farg1_f, farg2_f). The plain program computes max over f of exp (-(max (|q|² + |φ_f|² - 2 q·φ_f) 0) / 2).
  The tiled program pads every row with zeros to length 128 (and the entity rows to 4096), computes in a first
  region c[b,f] = |φ_f|² - 2 rel_b·frel_f - 2 arg_b·farg_f + |rel_b|² + |arg_b|², and in a second region, for each tile
  of 512 entity rows and each batch row, exp ((0 - max (min over f of (c[b,f] - 2 ent_n·farg'_f) + |ent_n|²) 0) · ½),
  and keeps the leading 4000 columns.

  The two agree when every input is finite. Zero padding changes no inner product; an inner product over the 300
  entries of a concatenation is the sum of the three inner products over 100; for real numbers the squared distance
  splits as the tiled program splits it; and y ↦ exp (-(max y 0) / 2) is antitone, so the maximum over f of its values
  is its value at the minimum over f. Finiteness is what makes the rearrangement of the sums valid (at an infinity
  the extended reals do not cancel), and it is the precondition.

  The frames: both kernel programs' are the frame theorem over the two regions and the host operations around them;
  the plain program's is its run with the results dropped. The idealization rewrote nothing, so there is nothing to
  preserve.
-/
import proofs.«159620_j37701222924630_2_alg».proof.Defs
import proofs.«159620_j37701222924630_2_alg».proof.Proof.Gen.Kernel
import proofs.«159620_j37701222924630_2_alg».proof.Proof.Gen.KernelIdeal
import proofs.«159620_j37701222924630_2_alg».proof.Proof.Gen.ReferenceIdeal
import proofs.«159620_j37701222924630_2_alg».proof.Proof.Gen.Pre_finite_inputs
import proofs.«159620_j37701222924630_2_alg».proof.Proof.Gen.ReferenceIdeal.Run
import proofs.«159620_j37701222924630_2_alg».proof.Proof.Gen.ReferenceIdeal.Read
import proofs.«159620_j37701222924630_2_alg».proof.Proof.FrameK
import proofs.«159620_j37701222924630_2_alg».proof.Proof.FrameKI
import proofs.«159620_j37701222924630_2_alg».proof.Proof.RunKI
import proofs.«159620_j37701222924630_2_alg».proof.Proof.KerValue
import proofs.«159620_j37701222924630_2_alg».proof.Proof.RefRead
import proofs.«159620_j37701222924630_2_alg».proof.Proof.Algebra
import proofs.«159620_j37701222924630_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.Spec

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- With finite inputs, the tiled program's two results are the plain program's, entry by entry. -/
theorem results_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.Read.val_main_v27 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.GenP.W17 m ρ c (Proc.devRef .tc Cert.KernelIdeal.main_v9)
    ∧ Cert.ReferenceIdeal.Read.val_main_v50 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.GenP.W17 m ρ c (Proc.devRef .tc Cert.KernelIdeal.main_v10) := by
  obtain ⟨h0, h1, h2, h3, h4, h5, h6⟩ := Cert.Finite.finite_of_pre _ _ _ _ _ _ _ (hpre c)
  constructor
  · funext i
    obtain ⟨b, n, rfl⟩ : ∃ (b : Fin 8) (n : Fin 4000), i = ix2 b n := ⟨i 0, i 1, eq_ix2 i⟩
    rw [Cert.RefRead.ref_sp, Cert.KernelIdeal.KerV.ker_sp]
    exact (Cert.Algebra.ker_eq_ref_sp _ _ _ _ _ _ (fun k => h0 (ix2 b k)) (fun k => h1 (ix2 b k)) (fun k => h6 (ix2 n k))
      (fun f k => h3 (ix2 f k)) (fun f k => h4 (ix2 f k)) (fun f k => h5 (ix2 f k))).symm
  · funext i
    obtain ⟨b, n, rfl⟩ : ∃ (b : Fin 8) (n : Fin 4000), i = ix2 b n := ⟨i 0, i 1, eq_ix2 i⟩
    rw [Cert.RefRead.ref_po, Cert.KernelIdeal.KerV.ker_po]
    exact (Cert.Algebra.ker_eq_ref_po _ _ _ _ _ _ (fun k => h0 (ix2 b k)) (fun k => h2 (ix2 b k)) (fun k => h6 (ix2 n k))
      (fun f k => h3 (ix2 f k)) (fun f k => h5 (ix2 f k)) (fun f k => h4 (ix2 f k))).symm

/-- Both programs run, and from memories agreeing on the arguments they end with equal results. -/
theorem algebraic : Cert.algebraic_KernelIdeal_ReferenceIdeal := by
  intro m ρ m' ρ' hpre hagree
  refine ⟨fun c => Cert.KernelIdeal.GenP.W17 m ρ c (Proc.devRef .tc Cert.KernelIdeal.main_v9),
    fun c => Cert.KernelIdeal.GenP.W17 m ρ c (Proc.devRef .tc Cert.KernelIdeal.main_v10),
    Cert.KernelIdeal.RunV.run_results (F := Ideal) m ρ, ?_⟩
  refine (θ_run Cert.ReferenceIdeal.defs _ _).mono (fun r h c => ?_) (Cert.ReferenceIdeal.Value.run (F := Ideal) m' ρ')
  obtain ⟨h27, h50, hargs⟩ := h c
  obtain ⟨e0, e1, e2, e3, e4, e5, e6⟩ := hagree c
  obtain ⟨g27, g50⟩ := results_eq m ρ hpre c
  refine ⟨h27.trans ?_, h50.trans ?_, hargs⟩
  · rw [e0, e1, e3, e4, e5, e6]; exact g27
  · rw [e0, e2, e3, e4, e5, e6]; exact g50

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
